-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S16384x1x128 : Shape := ⟨3, ![16384, 1, 128]⟩
abbrev S16384x100 : Shape := ⟨2, ![16384, 100]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S16384x1x128 : S_.BroadcastsInDim S16384x1x128 (![] : Fin 0 → Fin S16384x1x128.rank)
  reducesTo_S16384x1x128_S_d0_1_2 : S16384x1x128.ReducesTo [0, 1, 2] S_
  bcast_S_S16384x100 : S_.BroadcastsInDim S16384x100 (![] : Fin 0 → Fin S16384x100.rank)
  reducesTo_S16384x100_S_d0_1 : S16384x100.ReducesTo [0, 1] S_

variable [Facts]

def fn {F : FTy → Type} [FloatOps F] (main_arg0 : FVec F S128x128 .f32) (main_arg1 : FVec F S16384x1x128 .f32) (main_arg2 : FVec F S16384x100 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S16384x1x128 .f32 := Host.absf main_arg1
  let main_cst_0 : FVec F S_ .f32 := constant S_ .f32 0x7F800000#32
  let main_v5 : FVec F S16384x1x128 .f32 := broadcastInDim S16384x1x128 ![] bcast_S_S16384x1x128 main_cst_0
  let main_v6 : IVec S16384x1x128 1 := cmpf .olt main_v4 main_v5
  let main_c_1 : IVec S_ 1 := constantI S_ 1 1#1
  let main_v7 : IVec S_ 1 := (fun x v => Host.reduce IntOp.andi x v reducesTo_S16384x1x128_S_d0_1_2 h_S_) main_v6 main_c_1
  let main_v8 : IVec S_ 1 := andi main_v3 main_v7
  let main_v9 : FVec F S16384x100 .f32 := Host.absf main_arg2
  let main_cst_2 : FVec F S_ .f32 := constant S_ .f32 0x7F800000#32
  let main_v10 : FVec F S16384x100 .f32 := broadcastInDim S16384x100 ![] bcast_S_S16384x100 main_cst_2
  let main_v11 : IVec S16384x100 1 := cmpf .olt main_v9 main_v10
  let main_c_3 : IVec S_ 1 := constantI S_ 1 1#1
  let main_v12 : IVec S_ 1 := (fun x v => Host.reduce IntOp.andi x v reducesTo_S16384x100_S_d0_1 h_S_) main_v11 main_c_3
  let main_v13 : IVec S_ 1 := andi main_v8 main_v12
  main_v13
-- ==== Kernel.lean ====
abbrev S128x128 : Shape := ⟨2, ![128, 128]⟩
abbrev S16384x1x128 : Shape := ⟨3, ![16384, 1, 128]⟩
abbrev S16384x100 : Shape := ⟨2, ![16384, 100]⟩
abbrev S_ : Shape := ⟨0, ![]⟩
abbrev S128 : Shape := ⟨1, ![128]⟩
abbrev S128x1 : Shape := ⟨2, ![128, 1]⟩
abbrev S2x128x100 : Shape := ⟨3, ![2, 128, 100]⟩
abbrev S2x1x128 : Shape := ⟨3, ![2, 1, 128]⟩
abbrev S4096x1x128 : Shape := ⟨3, ![4096, 1, 128]⟩
abbrev S4096x100 : Shape := ⟨2, ![4096, 100]⟩
abbrev S1x128x100 : Shape := ⟨3, ![1, 128, 100]⟩
abbrev S1x1x128 : Shape := ⟨3, ![1, 1, 128]⟩
abbrev S1x128 : Shape := ⟨2, ![1, 128]⟩
abbrev S128x100 : Shape := ⟨2, ![128, 100]⟩
abbrev S4096x128 : Shape := ⟨2, ![4096, 128]⟩
abbrev S4096 : Shape := ⟨1, ![4096]⟩
abbrev S4096x1 : Shape := ⟨2, ![4096, 1]⟩

abbrev nBuf : Space → Nat
  | .hbm => 57
  | .vmem => 14
  | .smem => 0
  | _ => 0

abbrev bufTy : (tb : Table) → Fin (tcTables nBuf tb) → BufTy
  | .hbm, ⟨0, _⟩ => ⟨S128x128, .f32⟩
  | .hbm, ⟨1, _⟩ => ⟨S16384x1x128, .f32⟩
  | .hbm, ⟨2, _⟩ => ⟨S16384x100, .f32⟩
  | .hbm, ⟨3, _⟩ => ⟨S128x128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .i1⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .i1⟩
  | .hbm, ⟨20, _⟩ => ⟨S128x128, .f32⟩
  | .hbm, ⟨21, _⟩ => ⟨S2x128x100, .f32⟩
  | .hbm, ⟨22, _⟩ => ⟨S2x1x128, .f32⟩
  | .hbm, ⟨23, _⟩ => ⟨S2x1x128, .f32⟩
  | .hbm, ⟨24, _⟩ => ⟨S1x1x128, .f32⟩
  | .hbm, ⟨25, _⟩ => ⟨S128, .f32⟩
  | .hbm, ⟨26, _⟩ => ⟨S1x1x128, .f32⟩
  | .hbm, ⟨27, _⟩ => ⟨S128, .f32⟩
  | .hbm, ⟨28, _⟩ => ⟨S1x1x128, .f32⟩
  | .hbm, ⟨29, _⟩ => ⟨S128, .f32⟩
  | .hbm, ⟨30, _⟩ => ⟨S1x1x128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S1x128x100, .f32⟩
  | .hbm, ⟨41, _⟩ => ⟨S128x100, .f32⟩
  | .hbm, ⟨42, _⟩ => ⟨S128x1, .f32⟩
  | .hbm, ⟨43, _⟩ => ⟨S128x100, .f32⟩
  | .hbm, ⟨44, _⟩ => ⟨S128x100, .f32⟩
  | .hbm, ⟨45, _⟩ => ⟨S1x128x100, .f32⟩
  | .hbm, ⟨46, _⟩ => ⟨S128x100, .f32⟩
  | .hbm, ⟨47, _⟩ => ⟨S128x1, .f32⟩
  | .hbm, ⟨48, _⟩ => ⟨S128x100, .f32⟩
  | .hbm, ⟨49, _⟩ => ⟨S128x100, .f32⟩
  | .hbm, ⟨50, _⟩ => ⟨S128x100, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S128x100, .f32⟩
  | .hbm, ⟨56, _⟩ => ⟨S128x100, .f32⟩
  | .local _ .vmem, ⟨0, _⟩ => ⟨S128x128, .f32⟩
  | .local _ .vmem, ⟨1, _⟩ => ⟨S4096x1x128, .f32⟩
  | .local _ .vmem, ⟨2, _⟩ => ⟨S4096x1x128, .f32⟩
  | .local _ .vmem, ⟨3, _⟩ => ⟨S4096x100, .f32⟩
  | .local _ .vmem, ⟨4, _⟩ => ⟨S4096x100, .f32⟩
  | .local _ .vmem, ⟨5, _⟩ => ⟨S1x128x100, .f32⟩
  | .local _ .vmem, ⟨6, _⟩ => ⟨S1x128x100, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x128, .f32⟩
  | .local _ .vmem, ⟨12, _⟩ => ⟨S1x128, .f32⟩
  | .local _ .vmem, ⟨13, _⟩ => ⟨S128x100, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v101 : BitVec 1 := Scalar.cmpi .eq arg1 c1_i32
  let v102 : BitVec 32 := Scalar.extui v101
  let c0_i32_40 : BitVec 32 := 0#32
  let v103 : BitVec 1 := Scalar.cmpi .ne v102 c0_i32_40
  v103

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x1x128_S4096x1x128_0_0_0 : ∀ a, (![0, 0, 0] : Fin 3 → Nat) a + S4096x1x128.size a ≤ S4096x1x128.size a
  h_S4096x1x128 : 0 < S4096x1x128.numel
  shapeCasts_S4096x1x128_S4096x128 : S4096x1x128.ShapeCasts S4096x128
  inb_S4096x100_S4096x100_0_0 : ∀ a, (![0, 0] : Fin 2 → Nat) a + S4096x100.size a ≤ S4096x100.size a
  h_S4096x100 : 0 < S4096x100.numel
  reduces_S4096x128_S4096 : S4096x128.Reduces [1] S4096
  shapeCasts_S4096_S4096x1 : S4096.ShapeCasts S4096x1
  reduces_S128x128_S128 : S128x128.Reduces [1] S128
  shapeCasts_S128_S128x1 : S128.ShapeCasts S128x1
  transposes_S128x1_p1_0_S1x128 : S128x1.Transposes [1, 0] S1x128
  broadcasts_S1x128_S4096x128 : S1x128.Broadcasts S4096x128
  broadcasts_S4096x1_S4096x128 : S4096x1.Broadcasts S4096x128
  reduces_S4096x128_S128 : S4096x128.Reduces [0] S128
  shapeCasts_S128_S1x128 : S128.ShapeCasts S1x128
  bitsLt_bf16_f32 : FTy.bits .bf16 < FTy.bits .f32
  transposes_S1x128_p1_0_S128x1 : S1x128.Transposes [1, 0] S128x1
  broadcasts_S128x1_S128x100 : S128x1.Broadcasts S128x100
  inb_S1x128x100_S1x128x100_0_0_0 : ∀ a, (![0, 0, 0] : Fin 3 → Nat) a + S1x128x100.size a ≤ S1x128x100.size a
  h_S1x128x100 : 0 < S1x128x100.numel
  shapeCasts_S1x128x100_S128x100 : S1x128x100.ShapeCasts S128x100
  shapeCasts_S128x100_S1x128x100 : S128x100.ShapeCasts S1x128x100
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S2x1x128_S1x1x128_0_0_0 : S2x1x128.Slices ![0, 0, 0] S1x1x128
  shapeCasts_S1x1x128_S128 : S1x1x128.ShapeCasts S128
  slices_S2x1x128_S1x1x128_1_0_0 : S2x1x128.Slices ![1, 0, 0] S1x1x128
  slices_S2x128x100_S1x128x100_0_0_0 : S2x128x100.Slices ![0, 0, 0] S1x128x100
  bcast_S128x1_S128x100_0_1 : S128x1.BroadcastsInDim S128x100 (![0, 1] : Fin 2 → Fin S128x100.rank)
  slices_S2x128x100_S1x128x100_1_0_0 : S2x128x100.Slices ![1, 0, 0] S1x128x100
  dot_S4096x128_S128x128_S4096x128_1_1_0_0_n_n_wf : DotDims.WF S4096x128 S128x128 S4096x128 [1] [1] [0] [0] [] []
  dot_S4096x128_S4096x100_S128x100_0_0_1_1_n_n_wf : DotDims.WF S4096x128 S4096x100 S128x100 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1x128.size a ≤ S16384x1x128.size a
  hwx0_1 : ∀ i : grid0.Coords, EltTy.bits .f32 = 32 ∨ (Rect.block (s := S16384x1x128) S4096x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x100.size a ≤ S16384x100.size a
  hwx0_2 : ∀ i : grid0.Coords, EltTy.bits .f32 = 32 ∨ (Rect.block (s := S16384x100) S4096x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x100.size a ≤ S2x128x100.size a
  hwx0_3 : ∀ i : grid0.Coords, EltTy.bits .f32 = 32 ∨ (Rect.block (s := S2x128x100) S1x128x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S4096x128_S4096x100_S128x100_0_0_1_1_n_n : DotDims S4096x128 S4096x100 S128x100 where
  lhsContracting := [0]
  rhsContracting := [0]
  lhsNonContracting := [1]
  rhsNonContracting := [1]
  lhsBatch := []
  rhsBatch := []
  wf := dot_S4096x128_S4096x100_S128x100_0_0_1_1_n_n_wf

abbrev win0_0 : Pipeline.Window sig grid0 :=
  Pipeline.Window.ofSpec (Memref.whole main_v9) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x128x100.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x128 : Shape := ⟨2, ![128, 128]⟩
abbrev S16384x1x128 : Shape := ⟨3, ![16384, 1, 128]⟩
abbrev S16384x100 : Shape := ⟨2, ![16384, 100]⟩
abbrev S_ : Shape := ⟨0, ![]⟩
abbrev S128 : Shape := ⟨1, ![128]⟩
abbrev S128x1 : Shape := ⟨2, ![128, 1]⟩
abbrev S1x128x128 : Shape := ⟨3, ![1, 128, 128]⟩
abbrev S16384x1 : Shape := ⟨2, ![16384, 1]⟩
abbrev S16384x1x1 : Shape := ⟨3, ![16384, 1, 1]⟩
abbrev S1x128 : Shape := ⟨2, ![1, 128]⟩
abbrev S1x128x1 : Shape := ⟨3, ![1, 128, 1]⟩
abbrev S16384x128x128 : Shape := ⟨3, ![16384, 128, 128]⟩
abbrev S16384x128 : Shape := ⟨2, ![16384, 128]⟩
abbrev S16384x128x1 : Shape := ⟨3, ![16384, 128, 1]⟩
abbrev S128x16384 : Shape := ⟨2, ![128, 16384]⟩
abbrev S128x100 : Shape := ⟨2, ![128, 100]⟩

abbrev nBuf : Space → Nat
  | .hbm => 116
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S16384x1x128, .f32⟩
  | .hbm, ⟨2, _⟩ => ⟨S16384x100, .f32⟩
  | .hbm, ⟨3, _⟩ => ⟨S128x128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .i1⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .i1⟩
  | .hbm, ⟨20, _⟩ => ⟨S128x128, .f32⟩
  | .hbm, ⟨21, _⟩ => ⟨S1x128x128, .f32⟩
  | .hbm, ⟨22, _⟩ => ⟨S16384x1x128, .f32⟩
  | .hbm, ⟨23, _⟩ => ⟨S16384x1x128, .f32⟩
  | .hbm, ⟨24, _⟩ => ⟨S_, .f32⟩
  | .hbm, ⟨25, _⟩ => ⟨S16384x1, .f32⟩
  | .hbm, ⟨26, _⟩ => ⟨S16384x1x1, .f32⟩
  | .hbm, ⟨27, _⟩ => ⟨S1x128x128, .f32⟩
  | .hbm, ⟨28, _⟩ => ⟨S_, .f32⟩
  | .hbm, ⟨29, _⟩ => ⟨S1x128, .f32⟩
  | .hbm, ⟨30, _⟩ => ⟨S1x128x1, .f32⟩
  | .hbm, ⟨31, _⟩ => ⟨S16384x128x128, .f32⟩
  | .hbm, ⟨32, _⟩ => ⟨S16384x128x128, .f32⟩
  | .hbm, ⟨33, _⟩ => ⟨S16384x128x128, .f32⟩
  | .hbm, ⟨34, _⟩ => ⟨S_, .f32⟩
  | .hbm, ⟨35, _⟩ => ⟨S16384x128, .f32⟩
  | .hbm, ⟨36, _⟩ => ⟨S16384x128x1, .f32⟩
  | .hbm, ⟨37, _⟩ => ⟨S_, .f32⟩
  | .hbm, ⟨38, _⟩ => ⟨S16384x128x1, .f32⟩
  | .hbm, ⟨39, _⟩ => ⟨S16384x128x1, .f32⟩
  | .hbm, ⟨40, _⟩ => ⟨S_, .f32⟩
  | .hbm, ⟨41, _⟩ => ⟨S16384x128x1, .f32⟩
  | .hbm, ⟨42, _⟩ => ⟨S16384x128x1, .f32⟩
  | .hbm, ⟨43, _⟩ => ⟨S16384x128x1, .f32⟩
  | .hbm, ⟨44, _⟩ => ⟨S16384x128x1, .f32⟩
  | .hbm, ⟨45, _⟩ => ⟨S16384x128x128, .f32⟩
  | .hbm, ⟨46, _⟩ => ⟨S16384x128x128, .f32⟩
  | .hbm, ⟨47, _⟩ => ⟨S16384x128x128, .f32⟩
  | .hbm, ⟨48, _⟩ => ⟨S_, .f32⟩
  | .hbm, ⟨49, _⟩ => ⟨S16384x1x1, .f32⟩
  | .hbm, ⟨50, _⟩ => ⟨S16384x1x1, .f32⟩
  | .hbm, ⟨51, _⟩ => ⟨S16384x128x128, .f32⟩
  | .hbm, ⟨52, _⟩ => ⟨S16384x128x128, .f32⟩
  | .hbm, ⟨53, _⟩ => ⟨S16384x128x128, .f32⟩
  | .hbm, ⟨54, _⟩ => ⟨S16384x128x128, .f32⟩
  | .hbm, ⟨55, _⟩ => ⟨S_, .f32⟩
  | .hbm, ⟨56, _⟩ => ⟨S16384x128x1, .f32⟩
  | .hbm, ⟨57, _⟩ => ⟨S16384x128x1, .f32⟩
  | .hbm, ⟨58, _⟩ => ⟨S_, .f32⟩
  | .hbm, ⟨59, _⟩ => ⟨S16384x128x1, .f32⟩
  | .hbm, ⟨60, _⟩ => ⟨S16384x128x1, .f32⟩
  | .hbm, ⟨61, _⟩ => ⟨S16384x128x1, .f32⟩
  | .hbm, ⟨62, _⟩ => ⟨S16384x128x1, .f32⟩
  | .hbm, ⟨63, _⟩ => ⟨S16384x128x1, .f32⟩
  | .hbm, ⟨64, _⟩ => ⟨S16384x128x1, .f32⟩
  | .hbm, ⟨65, _⟩ => ⟨S_, .f32⟩
  | .hbm, ⟨66, _⟩ => ⟨S16384x128x1, .f32⟩
  | .hbm, ⟨67, _⟩ => ⟨S16384x128x1, .f32⟩
  | .hbm, ⟨68, _⟩ => ⟨S16384x128x128, .f32⟩
  | .hbm, ⟨69, _⟩ => ⟨S16384x128x128, .f32⟩
  | .hbm, ⟨70, _⟩ => ⟨S16384x128x128, .f32⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16384x128, .f32⟩
  | .hbm, ⟨78, _⟩ => ⟨S16384x128, .f32⟩
  | .hbm, ⟨79, _⟩ => ⟨S_, .f32⟩
  | .hbm, ⟨80, _⟩ => ⟨S16384x128, .f32⟩
  | .hbm, ⟨81, _⟩ => ⟨S16384x128, .f32⟩
  | .hbm, ⟨82, _⟩ => ⟨S_, .f32⟩
  | .hbm, ⟨83, _⟩ => ⟨S16384x128, .f32⟩
  | .hbm, ⟨84, _⟩ => ⟨S16384x128, .f32⟩
  | .hbm, ⟨85, _⟩ => ⟨S_, .f32⟩
  | .hbm, ⟨86, _⟩ => ⟨S16384x128, .f32⟩
  | .hbm, ⟨87, _⟩ => ⟨S16384x128, .f32⟩
  | .hbm, ⟨88, _⟩ => ⟨S16384x128, .f32⟩
  | .hbm, ⟨89, _⟩ => ⟨S16384x128, .f32⟩
  | .hbm, ⟨90, _⟩ => ⟨S_, .f32⟩
  | .hbm, ⟨91, _⟩ => ⟨S16384x128, .f32⟩
  | .hbm, ⟨92, _⟩ => ⟨S16384x128, .f32⟩
  | .hbm, ⟨93, _⟩ => ⟨S_, .f32⟩
  | .hbm, ⟨94, _⟩ => ⟨S16384x128, .f32⟩
  | .hbm, ⟨95, _⟩ => ⟨S16384x128, .f32⟩
  | .hbm, ⟨96, _⟩ => ⟨S16384x128, .f32⟩
  | .hbm, ⟨97, _⟩ => ⟨S_, .f32⟩
  | .hbm, ⟨98, _⟩ => ⟨S16384x128, .f32⟩
  | .hbm, ⟨99, _⟩ => ⟨S16384x128, .f32⟩
  | .hbm, ⟨100, _⟩ => ⟨S_, .f32⟩
  | .hbm, ⟨101, _⟩ => ⟨S128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S16384x128, .f32⟩
  | .hbm, ⟨107, _⟩ => ⟨S16384x128, .f32⟩
  | .hbm, ⟨108, _⟩ => ⟨S16384x128, .f32⟩
  | .hbm, ⟨109, _⟩ => ⟨S_, .f32⟩
  | .hbm, ⟨110, _⟩ => ⟨S128, .f32⟩
  | .hbm, ⟨111, _⟩ => ⟨S1x128, .f32⟩
  | .hbm, ⟨112, _⟩ => ⟨S16384x128, .f32⟩
  | .hbm, ⟨113, _⟩ => ⟨S16384x128, .f32⟩
  | .hbm, ⟨114, _⟩ => ⟨S128x16384, .f32⟩
  | .hbm, ⟨115, _⟩ => ⟨S128x100, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call2_v0 : Ref sig .tc := ⟨.hbm, 70, rfl⟩
abbrev main_call2_cst : Ref sig .tc := ⟨.hbm, 71, rfl⟩
abbrev main_call2_v1 : Ref sig .tc := ⟨.hbm, 72, rfl⟩
abbrev main_v50 : Ref sig .tc := ⟨.hbm, 73, rfl⟩
abbrev main_cst_11 : Ref sig .tc := ⟨.hbm, 74, rfl⟩
abbrev main_cst_12 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_cst_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_15 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_17 : Ref sig .tc := ⟨.hbm, 97, rfl⟩
abbrev main_v63 : Ref sig .tc := ⟨.hbm, 98, rfl⟩
abbrev main_v64 : Ref sig .tc := ⟨.hbm, 99, rfl⟩
abbrev main_cst_18 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_20 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩

abbrev nD : Nat := 1
abbrev τ : Topo := Topo.v7x

variable {F : FTy → Type} [FloatOps F]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  reducesTo_S16384x1x128_S16384x1_d2 : S16384x1x128.ReducesTo [2] S16384x1
  bcast_S16384x1_S16384x1x1_0_1 : S16384x1.BroadcastsInDim S16384x1x1 (![0, 1] : Fin 2 → Fin S16384x1x1.rank)
  reducesTo_S1x128x128_S1x128_d2 : S1x128x128.ReducesTo [2] S1x128
  bcast_S1x128_S1x128x1_0_1 : S1x128.BroadcastsInDim S1x128x1 (![0, 1] : Fin 2 → Fin S1x128x1.rank)
  bcast_S16384x1x128_S16384x128x128_0_1_2 : S16384x1x128.BroadcastsInDim S16384x128x128 (![0, 1, 2] : Fin 3 → Fin S16384x128x128.rank)
  bcast_S1x128x128_S16384x128x128_0_1_2 : S1x128x128.BroadcastsInDim S16384x128x128 (![0, 1, 2] : Fin 3 → Fin S16384x128x128.rank)
  reducesTo_S16384x128x128_S16384x128_d2 : S16384x128x128.ReducesTo [2] S16384x128
  bcast_S16384x128_S16384x128x1_0_1 : S16384x128.BroadcastsInDim S16384x128x1 (![0, 1] : Fin 2 → Fin S16384x128x1.rank)
  bcast_S_S16384x128x1 : S_.BroadcastsInDim S16384x128x1 (![] : Fin 0 → Fin S16384x128x1.rank)
  bcast_S1x128x1_S16384x128x1_0_1_2 : S1x128x1.BroadcastsInDim S16384x128x1 (![0, 1, 2] : Fin 3 → Fin S16384x128x1.rank)
  bcast_S16384x128x1_S16384x128x128_0_1_2 : S16384x128x1.BroadcastsInDim S16384x128x128 (![0, 1, 2] : Fin 3 → Fin S16384x128x128.rank)
  bcast_S_S16384x1x1 : S_.BroadcastsInDim S16384x1x1 (![] : Fin 0 → Fin S16384x1x1.rank)
  bcast_S16384x1x1_S16384x128x128_0_1_2 : S16384x1x1.BroadcastsInDim S16384x128x128 (![0, 1, 2] : Fin 3 → Fin S16384x128x128.rank)
  bcast_S16384x1x1_S16384x128x1_0_1_2 : S16384x1x1.BroadcastsInDim S16384x128x1 (![0, 1, 2] : Fin 3 → Fin S16384x128x1.rank)
  bcast_S_S16384x128 : S_.BroadcastsInDim S16384x128 (![] : Fin 0 → Fin S16384x128.rank)
  reducesTo_S16384x128_S128_d0 : S16384x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  dot_S128x16384_S16384x100_S128x100_1_0_0_1_n_n_wf : DotDims.WF S128x16384 S16384x100 S128x100 [1] [0] [0] [1] [] []

variable [Facts₀]

def dot_S128x16384_S16384x100_S128x100_1_0_0_1_n_n : DotDims S128x16384 S16384x100 S128x100 where
  lhsContracting := [1]
  rhsContracting := [0]
  lhsNonContracting := [0]
  rhsNonContracting := [1]
  lhsBatch := []
  rhsBatch := []
  wf := dot_S128x16384_S16384x100_S128x100_1_0_0_1_n_n_wf

class Facts : Prop extends Facts₀ where

variable [Facts]
-- ==== Proof.Arrays.lean ====
import proofs.«138910_j57904749084788_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

/-!
  The three output arrays after the run.

  Output `w` (3: the accumulators `[2,128,100]`; 4: the maxima `[2,1,128]`; 5: the normalisers `[2,1,128]`) is written
  back only at the last point of each half, points 1 and 3, and point `2k+1` writes slab `k` of the leading axis. So the
  array ends holding, at leading coordinate `k`, what the output's staging buffer held after point `2k+1`.
-/
namespace Cert.KernelIdeal.Arrays

open Cert.KernelIdeal Cert.KernelIdeal.Gen Idealize.ShloMosaic.ValueIdx

variable {F : FTy → Type} [FloatOps F]
variable (m : (ℓ : Loc nD τ sig) → Buf (Elt F) ℓ)

theorem hN : cfg0.N = 4 := N_0

/-- The block index maps, decided over the four points: the inputs' block of projected inputs never moves, the
    prototypes' and the class weights' block index is the point's own number, an output's slab is the point's half. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = t.val / 2 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 2 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 2 ∧ win0_5.index t (1 : Fin 3) = 0 ∧ win0_5.index t (2 : Fin 3) = 0 :=
  (by decide +kernel : ∀ t : Fin grid0.N, _)

/-- What the staging buffers hold after point `n` does not depend on how `n` is written. -/
theorem outsAt_congr (c : Dev nD) (n n' : ℕ) (e : n = n') (h : n < cfg0.N) (h' : n' < cfg0.N) :
    outsAt0 m c n h = outsAt0 m c n' h' := by subst e; rfl

theorem last_lt (k : ℕ) (hk : k < 2) : 2 * k + 1 < cfg0.N := by rw [hN]; omega

/-- The accumulators' array: slab `k` is output 3's staging buffer after point `2k+1`. -/
def G3 (c : Dev nD) : S2x128x100.Idx → Elt F .f32 := fun i =>
  (outsAt0 m c (2 * (i 0).val + 1) (last_lt _ (i 0).isLt)).1 (ix3 (0 : Fin 1) (i 1) (i 2))

/-- The maxima's array. -/
def G4 (c : Dev nD) : S2x1x128.Idx → Elt F .f32 := fun i =>
  (outsAt0 m c (2 * (i 0).val + 1) (last_lt _ (i 0).isLt)).2.1 (ix3 (0 : Fin 1) (i 1) (i 2))

/-- The normalisers' array. -/
def G5 (c : Dev nD) : S2x1x128.Idx → Elt F .f32 := fun i =>
  (outsAt0 m c (2 * (i 0).val + 1) (last_lt _ (i 0).isLt)).2.2.1 (ix3 (0 : Fin 1) (i 1) (i 2))

set_option maxHeartbeats 4000000

/-- What a last point writes back into the accumulators' array is slab `t/2` of `G3`. -/
theorem flushed3_eq (c : Dev nD) (t : Fin cfg0.N) (hf : (cfg0.win 3).flush t = true) :
    (dats m 0 c).flushed 3 t = ((cfg0.win 3).blk t).view.read (Elt F) (G3 m c) := by
  have hodd : t.val % 2 = 1 := (flush0_3 t).mp hf
  have ht : t.val < 4 := lt_of_lt_of_eq t.isLt hN
  obtain ⟨e0, e1, e2⟩ := idx3 t
  show (cfg0.win 3).cut (grid0.coords t) ((dats m 0 c).after 3 t) = _
  rw [after0_3]
  funext y
  show (outsAt0 m c t.val t.isLt).1 y = G3 m c (((cfg0.win 3).blk t).view.emb y)
  unfold G3
  have hy0 : (y 0).val < 1 := (y 0).isLt
  have hk : 2 * ((((cfg0.win 3).blk t).view.emb y) 0).val + 1 = t.val := by
    show 2 * (win0_3.index t (0 : Fin 3) * 1 + 1 * (y 0).val) + 1 = t.val
    rw [e0]; omega
  rw [outsAt_congr m c _ _ hk _ t.isLt]
  refine congrArg _ (funext fun a => Fin.ext ?_)
  match a with
  | ⟨0, _⟩ => show (y 0).val = 0; omega
  | ⟨1, _⟩ => show (y 1).val = win0_3.index t (1 : Fin 3) * 128 + 1 * (y 1).val; rw [e1]; omega
  | ⟨2, _⟩ => show (y 2).val = win0_3.index t (2 : Fin 3) * 100 + 1 * (y 2).val; rw [e2]; omega

/-- An index of the accumulators' array is in point `t`'s slab iff each coordinate is in the slab's range on its axis. -/
theorem mem_blk3 (t : Fin cfg0.N) (i : S2x128x100.Idx) :
    i ∈ ((cfg0.win 3).blk t).view.set ↔ ∀ a : Fin 3, win0_3.index t a * S1x128x100.size a ≤ (i a).val ∧ (i a).val < win0_3.index t a * S1x128x100.size a + S1x128x100.size a := by
  show i ∈ ((View.whole main_v10_0).slice (win0_3.rect t)).set ↔ _
  rw [View.set_slice_whole, Rect.mem_set_unit]
  exact Iff.rfl

/-- Every index of the accumulators' array is in the slab of its half's last point. -/
theorem cover3 (i : S2x128x100.Idx) : ∃ t : Fin cfg0.N, (cfg0.win 3).flush t = true ∧ i ∈ ((cfg0.win 3).blk t).view.set := by
  have h0 : (i 0).val < 2 := (i 0).isLt
  have h1 : (i 1).val < 128 := (i 1).isLt
  have h2 : (i 2).val < 100 := (i 2).isLt
  refine ⟨⟨2 * (i 0).val + 1, last_lt _ h0⟩, (flush0_3 _).mpr (by show (2 * (i 0).val + 1) % 2 = 1; omega), ?_⟩
  rw [mem_blk3]
  obtain ⟨e0, e1, e2⟩ := idx3 ⟨2 * (i 0).val + 1, last_lt _ h0⟩
  have e0' : win0_3.index ⟨2 * (i 0).val + 1, last_lt _ h0⟩ (0 : Fin 3) = (i 0).val := by rw [e0]; show (2 * (i 0).val + 1) / 2 = (i 0).val; omega
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 128 ≤ (i 1).val ∧ (i 1).val < win0_3.index _ (1 : Fin 3) * 128 + 128; rw [e1]; omega
  | ⟨2, _⟩ => show win0_3.index _ (2 : Fin 3) * 100 ≤ (i 2).val ∧ (i 2).val < win0_3.index _ (2 : Fin 3) * 100 + 100; rw [e2]; omega

/-- The accumulators' array after the run. -/
theorem final3 (c : Dev nD) : (dats m 0 c).arrAt 3 cfg0.N = G3 m c :=
  (dats m 0 c).arrAt_eq_of_cover 3 (G3 m c) (flushed3_eq m c) cover3

/-- What a last point writes back into the maxima' array is slab `t/2` of `G4`. -/
theorem flushed4_eq (c : Dev nD) (t : Fin cfg0.N) (hf : (cfg0.win 4).flush t = true) :
    (dats m 0 c).flushed 4 t = ((cfg0.win 4).blk t).view.read (Elt F) (G4 m c) := by
  have hodd : t.val % 2 = 1 := (flush0_4 t).mp hf
  have ht : t.val < 4 := lt_of_lt_of_eq t.isLt hN
  obtain ⟨e0, e1, e2⟩ := idx4 t
  show (cfg0.win 4).cut (grid0.coords t) ((dats m 0 c).after 4 t) = _
  rw [after0_4]
  funext y
  show (outsAt0 m c t.val t.isLt).2.1 y = G4 m c (((cfg0.win 4).blk t).view.emb y)
  unfold G4
  have hy0 : (y 0).val < 1 := (y 0).isLt
  have hk : 2 * ((((cfg0.win 4).blk t).view.emb y) 0).val + 1 = t.val := by
    show 2 * (win0_4.index t (0 : Fin 3) * 1 + 1 * (y 0).val) + 1 = t.val
    rw [e0]; omega
  rw [outsAt_congr m c _ _ hk _ t.isLt]
  refine congrArg _ (funext fun a => Fin.ext ?_)
  match a with
  | ⟨0, _⟩ => show (y 0).val = 0; omega
  | ⟨1, _⟩ => show (y 1).val = win0_4.index t (1 : Fin 3) * 1 + 1 * (y 1).val; rw [e1]; omega
  | ⟨2, _⟩ => show (y 2).val = win0_4.index t (2 : Fin 3) * 128 + 1 * (y 2).val; rw [e2]; omega

theorem mem_blk4 (t : Fin cfg0.N) (i : S2x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v10_1).slice (win0_4.rect t)).set ↔ _
  rw [View.set_slice_whole, Rect.mem_set_unit]
  exact Iff.rfl

theorem cover4 (i : S2x1x128.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 128 := (i 2).isLt
  refine ⟨⟨2 * (i 0).val + 1, last_lt _ h0⟩, (flush0_4 _).mpr (by show (2 * (i 0).val + 1) % 2 = 1; omega), ?_⟩
  rw [mem_blk4]
  obtain ⟨e0, e1, e2⟩ := idx4 ⟨2 * (i 0).val + 1, last_lt _ h0⟩
  have e0' : win0_4.index ⟨2 * (i 0).val + 1, last_lt _ h0⟩ (0 : Fin 3) = (i 0).val := by rw [e0]; show (2 * (i 0).val + 1) / 2 = (i 0).val; omega
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 128 ≤ (i 2).val ∧ (i 2).val < win0_4.index _ (2 : Fin 3) * 128 + 128; rw [e2]; omega

/-- The maxima' array after the run. -/
theorem final4 (c : Dev nD) : (dats m 0 c).arrAt 4 cfg0.N = G4 m c :=
  (dats m 0 c).arrAt_eq_of_cover 4 (G4 m c) (flushed4_eq m c) cover4

/-- What a last point writes back into the normalisers' array is slab `t/2` of `G5`. -/
theorem flushed5_eq (c : Dev nD) (t : Fin cfg0.N) (hf : (cfg0.win 5).flush t = true) :
    (dats m 0 c).flushed 5 t = ((cfg0.win 5).blk t).view.read (Elt F) (G5 m c) := by
  have hodd : t.val % 2 = 1 := (flush0_5 t).mp hf
  have ht : t.val < 4 := lt_of_lt_of_eq t.isLt hN
  obtain ⟨e0, e1, e2⟩ := idx5 t
  show (cfg0.win 5).cut (grid0.coords t) ((dats m 0 c).after 5 t) = _
  rw [after0_5]
  funext y
  show (outsAt0 m c t.val t.isLt).2.2.1 y = G5 m c (((cfg0.win 5).blk t).view.emb y)
  unfold G5
  have hy0 : (y 0).val < 1 := (y 0).isLt
  have hk : 2 * ((((cfg0.win 5).blk t).view.emb y) 0).val + 1 = t.val := by
    show 2 * (win0_5.index t (0 : Fin 3) * 1 + 1 * (y 0).val) + 1 = t.val
    rw [e0]; omega
  rw [outsAt_congr m c _ _ hk _ t.isLt]
  refine congrArg _ (funext fun a => Fin.ext ?_)
  match a with
  | ⟨0, _⟩ => show (y 0).val = 0; omega
  | ⟨1, _⟩ => show (y 1).val = win0_5.index t (1 : Fin 3) * 1 + 1 * (y 1).val; rw [e1]; omega
  | ⟨2, _⟩ => show (y 2).val = win0_5.index t (2 : Fin 3) * 128 + 1 * (y 2).val; rw [e2]; omega

theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v10_2).slice (win0_5.rect t)).set ↔ _
  rw [View.set_slice_whole, Rect.mem_set_unit]
  exact Iff.rfl

theorem cover5 (i : S2x1x128.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 128 := (i 2).isLt
  refine ⟨⟨2 * (i 0).val + 1, last_lt _ h0⟩, (flush0_5 _).mpr (by show (2 * (i 0).val + 1) % 2 = 1; omega), ?_⟩
  rw [mem_blk5]
  obtain ⟨e0, e1, e2⟩ := idx5 ⟨2 * (i 0).val + 1, last_lt _ h0⟩
  have e0' : win0_5.index ⟨2 * (i 0).val + 1, last_lt _ h0⟩ (0 : Fin 3) = (i 0).val := by rw [e0]; show (2 * (i 0).val + 1) / 2 = (i 0).val; omega
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 128 ≤ (i 2).val ∧ (i 2).val < win0_5.index _ (2 : Fin 3) * 128 + 128; rw [e2]; omega

/-- The normalisers' array after the run. -/
theorem final5 (c : Dev nD) : (dats m 0 c).arrAt 5 cfg0.N = G5 m c :=
  (dats m 0 c).arrAt_eq_of_cover 5 (G5 m c) (flushed5_eq m c) cover5

end Cert.KernelIdeal.Arrays

end
-- ==== Proof.Spec.lean ====
/-
  The two arrangements, as expressions on the extended reals.

  A prototype row `a` and a projected input row `x` (both over the feature coordinates `ι`) give the Euclidean
  norm of their Möbius sum `(-a) ⊕ x`.  The reference forms the sum coordinate by coordinate, divides by the clamped
  denominator and takes the norm of the quotient (`normR`); the kernel expands the square under the sum into the two
  squared norms and the inner product, clamps the radicand at zero and divides the root by the clamped denominator
  (`normK`).  The norm is clipped into `(-1, 1)`, its inverse hyperbolic tangent is taken through `log1p`, doubled
  to the Poincaré distance, negated and divided by four: the score (`scoreR` negates, `scoreK` subtracts from zero).

  Over the prototypes the scores are soft-min weights for the class weights `γ`.  The reference takes one softmax
  over all prototypes `J` (`outR`).  The kernel splits the prototypes into two halves of two blocks each, runs
  over each half a running maximum `m`, normaliser `l` and weighted accumulator `acc` (first block: `mA lA accA`
  from `-∞, 0, 0`; second block: `mB lB accB` rescaling by `exp (m - m')`), and merges the two halves by rescaling
  both to the larger maximum and multiplying by the reciprocal of the merged normaliser (`mergeOut`, `outK`).

  The float words are kept as the words the programs spell.
-/
import Idealize.ShloMosaic.PureOps.Ideal

noncomputable section

namespace Hdsdm

open Idealize.ShloMosaic

abbrev w0 : EReal := Ideal.ofBits .f32 0x00000000#32
abbrev w1 : EReal := Ideal.ofBits .f32 0x3F800000#32
abbrev w2 : EReal := Ideal.ofBits .f32 0x40000000#32
abbrev wHalf : EReal := Ideal.ofBits .f32 0x3F000000#32
abbrev w4 : EReal := Ideal.ofBits .f32 0x40800000#32
abbrev wEps : EReal := Ideal.ofBits .f32 0x26901D7D#32
abbrev wLo : EReal := Ideal.ofBits .f32 0xBF7FFFFE#32
abbrev wHi : EReal := Ideal.ofBits .f32 0x3F7FFFFE#32
abbrev wNegInf : EReal := Ideal.ofBits .f32 0xFF800000#32

section Norm
variable {ι : Type} [Fintype ι]

/-- The kernel's arrangement of the norm of the Möbius sum of `-a` and `x`. -/
def normK (a x : ι → EReal) : EReal :=
  let x2 : EReal := ∑ d, a d * a d
  let y2 : EReal := ∑ d, x d * x d
  let xy : EReal := ∑ d, a d * x d
  let c1 : EReal := (w1 - w2 * xy) + y2
  let c2 : EReal := w1 - x2
  let den : EReal := (w1 - w2 * xy) + x2 * y2
  Ideal.div (Ideal.sqrt (max ((((c1 * c1) * x2) - (((w2 * c1) * c2) * xy)) + ((c2 * c2) * y2)) w0)) (max den wEps)

/-- The reference's arrangement. -/
def normR (a x : ι → EReal) : EReal :=
  let x2 : EReal := w0 + ∑ d, (-a d) * (-a d)
  let y2 : EReal := w0 + ∑ d, x d * x d
  let xy : EReal := w0 + ∑ d, (-a d) * x d
  let c1 : EReal := (w1 + w2 * xy) + y2
  let c2 : EReal := w1 - x2
  let den : EReal := (w1 + w2 * xy) + x2 * y2
  Ideal.sqrt (w0 + ∑ d, Ideal.div (c1 * (-a d) + c2 * x d) (max den wEps) * Ideal.div (c1 * (-a d) + c2 * x d) (max den wEps))

end Norm

/-- From the norm to the score, as the kernel writes it. -/
def scoreK (δ : EReal) : EReal :=
  Ideal.div (w0 - w2 * (wHalf * Ideal.log1p (Ideal.div (w2 * min wHi (max wLo δ)) (w1 - min wHi (max wLo δ))))) w4

/-- From the norm to the score, as the reference writes it. -/
def scoreR (δ : EReal) : EReal :=
  Ideal.div (-(w2 * (wHalf * Ideal.log1p (Ideal.div (w2 * min wHi (max wLo δ)) (w1 - min wHi (max wLo δ)))))) w4

section Softmin
variable {ι : Type} [Fintype ι]

/-- A block's largest score, as a fold of the maximum from the word of minus infinity. -/
def blkMax (s : ι → EReal) : EReal := Finset.univ.fold max wNegInf s

def mA (s : ι → EReal) : EReal := max wNegInf (blkMax s)
def lA (s : ι → EReal) : EReal := Ideal.exp (wNegInf - mA s) * w0 + ∑ p, Ideal.exp (s p - mA s)
def accA (s γ : ι → EReal) : EReal := Ideal.exp (wNegInf - mA s) * w0 + ∑ p, Ideal.exp (s p - mA s) * γ p

def mB (m : EReal) (s : ι → EReal) : EReal := max m (blkMax s)
def lB (m l : EReal) (s : ι → EReal) : EReal := Ideal.exp (m - mB m s) * l + ∑ p, Ideal.exp (s p - mB m s)
def accB (m acc : EReal) (s γ : ι → EReal) : EReal := Ideal.exp (m - mB m s) * acc + ∑ p, Ideal.exp (s p - mB m s) * γ p

/-- One half of the prototypes: two blocks, the second carried on the first. -/
def coreM (s : Fin 2 → ι → EReal) : EReal := mB (mA (s 0)) (s 1)
def coreL (s : Fin 2 → ι → EReal) : EReal := lB (mA (s 0)) (lA (s 0)) (s 1)
def coreAcc (s γ : Fin 2 → ι → EReal) : EReal := accB (mA (s 0)) (accA (s 0) (γ 0)) (s 1) (γ 1)

/-- The merge of the two halves. -/
def mergeOut (m0 m1 l0 l1 acc0 acc1 : EReal) : EReal :=
  (acc0 * Ideal.exp (m0 - max m0 m1) + acc1 * Ideal.exp (m1 - max m0 m1))
    * Ideal.div w1 (l0 * Ideal.exp (m0 - max m0 m1) + l1 * Ideal.exp (m1 - max m0 m1))

/-- The kernel's result at one (input, class): scores and class weights indexed by (half, block, row). -/
def outK (s γ : Fin 2 → Fin 2 → ι → EReal) : EReal :=
  mergeOut (coreM (s 0)) (coreM (s 1)) (coreL (s 0)) (coreL (s 1)) (coreAcc (s 0) (γ 0)) (coreAcc (s 1) (γ 1))

/-- The reference's result at one (input, class): one softmax over all prototypes `J`. -/
def outR {J : Type} [Fintype J] (s γ : J → EReal) : EReal :=
  ∑ n, Ideal.div (Ideal.exp (s n - max wNegInf (Finset.univ.fold max wNegInf s)))
        (w0 + ∑ k, Ideal.exp (s k - max wNegInf (Finset.univ.fold max wNegInf s))) * γ n

end Softmin

end Hdsdm

end
-- ==== Proof.Tail.lean ====
import proofs.«138910_j57904749084788_2_alg».proof.Proof.Gen.KernelIdeal
import proofs.«138910_j57904749084788_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe

/-!
  The merge of the two halves, as the host operations after the region compute it.

  From the accumulators `a3 : [2,128,100]`, the maxima `a4 : [2,1,128]` and the normalisers `a5 : [2,1,128]` the program
  slices out each half, takes the larger maximum `m`, rescales both halves' normalisers and accumulators by
  `exp (m_k - m)`, adds them, and multiplies the merged accumulator by the reciprocal of the merged normaliser.
-/
namespace Cert.KernelIdeal.Tail

open Cert.KernelIdeal Cert.KernelIdeal.Gen Idealize.ShloMosaic.ValueIdx

variable {F : FTy → Type} [FloatOps F]

/-- Half `k`'s maxima, as a vector over the inputs. -/
def mx0 (a4 : Vec F S2x1x128 .f32) : Vec F S128 .f32 :=
  shapeCast S128 (extractStridedSlice S1x1x128 ![0, 0, 0] a4 slices_S2x1x128_S1x1x128_0_0_0) shapeCasts_S1x1x128_S128
def mx1 (a4 : Vec F S2x1x128 .f32) : Vec F S128 .f32 :=
  shapeCast S128 (extractStridedSlice S1x1x128 ![1, 0, 0] a4 slices_S2x1x128_S1x1x128_1_0_0) shapeCasts_S1x1x128_S128
/-- Half `k`'s accumulators, as a matrix over (input, class). -/
def ac0 (a3 : Vec F S2x128x100 .f32) : Vec F S128x100 .f32 :=
  shapeCast S128x100 (extractStridedSlice S1x128x100 ![0, 0, 0] a3 slices_S2x128x100_S1x128x100_0_0_0) shapeCasts_S1x128x100_S128x100
def ac1 (a3 : Vec F S2x128x100 .f32) : Vec F S128x100 .f32 :=
  shapeCast S128x100 (extractStridedSlice S1x128x100 ![1, 0, 0] a3 slices_S2x128x100_S1x128x100_1_0_0) shapeCasts_S1x128x100_S128x100

/-- A vector over the inputs, repeated along the classes. -/
def rep (v : Vec F S128 .f32) : Vec F S128x100 .f32 :=
  broadcastInDim S128x100 ![0, 1] bcast_S128x1_S128x100_0_1 (broadcastInDim S128x1 ![0] bcast_S128_S128x1_0 v)

/-- The program's result as the host operations after the region compute it from the three arrays. -/
def tailTerm (a3 : Vec F S2x128x100 .f32) (a4 a5 : Vec F S2x1x128 .f32) : Vec F S128x100 .f32 :=
  mulf
    (addf (mulf (ac0 a3) (rep (Host.exp (subf (mx0 a4) (maximumf (mx0 a4) (mx1 a4)))))) (mulf (ac1 a3) (rep (Host.exp (subf (mx1 a4) (maximumf (mx0 a4) (mx1 a4)))))))
    (broadcastInDim S128x100 ![0, 1] bcast_S128x1_S128x100_0_1
      (Host.divf (broadcastInDim S128x1 ![] bcast_S_S128x1 (constant S_ .f32 0x3F800000#32))
        (broadcastInDim S128x1 ![0] bcast_S128_S128x1_0
          (addf (mulf (mx0 a5) (Host.exp (subf (mx0 a4) (maximumf (mx0 a4) (mx1 a4))))) (mulf (mx1 a5) (Host.exp (subf (mx1 a4) (maximumf (mx0 a4) (mx1 a4)))))))))

end Cert.KernelIdeal.Tail

end
-- ==== Proof.Run.lean ====
import proofs.«138910_j57904749084788_2_alg».proof.Proof.Arrays
import proofs.«138910_j57904749084788_2_alg».proof.Proof.Tail
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

/-!
  The kernel's run, read: every weakly fair execution ends with the result at the merge of the two halves computed
  from the three output arrays as the region leaves them, and the arguments unchanged.
-/
namespace Cert.KernelIdeal.Run

open Cert.KernelIdeal Cert.KernelIdeal.Gen Cert.KernelIdeal.Arrays Cert.KernelIdeal.Tail Idealize.ShloMosaic.StableHlo

variable {F : FTy → Type} [FloatOps F]
variable (m : (ℓ : Loc nD τ sig) → Buf (Elt F) ℓ) (ρ : Dev nD → PrngReg)

set_option maxHeartbeats 8000000 in
/-- The host operations after the region, applied to the three arrays the region leaves. -/
theorem tail_eq (c : Dev nD) :
    Pipeline.afterTail₀ cfgs (dats m) 0 (V0 m) [hostOps1] c main_v42 = tailTerm (G3 m c) (G4 m c) (G5 m c) := by
  unfold Pipeline.afterTail₀
  show StableHlo.after hostOps1 _ (Proc.devRef .tc main_v42) = _
  have h3 := Pipeline.withArrays_arr (cfgs 0).spec launch0.win.arr_inj c (V0 m c) (fun w => (dats m 0 c).arrAt w (cfgs 0).N) 3
  have h4 := Pipeline.withArrays_arr (cfgs 0).spec launch0.win.arr_inj c (V0 m c) (fun w => (dats m 0 c).arrAt w (cfgs 0).N) 4
  have h5 := Pipeline.withArrays_arr (cfgs 0).spec launch0.win.arr_inj c (V0 m c) (fun w => (dats m 0 c).arrAt w (cfgs 0).N) 5
  generalize hW : Pipeline.withArrays (cfgs 0).spec c (V0 m c) (fun w => (dats m 0 c).arrAt w (cfgs 0).N) = W at h3 h4 h5
  have e3 : W (Proc.tc.devRef main_v10_0) = G3 m c := h3.trans (final3 m c)
  have e4 : W (Proc.tc.devRef main_v10_1) = G4 m c := h4.trans (final4 m c)
  have e5 : W (Proc.tc.devRef main_v10_2) = G5 m c := h5.trans (final5 m c)
  after_results_simp
  rw [e3, e4, e5]
  rfl

/-- The run, read. -/
theorem run : θ_run defs (onTc (τ := τ) (main (F := F))) ⟨m, fun _ => 0, ρ⟩ fun r => ∀ c : Dev nD,
      r.2.mem ((c.tc : Thread nD τ).loc main_v42) = tailTerm (G3 m c) (G4 m c) (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v42 (Pipeline.mem_restRefs_of main_v42 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.Pieces.lean ====
import proofs.«138910_j57904749084788_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each control case of the body leaves in the three carried buffers and the three outputs, as values.

  The body keeps, per input column, a running maximum `m`, a normaliser `l` and a weighted accumulator `acc` of
  the scores of the prototypes seen so far. From the block of projected inputs `x0`, a block of prototypes `x1`, their
  class weights `x2` and the carried `(mp, lp, accp)` it computes the new triple (`mNew`, `lNew`, `accNew`).
  At a first point the carried triple is what the body itself has just stored: minus infinity, zero, zero. At a last
  point the three outputs receive the new triple, re-laid with a leading axis of extent one.
-/
namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after a block. -/
def mNew (x0 : Vec F S128x128 .f32) (x1 : Vec F S4096x1x128 .f32) (mp : Vec F S1x128 .f32) : Vec F S1x128 .f32 :=
  k0_pay3 (k0_pay21 (k0_pay13 x0) (k0_pay14 x0 x1) (k0_pay16 x1) (k0_pay17 x0 x1) (k0_pay18 x0 x1) (k0_pay19 x0 x1) mp)

/-- The normaliser after a block. -/
def lNew (x0 : Vec F S128x128 .f32) (x1 : Vec F S4096x1x128 .f32) (mp lp : Vec F S1x128 .f32) : Vec F S1x128 .f32 :=
  k0_pay1 (k0_pay24 (k0_pay13 x0) (k0_pay14 x0 x1) (k0_pay16 x1) (k0_pay17 x0 x1) (k0_pay18 x0 x1) (k0_pay19 x0 x1) mp lp) (k0_pay25 (k0_pay13 x0) (k0_pay14 x0 x1) (k0_pay16 x1) (k0_pay17 x0 x1) (k0_pay18 x0 x1) (k0_pay19 x0 x1) mp)

/-- The weighted accumulator after a block. -/
def accNew (x0 : Vec F S128x128 .f32) (x1 : Vec F S4096x1x128 .f32) (x2 : Vec F S4096x100 .f32) (mp : Vec F S1x128 .f32) (accp : Vec F S128x100 .f32) : Vec F S128x100 .f32 :=
  k0_pay2 x2 (k0_pay22 (k0_pay13 x0) (k0_pay14 x0 x1) (k0_pay16 x1) (k0_pay17 x0 x1) (k0_pay18 x0 x1) (k0_pay19 x0 x1) mp) (k0_pay23 (k0_pay13 x0) (k0_pay14 x0 x1) (k0_pay16 x1) (k0_pay17 x0 x1) (k0_pay18 x0 x1) (k0_pay19 x0 x1) mp) accp

set_option maxHeartbeats 4000000

/-! ## A first point: the carried triple is the one just stored -/

theorem sA0 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : cond0_0 i) (hc1 : ¬cond0_1 i) (x0 : Vec F S128x128 .f32) (x1 : Vec F S4096x1x128 .f32) (x2 : Vec F S4096x100 .f32) :
    sout0_A_0 c i arg2 harg2 arg3 harg3 arg4 harg4 arg5 harg5 arg6 harg6 arg7 harg7 arg8 harg8 arg9 harg9 arg10 harg10 hc0 hc1 x0 x1 x2 = mNew x0 x1 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x128) hz2]
  simp only [View.readAt_eq_ld, harg2.read_unread, harg3.read_unread, harg4.read_unread, View.ld_unit_zero (S := S128x128) hz2, View.ld_unit_zero (S := S4096x1x128) hz3, View.ld_unit_zero (S := S4096x100) hz2, View.readCov_unit_zero (S := S1x128) _ hz2, View.readCov_unit_zero (S := S128x100) _ hz2]
  rfl

theorem sA1 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : cond0_0 i) (hc1 : ¬cond0_1 i) (x0 : Vec F S128x128 .f32) (x1 : Vec F S4096x1x128 .f32) (x2 : Vec F S4096x100 .f32) :
    sout0_A_1 c i arg2 harg2 arg3 harg3 arg4 harg4 arg5 harg5 arg6 harg6 arg7 harg7 arg8 harg8 arg9 harg9 arg10 harg10 hc0 hc1 x0 x1 x2 = lNew x0 x1 k0_pay7 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x128) hz2]
  simp only [View.readAt_eq_ld, harg2.read_unread, harg3.read_unread, harg4.read_unread, View.ld_unit_zero (S := S128x128) hz2, View.ld_unit_zero (S := S4096x1x128) hz3, View.ld_unit_zero (S := S4096x100) hz2, View.readCov_unit_zero (S := S1x128) _ hz2, View.readCov_unit_zero (S := S128x100) _ hz2]
  rfl

theorem sA2 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : cond0_0 i) (hc1 : ¬cond0_1 i) (x0 : Vec F S128x128 .f32) (x1 : Vec F S4096x1x128 .f32) (x2 : Vec F S4096x100 .f32) :
    sout0_A_2 c i arg2 harg2 arg3 harg3 arg4 harg4 arg5 harg5 arg6 harg6 arg7 harg7 arg8 harg8 arg9 harg9 arg10 harg10 hc0 hc1 x0 x1 x2 = accNew x0 x1 x2 k0_pay7 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x100) hz2]
  simp only [View.readAt_eq_ld, harg2.read_unread, harg3.read_unread, harg4.read_unread, View.ld_unit_zero (S := S128x128) hz2, View.ld_unit_zero (S := S4096x1x128) hz3, View.ld_unit_zero (S := S4096x100) hz2, View.readCov_unit_zero (S := S1x128) _ hz2, View.readCov_unit_zero (S := S128x100) _ hz2]
  rfl

/-! ## A last point: the carried triple is what the point before left; the outputs receive the new one -/

theorem sB0 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : ¬cond0_0 i) (hc1 : cond0_1 i) (x0 : Vec F S128x128 .f32) (x1 : Vec F S4096x1x128 .f32) (x2 : Vec F S4096x100 .f32) (xs0 : Vec F S1x128 .f32) (xs1 : Vec F S1x128 .f32) (xs2 : Vec F S128x100 .f32) :
    sout0_B_0 c i arg2 harg2 arg3 harg3 arg4 harg4 arg5 harg5 arg6 harg6 arg7 harg7 arg8 harg8 arg9 harg9 arg10 harg10 hc0 hc1 x0 x1 x2 xs0 xs1 xs2 = mNew x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S128x128) hz2, View.ld_unit_zero (S := S4096x1x128) hz3, View.ld_unit_zero (S := S4096x100) hz2, View.ld_unit_zero (S := S1x128) hz2, View.ld_unit_zero (S := S128x100) hz2, View.readCov_unit_zero (S := S1x128) _ hz2, View.readCov_unit_zero (S := S128x100) _ hz2]
  rfl

theorem sB1 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : ¬cond0_0 i) (hc1 : cond0_1 i) (x0 : Vec F S128x128 .f32) (x1 : Vec F S4096x1x128 .f32) (x2 : Vec F S4096x100 .f32) (xs0 : Vec F S1x128 .f32) (xs1 : Vec F S1x128 .f32) (xs2 : Vec F S128x100 .f32) :
    sout0_B_1 c i arg2 harg2 arg3 harg3 arg4 harg4 arg5 harg5 arg6 harg6 arg7 harg7 arg8 harg8 arg9 harg9 arg10 harg10 hc0 hc1 x0 x1 x2 xs0 xs1 xs2 = lNew x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S128x128) hz2, View.ld_unit_zero (S := S4096x1x128) hz3, View.ld_unit_zero (S := S4096x100) hz2, View.ld_unit_zero (S := S1x128) hz2, View.ld_unit_zero (S := S128x100) hz2, View.readCov_unit_zero (S := S1x128) _ hz2, View.readCov_unit_zero (S := S128x100) _ hz2]
  rfl

theorem sB2 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : ¬cond0_0 i) (hc1 : cond0_1 i) (x0 : Vec F S128x128 .f32) (x1 : Vec F S4096x1x128 .f32) (x2 : Vec F S4096x100 .f32) (xs0 : Vec F S1x128 .f32) (xs1 : Vec F S1x128 .f32) (xs2 : Vec F S128x100 .f32) :
    sout0_B_2 c i arg2 harg2 arg3 harg3 arg4 harg4 arg5 harg5 arg6 harg6 arg7 harg7 arg8 harg8 arg9 harg9 arg10 harg10 hc0 hc1 x0 x1 x2 xs0 xs1 xs2 = accNew x0 x1 x2 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz2]
  simp only [View.readAt_eq_ld, harg2.read_unread, harg3.read_unread, harg4.read_unread, harg8.read_unread, harg9.read_unread, harg10.read_unread, View.ld_unit_zero (S := S128x128) hz2, View.ld_unit_zero (S := S4096x1x128) hz3, View.ld_unit_zero (S := S4096x100) hz2, View.ld_unit_zero (S := S1x128) hz2, View.ld_unit_zero (S := S128x100) hz2, View.readCov_unit_zero (S := S1x128) _ hz2, View.readCov_unit_zero (S := S128x100) _ hz2]
  rfl

theorem oB3 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : ¬cond0_0 i) (hc1 : cond0_1 i) (x0 : Vec F S128x128 .f32) (x1 : Vec F S4096x1x128 .f32) (x2 : Vec F S4096x100 .f32) (xs0 : Vec F S1x128 .f32) (xs1 : Vec F S1x128 .f32) (xs2 : Vec F S128x100 .f32) :
    out0_B_3 c i arg2 harg2 arg3 harg3 arg4 harg4 arg5 harg5 arg6 harg6 arg7 harg7 arg8 harg8 arg9 harg9 arg10 harg10 hc0 hc1 x0 x1 x2 xs0 xs1 xs2 = k0_pay4 (accNew x0 x1 x2 xs0 xs2) := by
  unfold out0_B_3
  rw [View.read_writes_eq_canon _ _ _ (cover0_B_3 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg8.read_unread, harg9.read_unread, harg10.read_unread, View.ld_unit_zero (S := S128x128) hz2, View.ld_unit_zero (S := S4096x1x128) hz3, View.ld_unit_zero (S := S4096x100) hz2, View.ld_unit_zero (S := S1x128) hz2, View.ld_unit_zero (S := S128x100) hz2, View.readCov_unit_zero (S := S1x128) _ hz2, View.readCov_unit_zero (S := S128x100) _ hz2]
  rfl

theorem oB4 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : ¬cond0_0 i) (hc1 : cond0_1 i) (x0 : Vec F S128x128 .f32) (x1 : Vec F S4096x1x128 .f32) (x2 : Vec F S4096x100 .f32) (xs0 : Vec F S1x128 .f32) (xs1 : Vec F S1x128 .f32) (xs2 : Vec F S128x100 .f32) :
    out0_B_4 c i arg2 harg2 arg3 harg3 arg4 harg4 arg5 harg5 arg6 harg6 arg7 harg7 arg8 harg8 arg9 harg9 arg10 harg10 hc0 hc1 x0 x1 x2 xs0 xs1 xs2 = k0_pay5 (mNew x0 x1 xs0) := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg8.read_unread, harg9.read_unread, harg10.read_unread, View.ld_unit_zero (S := S128x128) hz2, View.ld_unit_zero (S := S4096x1x128) hz3, View.ld_unit_zero (S := S4096x100) hz2, View.ld_unit_zero (S := S1x128) hz2, View.ld_unit_zero (S := S128x100) hz2, View.readCov_unit_zero (S := S1x128) _ hz2, View.readCov_unit_zero (S := S128x100) _ hz2]
  rfl

theorem oB5 (c : Dev nD) (i : grid0.Coords) (arg2 : Memref sig .tc .vmem S128x128 .f32) (harg2 : arg2.IsWhole) (arg3 : Memref sig .tc .vmem S4096x1x128 .f32) (harg3 : arg3.IsWhole) (arg4 : Memref sig .tc .vmem S4096x100 .f32) (harg4 : arg4.IsWhole) (arg5 : Memref sig .tc .vmem S1x128x100 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x100 .f32) (harg10 : arg10.IsWhole) (hc0 : ¬cond0_0 i) (hc1 : cond0_1 i) (x0 : Vec F S128x128 .f32) (x1 : Vec F S4096x1x128 .f32) (x2 : Vec F S4096x100 .f32) (xs0 : Vec F S1x128 .f32) (xs1 : Vec F S1x128 .f32) (xs2 : Vec F S128x100 .f32) :
    out0_B_5 c i arg2 harg2 arg3 harg3 arg4 harg4 arg5 harg5 arg6 harg6 arg7 harg7 arg8 harg8 arg9 harg9 arg10 harg10 hc0 hc1 x0 x1 x2 xs0 xs1 xs2 = k0_pay6 (lNew x0 x1 xs0 xs1) := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg8.read_unread, harg9.read_unread, harg10.read_unread, View.ld_unit_zero (S := S128x128) hz2, View.ld_unit_zero (S := S4096x1x128) hz3, View.ld_unit_zero (S := S4096x100) hz2, View.ld_unit_zero (S := S1x128) hz2, View.ld_unit_zero (S := S128x100) hz2, View.readCov_unit_zero (S := S1x128) _ hz2, View.readCov_unit_zero (S := S128x100) _ hz2]
  rfl

end Cert.KernelIdeal.Pieces

end
-- ==== Proof.Carried.lean ====
import proofs.«138910_j57904749084788_2_alg».proof.Proof.Gen.KernelIdeal.Frame
import proofs.«138910_j57904749084788_2_alg».proof.Proof.Pieces
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What the carried triple and the three outputs hold after each grid point.

  The four points are (half, step) = (0,0), (0,1), (1,0), (1,1) in order. A point of step 0 starts a half: its triple is
  the update of (-∞, 0, 0) by the point's blocks. A point of step 1 ends a half: its triple is the update, by its
  blocks, of the triple the point before left, and the three outputs receive that triple.
-/
namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The carried triple after point `n`. -/
abbrev mAt (c : Dev nD) (n : ℕ) (h : n < cfg0.N) : Vec F S1x128 .f32 := (outsAt0 m c n h).2.2.2.1
abbrev lAt (c : Dev nD) (n : ℕ) (h : n < cfg0.N) : Vec F S1x128 .f32 := (outsAt0 m c n h).2.2.2.2.1
abbrev accAt (c : Dev nD) (n : ℕ) (h : n < cfg0.N) : Vec F S128x100 .f32 := (outsAt0 m c n h).2.2.2.2.2

set_option maxHeartbeats 4000000

/-- A point that starts a half. -/
theorem start (c : Dev nD) (t : Fin cfg0.N) (h0 : t.val % 2 = 0) (h1 : ¬t.val % 2 = 1) :
    mAt m c t.val t.isLt = mNew (iblk m c 0 t) (iblk m c 1 t) k0_pay7
    ∧ lAt m c t.val t.isLt = lNew (iblk m c 0 t) (iblk m c 1 t) k0_pay7 k0_pay8
    ∧ accAt m c t.val t.isLt = accNew (iblk m c 0 t) (iblk m c 1 t) (iblk m c 2 t) k0_pay7 k0_pay9 := by
  unfold mAt lAt accAt
  rw [outsAt0_A m c t h0 h1]
  dsimp only
  exact ⟨sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- A point that ends a half: the triple, over what the point before left. -/
theorem finish (c : Dev nD) (t : Fin cfg0.N) (h0 : ¬t.val % 2 = 0) (h1 : t.val % 2 = 1) :
    mAt m c t.val t.isLt = mNew (iblk m c 0 t) (iblk m c 1 t) (mAt m c (t.val - 1) (Nat.lt_of_le_of_lt (Nat.sub_le _ _) t.isLt))
    ∧ lAt m c t.val t.isLt = lNew (iblk m c 0 t) (iblk m c 1 t) (mAt m c (t.val - 1) (Nat.lt_of_le_of_lt (Nat.sub_le _ _) t.isLt)) (lAt m c (t.val - 1) (Nat.lt_of_le_of_lt (Nat.sub_le _ _) t.isLt))
    ∧ accAt m c t.val t.isLt = accNew (iblk m c 0 t) (iblk m c 1 t) (iblk m c 2 t) (mAt m c (t.val - 1) (Nat.lt_of_le_of_lt (Nat.sub_le _ _) t.isLt)) (accAt m c (t.val - 1) (Nat.lt_of_le_of_lt (Nat.sub_le _ _) t.isLt)) := by
  unfold mAt lAt accAt
  rw [outsAt0_B m c t h0 h1]
  dsimp only
  exact ⟨sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _,
    sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _,
    sB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _⟩

/-- A point that ends a half: the outputs receive the triple it leaves. -/
theorem outputs (c : Dev nD) (t : Fin cfg0.N) (h0 : ¬t.val % 2 = 0) (h1 : t.val % 2 = 1) :
    (outsAt0 m c t.val t.isLt).1 = k0_pay4 (accAt m c t.val t.isLt)
    ∧ (outsAt0 m c t.val t.isLt).2.1 = k0_pay5 (mAt m c t.val t.isLt)
    ∧ (outsAt0 m c t.val t.isLt).2.2.1 = k0_pay6 (lAt m c t.val t.isLt) := by
  unfold mAt lAt accAt
  rw [outsAt0_B m c t h0 h1]
  dsimp only
  refine ⟨?_, ?_, ?_⟩
  · rw [sB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _]
    exact oB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _
  · rw [sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _]
    exact oB4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _
  · rw [sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _]
    exact oB5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _

end Cert.KernelIdeal.Carried

end
-- ==== Proof.Blocks.lean ====
import proofs.«138910_j57904749084788_2_alg».proof.Proof.Gen.KernelIdeal.Frame
import proofs.«138910_j57904749084788_2_alg».proof.Proof.Arrays
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

/-!
  The input windows' blocks, read off the arrays.

  At point `t` the body is handed the whole array of projected inputs, rows `4096 t … 4096 t + 4095` of the prototypes
  and the same rows of the class weights: the block index of the last two windows is the point's own number.
-/
namespace Cert.KernelIdeal.Blocks

open Cert.KernelIdeal Cert.KernelIdeal.Gen Cert.KernelIdeal.Arrays Idealize.ShloMosaic.ValueIdx

variable {F : FTy → Type} [FloatOps F]
variable (m : (ℓ : Loc nD τ sig) → Buf (Elt F) ℓ)

theorem row_lt (t : Fin cfg0.N) (p : Fin 4096) : 4096 * t.val + p.val < 16384 := by
  have := lt_of_lt_of_eq t.isLt hN; have := p.isLt; omega

set_option maxHeartbeats 4000000

/-- The projected inputs' block is their whole array, at every point. -/
theorem blk0 (c : Dev nD) (t : Fin cfg0.N) (b d : Fin 128) :
    (iblk m c 0 t : Vec F S128x128 .f32) (ix2 b d) = V m c main_v9 (ix2 b d) := by
  obtain ⟨e0, e1⟩ := idx0 t
  unfold iblk
  rw [View.read_apply]
  show V m c main_v9 _ = _
  refine congrArg _ (funext fun a => Fin.ext ?_)
  match a with
  | ⟨0, _⟩ => show win0_0.index t (0 : Fin 2) * 128 + 1 * b.val = b.val; rw [e0]; omega
  | ⟨1, _⟩ => show win0_0.index t (1 : Fin 2) * 128 + 1 * d.val = d.val; rw [e1]; omega

/-- Row `p` of the prototypes' block at point `t` is prototype `4096 t + p`. -/
theorem blk1 (c : Dev nD) (t : Fin cfg0.N) (p : Fin 4096) (d : Fin 128) :
    (iblk m c 1 t : Vec F S4096x1x128 .f32) (ix3 p (0 : Fin 1) d)
      = m ((c : Thread nD τ).loc main_arg1) (ix3 (⟨4096 * t.val + p.val, row_lt t p⟩ : Fin 16384) (0 : Fin 1) d) := by
  obtain ⟨e0, e1, e2⟩ := idx1 t
  unfold iblk
  rw [View.read_apply]
  show V m c main_arg1 _ = _
  rw [V_main_arg1 m c]
  refine congrArg _ (funext fun a => Fin.ext ?_)
  match a with
  | ⟨0, _⟩ => show win0_1.index t (0 : Fin 3) * 4096 + 1 * p.val = 4096 * t.val + p.val; rw [e0]; omega
  | ⟨1, _⟩ => show win0_1.index t (1 : Fin 3) * 1 + 1 * 0 = 0; rw [e1]
  | ⟨2, _⟩ => show win0_1.index t (2 : Fin 3) * 128 + 1 * d.val = d.val; rw [e2]; omega

/-- Row `p` of the class weights' block at point `t` is the weights of prototype `4096 t + p`. -/
theorem blk2 (c : Dev nD) (t : Fin cfg0.N) (p : Fin 4096) (q : Fin 100) :
    (iblk m c 2 t : Vec F S4096x100 .f32) (ix2 p q)
      = m ((c : Thread nD τ).loc main_arg2) (ix2 (⟨4096 * t.val + p.val, row_lt t p⟩ : Fin 16384) q) := by
  obtain ⟨e0, e1⟩ := idx2 t
  unfold iblk
  rw [View.read_apply]
  show V m c main_arg2 _ = _
  rw [V_main_arg2 m c]
  refine congrArg _ (funext fun a => Fin.ext ?_)
  match a with
  | ⟨0, _⟩ => show win0_2.index t (0 : Fin 2) * 4096 + 1 * p.val = 4096 * t.val + p.val; rw [e0]; omega
  | ⟨1, _⟩ => show win0_2.index t (1 : Fin 2) * 100 + 1 * q.val = q.val; rw [e1]; omega

end Cert.KernelIdeal.Blocks

end
-- ==== Proof.Words.lean ====
/-
  The float words the two programs spell, as the extended reals they denote.

  Both programs use the same ten words, so most are never evaluated; the algebra that joins the two sides needs a
  few of them as numbers: the cross term of an expanded square needs the word of two to be `2`; the quotient
  `acc * (1 / l)` and the denominator `1 - z` need the word of one to be `1`; the clamp of the Möbius
  denominator needs the word of `1e-15` to be a positive real; and the clip of the norm to
  `[-(1 - 2⁻²³), 1 - 2⁻²³]` keeps `1 - z` positive and `1 + 2 z / (1 - z)` positive, so that the logarithm is
  taken of a positive real.
-/
import Idealize.ShloMosaic.PureOps.Ideal

noncomputable section

namespace Hdsdm.Words

open Idealize.ShloMosaic

theorem zero : Ideal.ofBits .f32 0x00000000#32 = 0 := by
  simp [Ideal.ofBits, Ideal.ieee]

theorem neg_inf : Ideal.ofBits .f32 0xFF800000#32 = (⊥ : EReal) := by
  simp [Ideal.ofBits, Ideal.ieee]

theorem one : Ideal.ofBits .f32 0x3F800000#32 = 1 := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

/-- The clip's upper bound is `1 - 2⁻²³`. -/
theorem hi : Ideal.ofBits .f32 0x3F7FFFFE#32 = ((8388607 / 8388608 : ℝ) : EReal) := by
  simp [Ideal.ofBits, Ideal.ieee, -EReal.coe_mul]; norm_num

/-- The clip's lower bound is `-(1 - 2⁻²³)`. -/
theorem lo : Ideal.ofBits .f32 0xBF7FFFFE#32 = ((-(8388607 / 8388608) : ℝ) : EReal) := by
  rw [EReal.coe_neg]
  simp [Ideal.ofBits, Ideal.ieee, -EReal.coe_mul]; norm_num

/-- The projection's bound `1 - 4e-3`, rounded to single precision, is a real number. -/
theorem maxnorm : Ideal.ofBits .f32 0x3F7EF9DB#32 = ((16710107 / 16777216 : ℝ) : EReal) := by
  simp [Ideal.ofBits, Ideal.ieee, -EReal.coe_mul]; norm_num

/-- The word of `1e-15` denotes a positive real. -/
theorem eps : ∃ r : ℝ, 0 < r ∧ Ideal.ofBits .f32 0x26901D7D#32 = (r : EReal) := by
  refine ⟨(1 + 1056125 / 8388608) * (2 : ℝ) ^ (-50 : ℤ), by positivity, ?_⟩
  simp [Ideal.ofBits, Ideal.ieee, -EReal.coe_mul]; norm_num

end Hdsdm.Words

end
-- ==== Proof.LibMax.lean ====
/- Maxima over finite index sets in the extended reals: a fold of the maximum from minus infinity is a supremum, a
   reduction with the maximum over one axis of an array is the supremum over that axis's coordinates, and writing one
   constant at a family of positions of an array leaves the constant where a position lands and the array elsewhere. -/
import Idealize.ShloMosaic.PureOps.Ideal.Laws
import Idealize.ShloMosaic.Lib.ValueIdx
import Idealize.ShloMosaic.Lib.Pipeline.Value

noncomputable section

namespace Cert.LibMax

open Idealize.ShloMosaic

/-- The word of minus infinity is the least extended real. -/
theorem ofBits_neg_inf : Ideal.ofBits .f32 0xFF800000#32 = (⊥ : EReal) := by
  simp [Ideal.ofBits, Ideal.ieee]

/-- A fold of the maximum from the least element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- A fold of the maximum from any start is the start joined with the supremum. -/
theorem fold_max_eq {ι : Type} (s : Finset ι) (b : EReal) (f : ι → EReal) : s.fold max b f = max b (s.sup f) := by
  classical
  induction s using Finset.induction_on with
  | empty => simp
  | insert a s ha ih => rw [Finset.fold_insert ha, Finset.sup_insert, ih, max_left_comm]

/-- The host's reduction with the maximum over ONE axis, from minus infinity, read at `j`: the supremum over that
    axis's coordinates `k` of the array at `j` with `k` inserted. -/
theorem hostReduce_max_single {s t : Shape} {a : Fin s.rank} (x : FVec Ideal s .f32)
    (h' : s.ReducesTo [a] t) (h : s.Reduces [a] t) (hu : 0 < (⟨0, ![]⟩ : Shape).numel) (j : t.Idx) :
    Host.reduce FloatOps.maximumf x (constant (F := Ideal) (⟨0, ![]⟩ : Shape) .f32 0xFF800000#32) h' hu j
      = Finset.univ.sup (fun k : Fin (s.size a) => x (h.lift j k)) := by
  rw [Host.reduce_eq_fold_single FloatOps.maximumf x _ h' h hu]
  show Finset.fold max (Ideal.ofBits .f32 0xFF800000#32) (x ∘ h.lift j) Finset.univ = _
  rw [ofBits_neg_inf, fold_max_bot]
  rfl

/-- Writing the constant `c` at every position a family of updates lands on (an update that lands nowhere is
    dropped): the result holds `c` where some update lands, and the array elsewhere. -/
theorem scatter_const_apply {s si u : Shape} {w : Nat} {α : Type} (d : ScatterDims s si u) (x : s.Idx → α)
    (idx : IVec si w) (c : α) (i' : s.Idx) :
    Host.scatter d (fun _ b => b) x idx (fun _ => c) i'
      = if ∃ j : u.Idx, d.resultIdx? j idx = some i' then c else x i' := by
  classical
  have key : ∀ (l : List (Fin u.numel)) (y : s.Idx → α),
      (l.foldl (fun r n =>
          match d.resultIdx? (u.rowMajor.symm n) idx with
          | some i => fun i' => if i' = i then (fun (_ : α) (b : α) => b) (r i) ((fun _ => c) (u.rowMajor.symm n)) else r i'
          | none => r) y) i'
        = if ∃ n ∈ l, d.resultIdx? (u.rowMajor.symm n) idx = some i' then c else y i' := by
    intro l
    induction l with
    | nil => intro y; simp
    | cons n l ih =>
      intro y
      rw [List.foldl_cons, ih]
      cases hg : d.resultIdx? (u.rowMajor.symm n) idx with
      | none =>
        simp only [List.mem_cons, exists_eq_or_imp, hg, reduceCtorEq, false_or]
      | some i =>
        simp only [List.mem_cons, exists_eq_or_imp, hg, Option.some.injEq]
        by_cases h1 : ∃ a ∈ l, d.resultIdx? (u.rowMajor.symm a) idx = some i'
        · rw [if_pos h1, if_pos (Or.inr h1)]
        · rw [if_neg h1]
          by_cases h2 : i' = i
          · rw [if_pos h2, if_pos (Or.inl h2.symm)]
          · rw [if_neg h2, if_neg (by rintro (h | h); exacts [h2 h.symm, h1 h])]
  unfold Host.scatter
  refine (key _ _).trans ?_
  refine if_congr ⟨fun ⟨n, _, hn⟩ => ⟨_, hn⟩, fun ⟨j, hj⟩ => ⟨u.rowMajor j, List.mem_finRange _, ?_⟩⟩ rfl rfl
  rw [Equiv.symm_apply_apply]; exact hj

end Cert.LibMax

end
-- ==== Proof.PayloadAtScore.lean ====
/-
  The kernel body's scores read at an index, at the ideal instance.

  For a block of 4096 prototypes and the 128 projected inputs the body computes the score of every (prototype,
  input) pair: the two squared norms (lane sums) and the inner product (a matrix product contracting the feature
  axis) enter the expanded square of the Möbius sum's norm, whose radicand is clamped at zero and whose root is divided
  by the clamped denominator; the norm is clipped, sent through the inverse hyperbolic tangent and scaled.  Each
  theorem reads one of these vector terms at one index; the last reads the score at `(p, b)` as `Spec.lean`'s
  `scoreK (normK …)` of prototype `p`'s row and input `b`'s row.  The three initial values of the running
  statistics are read here too.
-/
import proofs.«138910_j57904749084788_2_alg».proof.Proof.Gen.KernelIdeal.Skeleton
import proofs.«138910_j57904749084788_2_alg».proof.Proof.Spec
import proofs.«138910_j57904749084788_2_alg».proof.Proof.Words
import proofs.«138910_j57904749084788_2_alg».proof.Proof.LibMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-! ## Layout steps the squared norms pass through -/

section Layout
variable {α : Type}

/-- A column `[a, 1]` broadcast to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` viewed as a column `[a, 1]` reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The three contractions over the feature axis -/

/-- The prototypes' block with its unit axis dropped reads, at `(p, d)`, the block at `(p, 0, d)`. -/
theorem pay11_apply (x1 : Vec Ideal S4096x1x128 .f32) (p : Fin 4096) (d : Fin 128) :
    k0_pay11 x1 (ix2 p d) = x1 (ix3 p (0 : Fin 1) d) := by
  unfold k0_pay11
  exact shapeCast_apply x1 _ (ix2 p d) (ix3 p (0 : Fin 1) d) (by
    rw [Shape.rowMajor_val_three, Shape.rowMajor_val_two]
    show (p.val * 1 + 0) * 128 + d.val = p.val * 128 + d.val
    rw [Nat.mul_one, Nat.add_zero])

/-- The squared norm of prototype `p`. -/
def X2 (x1 : Vec Ideal S4096x1x128 .f32) (p : Fin 4096) : EReal :=
  ∑ d : Fin 128, x1 (ix3 p (0 : Fin 1) d) * x1 (ix3 p (0 : Fin 1) d)

/-- The squared norm of input `b`. -/
def Y2 (x0 : Vec Ideal S128x128 .f32) (b : Fin 128) : EReal := ∑ d : Fin 128, x0 (ix2 b d) * x0 (ix2 b d)

/-- The inner product of prototype `p` and input `b`. -/
def XY (x0 : Vec Ideal S128x128 .f32) (x1 : Vec Ideal S4096x1x128 .f32) (p : Fin 4096) (b : Fin 128) : EReal :=
  ∑ d : Fin 128, x1 (ix3 p (0 : Fin 1) d) * x0 (ix2 b d)

/-- The lane sum of the squared prototypes, kept as a column. -/
theorem pay12_apply (x1 : Vec Ideal S4096x1x128 .f32) (p : Fin 4096) :
    k0_pay12 x1 (ix2 p (0 : Fin 1)) = X2 x1 p := by
  unfold k0_pay12
  refine (shapeCast_a_a1_apply _ _ p 0).trans ?_
  refine (Ideal.multiReduction_add_single _ _ reduces_S4096x128_S4096 (.inl rfl) rfl (ix1 p)).trans ?_
  show ∑ d : Fin 128, mulf (k0_pay11 x1) (k0_pay11 x1) (reduces_S4096x128_S4096.lift (ix1 p) d) = _
  unfold X2
  refine Finset.sum_congr rfl fun d _ => ?_
  have e : reduces_S4096x128_S4096.lift (ix1 p) d = ix2 p d := by
    funext a
    apply Fin.ext
    match a with
    | ⟨0, _⟩ => rfl
    | ⟨1, _⟩ => rfl
  rw [e]
  show k0_pay11 x1 (ix2 p d) * k0_pay11 x1 (ix2 p d) = _
  rw [pay11_apply]

/-- The lane sum of the squared inputs, turned into a row. -/
theorem pay13_apply (x0 : Vec Ideal S128x128 .f32) (b : Fin 128) :
    k0_pay13 x0 (ix2 (0 : Fin 1) b) = Y2 x0 b := by
  unfold k0_pay13
  refine (transpose_ix2_apply _ _ (0 : Fin 1) b).trans ?_
  refine (shapeCast_a_a1_apply _ _ b 0).trans ?_
  refine (Ideal.multiReduction_add_single _ _ reduces_S128x128_S128 (.inl rfl) rfl (ix1 b)).trans ?_
  show ∑ d : Fin 128, mulf (k0_pay10 x0) (k0_pay10 x0) (reduces_S128x128_S128.lift (ix1 b) d) = _
  unfold Y2
  refine Finset.sum_congr rfl fun d _ => ?_
  have e : reduces_S128x128_S128.lift (ix1 b) d = ix2 b d := by
    funext a
    apply Fin.ext
    match a with
    | ⟨0, _⟩ => rfl
    | ⟨1, _⟩ => rfl
  rw [e]
  unfold k0_pay10
  rw [shapeCast_self]
  rfl

/-- The matrix product that contracts the feature axis of both operands, into the zero splat. -/
theorem pay14_apply (x0 : Vec Ideal S128x128 .f32) (x1 : Vec Ideal S4096x1x128 .f32) (p : Fin 4096) (b : Fin 128) :
    k0_pay14 x0 x1 (ix2 p b) = XY x0 x1 p b := by
  unfold k0_pay14
  refine (Ideal.matmul_constant_zero_apply dot_S4096x128_S128x128_S4096x128_1_1_0_0_n_n (some .fp32) (k0_pay11 x1) (k0_pay10 x0) (ix2 p b)).trans ?_
  rw [← Equiv.sum_comp (contrEquiv1 dot_S4096x128_S128x128_S4096x128_1_1_0_0_n_n 128 rfl rfl).symm]
  unfold XY
  refine Finset.sum_congr rfl fun k _ => ?_
  have hk := contrEquiv1_symm_val dot_S4096x128_S128x128_S4096x128_1_1_0_0_n_n 128 rfl rfl k
  have el : dot_S4096x128_S128x128_S4096x128_1_1_0_0_n_n.lhsIdx (ix2 p b)
      ((contrEquiv1 dot_S4096x128_S128x128_S4096x128_1_1_0_0_n_n 128 rfl rfl).symm k) = ix2 p k :=
    funext fun a => Fin.ext (by
      match a with
      | ⟨0, _⟩ =>
        unfold DotDims.lhsIdx
        rw [dif_neg (show ¬(⟨0, by decide⟩ : Fin S4096x128.rank) ∈ dot_S4096x128_S128x128_S4096x128_1_1_0_0_n_n.lhsBatch by decide),
          dif_pos (show (⟨0, by decide⟩ : Fin S4096x128.rank) ∈ dot_S4096x128_S128x128_S4096x128_1_1_0_0_n_n.lhsNonContracting by decide)]
        rfl
      | ⟨1, _⟩ => exact (dot_S4096x128_S128x128_S4096x128_1_1_0_0_n_n.lhsIdx_val_of_single rfl _ _).trans hk)
  have er : dot_S4096x128_S128x128_S4096x128_1_1_0_0_n_n.rhsIdx (ix2 p b)
      ((contrEquiv1 dot_S4096x128_S128x128_S4096x128_1_1_0_0_n_n 128 rfl rfl).symm k) = ix2 b k :=
    funext fun a => Fin.ext (by
      match a with
      | ⟨0, _⟩ =>
        unfold DotDims.rhsIdx
        rw [dif_neg (show ¬(⟨0, by decide⟩ : Fin S128x128.rank) ∈ dot_S4096x128_S128x128_S4096x128_1_1_0_0_n_n.rhsBatch by decide),
          dif_pos (show (⟨0, by decide⟩ : Fin S128x128.rank) ∈ dot_S4096x128_S128x128_S4096x128_1_1_0_0_n_n.rhsNonContracting by decide)]
        rfl
      | ⟨1, _⟩ => exact (dot_S4096x128_S128x128_S4096x128_1_1_0_0_n_n.rhsIdx_val_of_single rfl _ _).trans hk)
  rw [el, er, pay11_apply]
  unfold k0_pay10
  rw [shapeCast_self]

/-! ## The pointwise stages, and the score -/

/-- The first coefficient of the expanded square. -/
theorem pay15_apply (x0 : Vec Ideal S128x128 .f32) (x1 : Vec Ideal S4096x1x128 .f32) (p : Fin 4096) (b : Fin 128) :
    k0_pay15 x0 x1 (ix2 p b) = (Hdsdm.w1 - Hdsdm.w2 * XY x0 x1 p b) + Y2 x0 b := by
  unfold k0_pay15
  show (Hdsdm.w1 - Hdsdm.w2 * k0_pay14 x0 x1 (ix2 p b))
      + broadcastTo S4096x128 (k0_pay13 x0) broadcasts_S1x128_S4096x128 (ix2 p b) = _
  rw [broadcastTo_1b_ab_apply, pay13_apply, pay14_apply]

/-- The second coefficient, a column. -/
theorem pay16_apply (x1 : Vec Ideal S4096x1x128 .f32) (p : Fin 4096) :
    k0_pay16 x1 (ix2 p (0 : Fin 1)) = Hdsdm.w1 - X2 x1 p := by
  unfold k0_pay16
  show Hdsdm.w1 - k0_pay12 x1 (ix2 p (0 : Fin 1)) = _
  rw [pay12_apply]

/-- The Möbius denominator. -/
theorem pay17_apply (x0 : Vec Ideal S128x128 .f32) (x1 : Vec Ideal S4096x1x128 .f32) (p : Fin 4096) (b : Fin 128) :
    k0_pay17 x0 x1 (ix2 p b) = (Hdsdm.w1 - Hdsdm.w2 * XY x0 x1 p b) + X2 x1 p * Y2 x0 b := by
  unfold k0_pay17
  show (Hdsdm.w1 - Hdsdm.w2 * k0_pay14 x0 x1 (ix2 p b))
      + broadcastTo S4096x128 (k0_pay12 x1) broadcasts_S4096x1_S4096x128 (ix2 p b)
        * broadcastTo S4096x128 (k0_pay13 x0) broadcasts_S1x128_S4096x128 (ix2 p b) = _
  rw [broadcastTo_1b_ab_apply, broadcastTo_a1_ab_apply, pay12_apply, pay13_apply, pay14_apply]

/-- The first term of the radicand. -/
theorem pay18_apply (x0 : Vec Ideal S128x128 .f32) (x1 : Vec Ideal S4096x1x128 .f32) (p : Fin 4096) (b : Fin 128) :
    k0_pay18 x0 x1 (ix2 p b) = (k0_pay15 x0 x1 (ix2 p b) * k0_pay15 x0 x1 (ix2 p b)) * X2 x1 p := by
  unfold k0_pay18
  show (k0_pay15 x0 x1 (ix2 p b) * k0_pay15 x0 x1 (ix2 p b))
      * broadcastTo S4096x128 (k0_pay12 x1) broadcasts_S4096x1_S4096x128 (ix2 p b) = _
  rw [broadcastTo_a1_ab_apply, pay12_apply]

/-- The cross term's coefficient. -/
theorem pay19_apply (x0 : Vec Ideal S128x128 .f32) (x1 : Vec Ideal S4096x1x128 .f32) (p : Fin 4096) (b : Fin 128) :
    k0_pay19 x0 x1 (ix2 p b) = (Hdsdm.w2 * k0_pay15 x0 x1 (ix2 p b)) * k0_pay16 x1 (ix2 p (0 : Fin 1)) := by
  unfold k0_pay19
  show (Hdsdm.w2 * k0_pay15 x0 x1 (ix2 p b))
      * broadcastTo S4096x128 (k0_pay16 x1) broadcasts_S4096x1_S4096x128 (ix2 p b) = _
  rw [broadcastTo_a1_ab_apply]

/-- From the six pieces to the score: the radicand is assembled and clamped at zero, its root divided by the clamped
    denominator, and the quotient sent to the score. -/
theorem pay20_apply (v14 : FVec Ideal S1x128 .f32) (v15 : FVec Ideal S4096x128 .f32) (v23 : FVec Ideal S4096x1 .f32)
    (v31 v34 v38 : FVec Ideal S4096x128 .f32) (p : Fin 4096) (b : Fin 128) :
    k0_pay20 v14 v15 v23 v31 v34 v38 (ix2 p b)
      = Hdsdm.scoreK (Ideal.div (Ideal.sqrt (max ((v34 (ix2 p b) - v38 (ix2 p b) * v15 (ix2 p b))
          + (v23 (ix2 p (0 : Fin 1)) * v23 (ix2 p (0 : Fin 1))) * v14 (ix2 (0 : Fin 1) b)) Hdsdm.w0))
          (max (v31 (ix2 p b)) Hdsdm.wEps)) := by
  unfold k0_pay20
  show Hdsdm.scoreK (Ideal.div (Ideal.sqrt (max ((v34 (ix2 p b) - v38 (ix2 p b) * v15 (ix2 p b))
          + broadcastTo S4096x128 (mulf v23 v23) broadcasts_S4096x1_S4096x128 (ix2 p b)
            * broadcastTo S4096x128 v14 broadcasts_S1x128_S4096x128 (ix2 p b)) Hdsdm.w0))
          (max (v31 (ix2 p b)) Hdsdm.wEps)) = _
  rw [broadcastTo_1b_ab_apply, broadcastTo_a1_ab_apply]
  rfl

/-- The block's scores: the score of every (prototype, input) pair. -/
def sc (x0 : Vec Ideal S128x128 .f32) (x1 : Vec Ideal S4096x1x128 .f32) : FVec Ideal S4096x128 .f32 :=
  k0_pay20 (k0_pay13 x0) (k0_pay14 x0 x1) (k0_pay16 x1) (k0_pay17 x0 x1) (k0_pay18 x0 x1) (k0_pay19 x0 x1)

/-- The score of prototype `p` for input `b`, the six pieces written out: the kernel's arrangement of the norm, sent
    to the score. -/
theorem score_apply (x0 : Vec Ideal S128x128 .f32) (x1 : Vec Ideal S4096x1x128 .f32) (p : Fin 4096) (b : Fin 128) :
    k0_pay20 (k0_pay13 x0) (k0_pay14 x0 x1) (k0_pay16 x1) (k0_pay17 x0 x1) (k0_pay18 x0 x1) (k0_pay19 x0 x1) (ix2 p b)
      = Hdsdm.scoreK (Hdsdm.normK (fun d : Fin 128 => x1 (ix3 p (0 : Fin 1) d)) (fun d : Fin 128 => x0 (ix2 b d))) := by
  refine (pay20_apply _ _ _ _ _ _ p b).trans ?_
  rw [pay18_apply, pay19_apply, pay17_apply, pay16_apply, pay15_apply, pay14_apply, pay13_apply]
  rfl

/-- The same over the block's name. -/
theorem sc_apply (x0 : Vec Ideal S128x128 .f32) (x1 : Vec Ideal S4096x1x128 .f32) (p : Fin 4096) (b : Fin 128) :
    sc x0 x1 (ix2 p b)
      = Hdsdm.scoreK (Hdsdm.normK (fun d : Fin 128 => x1 (ix3 p (0 : Fin 1) d)) (fun d : Fin 128 => x0 (ix2 b d))) :=
  score_apply x0 x1 p b

/-- The block's name is the score term over the six pieces. -/
theorem sc_eq (x0 : Vec Ideal S128x128 .f32) (x1 : Vec Ideal S4096x1x128 .f32) :
    sc x0 x1 = k0_pay20 (k0_pay13 x0) (k0_pay14 x0 x1) (k0_pay16 x1) (k0_pay17 x0 x1) (k0_pay18 x0 x1) (k0_pay19 x0 x1) := rfl

/-! ## The initial values of the running statistics -/

/-- The running maximum starts at the word of minus infinity. -/
theorem pay7_apply (b : Fin 128) : k0_pay7 (F := Ideal) (ix2 (0 : Fin 1) b) = Hdsdm.wNegInf := rfl

/-- The normaliser starts at the word of zero. -/
theorem pay8_apply (b : Fin 128) : k0_pay8 (F := Ideal) (ix2 (0 : Fin 1) b) = Hdsdm.w0 := rfl

/-- The accumulator starts at the word of zero. -/
theorem pay9_apply (b : Fin 128) (c : Fin 100) : k0_pay9 (F := Ideal) (ix2 b c) = Hdsdm.w0 := rfl

end Cert.KernelIdeal.PayAt

end
-- ==== Proof.PayloadAtSoftmin.lean ====
/-
  The kernel body's running statistics read at an index, at the ideal instance.

  Over a block's scores (any six pieces the score is assembled from) the body advances, per input, a running
  maximum, a normaliser and a class-weighted accumulator: the carried maximum is joined with the block's largest
  score, what was carried is rescaled by the exponential of the old maximum less the new, and the block's weights —
  the exponentials of the scores less the new maximum — are summed (normaliser) or summed against the class weights
  (accumulator, a matrix product contracting the prototype axis).  Each theorem reads one of these vector terms at
  one index as `Spec.lean`'s `mB`, `lB`, `accB` over the block's column of scores.  The stores that only change the
  shape are read here too.
-/
import proofs.«138910_j57904749084788_2_alg».proof.Proof.Gen.KernelIdeal.Skeleton
import proofs.«138910_j57904749084788_2_alg».proof.Proof.Spec
import proofs.«138910_j57904749084788_2_alg».proof.Proof.Words
import proofs.«138910_j57904749084788_2_alg».proof.Proof.LibMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-! ## Reductions over the prototype axis, read at an input -/

/-- The block's largest score for input `b`: the reduction with the maximum over the prototype axis, from the word of
    minus infinity, viewed under a leading unit axis. -/
theorem colMax_apply (s : FVec Ideal S4096x128 .f32) (b : Fin 128) :
    shapeCast S1x128 (multiReduction (F := Ideal) .maximumf [0] S128 s 0xFF800000#32 reduces_S4096x128_S128 (.inl rfl) rfl)
        shapeCasts_S128_S1x128 (ix2 (0 : Fin 1) b)
      = Hdsdm.blkMax (fun p : Fin 4096 => s (ix2 p b)) := by
  refine (shapeCast_a_1a_apply _ _ 0 b).trans ?_
  refine (Ideal.multiReduction_maximumf_single s _ reduces_S4096x128_S128 (.inl rfl) rfl (ix1 b)).trans ?_
  show Finset.univ.fold max Hdsdm.wNegInf (fun p : Fin 4096 => s (reduces_S4096x128_S128.lift (ix1 b) p)) = _
  unfold Hdsdm.blkMax
  refine congrArg (fun f : Fin 4096 → EReal => Finset.univ.fold max Hdsdm.wNegInf f) (funext fun p => congrArg s ?_)
  funext a
  apply Fin.ext
  match a with
  | ⟨0, _⟩ => rfl
  | ⟨1, _⟩ => rfl

/-- The sum over the prototype axis for input `b`, viewed under a leading unit axis. -/
theorem colSum_apply (e : FVec Ideal S4096x128 .f32) (b : Fin 128) :
    shapeCast S1x128 (multiReduction (F := Ideal) .add [0] S128 e 0x00000000#32 reduces_S4096x128_S128 (.inl rfl) rfl)
        shapeCasts_S128_S1x128 (ix2 (0 : Fin 1) b)
      = ∑ p : Fin 4096, e (ix2 p b) := by
  refine (shapeCast_a_1a_apply _ _ 0 b).trans ?_
  refine (Ideal.multiReduction_add_single e _ reduces_S4096x128_S128 (.inl rfl) rfl (ix1 b)).trans ?_
  show ∑ p : Fin 4096, e (reduces_S4096x128_S128.lift (ix1 b) p) = _
  refine Finset.sum_congr rfl fun p _ => congrArg e ?_
  funext a
  apply Fin.ext
  match a with
  | ⟨0, _⟩ => rfl
  | ⟨1, _⟩ => rfl

/-! ## A layout step the rescaling factor passes through -/

section Layout
variable {α : Type}

/-- A column `[a, 1]` broadcast to `[a, b]` reads, at `(p, c)`, the column at `p`. -/
private theorem broadcastCol_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The running maximum, normaliser and accumulator over a block of scores -/

section Softmin
variable (v14 : FVec Ideal S1x128 .f32) (v15 : FVec Ideal S4096x128 .f32) (v23 : FVec Ideal S4096x1 .f32)
  (v31 v34 v38 : FVec Ideal S4096x128 .f32)

/-- The new running maximum of input `b`: the carried one joined with the block's largest score. -/
theorem m_apply6 (mp : Vec Ideal S1x128 .f32) (b : Fin 128) :
    k0_pay21 v14 v15 v23 v31 v34 v38 mp (ix2 (0 : Fin 1) b)
      = Hdsdm.mB (mp (ix2 (0 : Fin 1) b)) (fun p : Fin 4096 => k0_pay20 v14 v15 v23 v31 v34 v38 (ix2 p b)) := by
  unfold k0_pay21
  generalize k0_pay20 v14 v15 v23 v31 v34 v38 = s
  refine (maximumf_apply _ _ _).trans ?_
  exact congrArg (max (mp (ix2 (0 : Fin 1) b))) (colMax_apply s b)

/-- The factor that rescales what input `b` carried to the new maximum. -/
theorem alpha_apply6 (mp : Vec Ideal S1x128 .f32) (b : Fin 128) :
    k0_pay22 v14 v15 v23 v31 v34 v38 mp (ix2 (0 : Fin 1) b)
      = Ideal.exp (mp (ix2 (0 : Fin 1) b)
          - Hdsdm.mB (mp (ix2 (0 : Fin 1) b)) (fun p : Fin 4096 => k0_pay20 v14 v15 v23 v31 v34 v38 (ix2 p b))) := by
  unfold k0_pay22
  show Ideal.exp (mp (ix2 (0 : Fin 1) b) - k0_pay21 v14 v15 v23 v31 v34 v38 mp (ix2 (0 : Fin 1) b)) = _
  rw [m_apply6]

/-- The weight of prototype `p` for input `b`: the exponential of its score less the new maximum. -/
theorem pexp_apply6 (mp : Vec Ideal S1x128 .f32) (p : Fin 4096) (b : Fin 128) :
    k0_pay23 v14 v15 v23 v31 v34 v38 mp (ix2 p b)
      = Ideal.exp (k0_pay20 v14 v15 v23 v31 v34 v38 (ix2 p b)
          - Hdsdm.mB (mp (ix2 (0 : Fin 1) b)) (fun p : Fin 4096 => k0_pay20 v14 v15 v23 v31 v34 v38 (ix2 p b))) := by
  unfold k0_pay23
  show Ideal.exp (k0_pay20 v14 v15 v23 v31 v34 v38 (ix2 p b)
      - broadcastTo S4096x128 (k0_pay21 v14 v15 v23 v31 v34 v38 mp) broadcasts_S1x128_S4096x128 (ix2 p b)) = _
  rw [broadcastTo_1b_ab_apply, m_apply6]

/-- The new normaliser of input `b`. -/
theorem l_apply6 (mp lp : Vec Ideal S1x128 .f32) (b : Fin 128) :
    k0_pay1 (k0_pay24 v14 v15 v23 v31 v34 v38 mp lp) (k0_pay25 v14 v15 v23 v31 v34 v38 mp) (ix2 (0 : Fin 1) b)
      = Hdsdm.lB (mp (ix2 (0 : Fin 1) b)) (lp (ix2 (0 : Fin 1) b))
          (fun p : Fin 4096 => k0_pay20 v14 v15 v23 v31 v34 v38 (ix2 p b)) := by
  unfold k0_pay1
  refine (congrFun (shapeCast_self _ _) _).trans ?_
  refine (addf_apply _ _ _).trans ?_
  unfold Hdsdm.lB
  refine congrArg₂ (· + ·) ?_ ?_
  · unfold k0_pay24
    refine (mulf_apply _ _ _).trans ?_
    exact congrArg (· * lp (ix2 (0 : Fin 1) b)) (alpha_apply6 v14 v15 v23 v31 v34 v38 mp b)
  · unfold k0_pay25
    refine (colSum_apply _ b).trans ?_
    exact Finset.sum_congr rfl fun p _ => pexp_apply6 v14 v15 v23 v31 v34 v38 mp p b

end Softmin

/-! ## The class-weighted accumulator -/

/-- The product that contracts the prototype axis of both operands, into the zero splat: at `(b, c)` the sum over
    the prototypes of the left operand at `(p, b)` times the right at `(p, c)`. -/
theorem matmulT_apply (L : FVec Ideal S4096x128 .bf16) (R : FVec Ideal S4096x100 .bf16) (b : Fin 128) (c : Fin 100) :
    matmul dot_S4096x128_S4096x100_S128x100_0_0_1_1_n_n none L R (constant (F := Ideal) S128x100 .f32 0x00000000#32) (ix2 b c)
      = ∑ p : Fin 4096, L (ix2 p b) * R (ix2 p c) := by
  refine (Ideal.matmul_constant_zero_apply dot_S4096x128_S4096x100_S128x100_0_0_1_1_n_n none L R (ix2 b c)).trans ?_
  rw [← Equiv.sum_comp (contrEquiv1 dot_S4096x128_S4096x100_S128x100_0_0_1_1_n_n 4096 rfl rfl).symm]
  refine Finset.sum_congr rfl fun k _ => ?_
  have hk := contrEquiv1_symm_val dot_S4096x128_S4096x100_S128x100_0_0_1_1_n_n 4096 rfl rfl k
  have el : dot_S4096x128_S4096x100_S128x100_0_0_1_1_n_n.lhsIdx (ix2 b c)
      ((contrEquiv1 dot_S4096x128_S4096x100_S128x100_0_0_1_1_n_n 4096 rfl rfl).symm k) = ix2 k b :=
    funext fun a => Fin.ext (by
      match a with
      | ⟨0, _⟩ => exact (dot_S4096x128_S4096x100_S128x100_0_0_1_1_n_n.lhsIdx_val_of_single rfl _ _).trans hk
      | ⟨1, _⟩ =>
        unfold DotDims.lhsIdx
        rw [dif_neg (show ¬(⟨1, by decide⟩ : Fin S4096x128.rank) ∈ dot_S4096x128_S4096x100_S128x100_0_0_1_1_n_n.lhsBatch by decide),
          dif_pos (show (⟨1, by decide⟩ : Fin S4096x128.rank) ∈ dot_S4096x128_S4096x100_S128x100_0_0_1_1_n_n.lhsNonContracting by decide)]
        rfl)
  have er : dot_S4096x128_S4096x100_S128x100_0_0_1_1_n_n.rhsIdx (ix2 b c)
      ((contrEquiv1 dot_S4096x128_S4096x100_S128x100_0_0_1_1_n_n 4096 rfl rfl).symm k) = ix2 k c :=
    funext fun a => Fin.ext (by
      match a with
      | ⟨0, _⟩ => exact (dot_S4096x128_S4096x100_S128x100_0_0_1_1_n_n.rhsIdx_val_of_single rfl _ _).trans hk
      | ⟨1, _⟩ =>
        unfold DotDims.rhsIdx
        rw [dif_neg (show ¬(⟨1, by decide⟩ : Fin S4096x100.rank) ∈ dot_S4096x128_S4096x100_S128x100_0_0_1_1_n_n.rhsBatch by decide),
          dif_pos (show (⟨1, by decide⟩ : Fin S4096x100.rank) ∈ dot_S4096x128_S4096x100_S128x100_0_0_1_1_n_n.rhsNonContracting by decide)]
        rfl)
  rw [el, er]

/-- The accumulator's update at `(b, c)`, for any rescaling row `al` and weights `w`: the carried entry rescaled, plus
    the weights' sum against the class weights (the narrowing of both operands is the identity on extended reals). -/
theorem pay2_apply (x2 : Vec Ideal S4096x100 .f32) (al : FVec Ideal S1x128 .f32) (w : FVec Ideal S4096x128 .f32)
    (accp : Vec Ideal S128x100 .f32) (b : Fin 128) (c : Fin 100) :
    k0_pay2 x2 al w accp (ix2 b c)
      = al (ix2 (0 : Fin 1) b) * accp (ix2 b c) + ∑ p : Fin 4096, w (ix2 p b) * x2 (ix2 p c) := by
  unfold k0_pay2
  refine (congrFun (shapeCast_self _ _) _).trans ?_
  refine (addf_apply _ _ _).trans ?_
  refine congrArg₂ (· + ·) ?_ ?_
  · refine (mulf_apply _ _ _).trans ?_
    refine congrArg (· * accp (ix2 b c)) ?_
    refine (broadcastCol_apply _ _ b c).trans ?_
    exact transpose_ix2_apply al _ b (0 : Fin 1)
  · exact matmulT_apply _ _ b c

section Acc
variable (v14 : FVec Ideal S1x128 .f32) (v15 : FVec Ideal S4096x128 .f32) (v23 : FVec Ideal S4096x1 .f32)
  (v31 v34 v38 : FVec Ideal S4096x128 .f32)

/-- The new accumulator of input `b` and class `c`. -/
theorem acc_apply6 (x2 : Vec Ideal S4096x100 .f32) (mp : Vec Ideal S1x128 .f32) (accp : Vec Ideal S128x100 .f32)
    (b : Fin 128) (c : Fin 100) :
    k0_pay2 x2 (k0_pay22 v14 v15 v23 v31 v34 v38 mp) (k0_pay23 v14 v15 v23 v31 v34 v38 mp) accp (ix2 b c)
      = Hdsdm.accB (mp (ix2 (0 : Fin 1) b)) (accp (ix2 b c))
          (fun p : Fin 4096 => k0_pay20 v14 v15 v23 v31 v34 v38 (ix2 p b)) (fun p : Fin 4096 => x2 (ix2 p c)) := by
  refine (pay2_apply x2 _ _ accp b c).trans ?_
  unfold Hdsdm.accB
  refine congrArg₂ (· + ·) ?_ ?_
  · exact congrArg (· * accp (ix2 b c)) (alpha_apply6 v14 v15 v23 v31 v34 v38 mp b)
  · exact Finset.sum_congr rfl fun p _ => congrArg (· * x2 (ix2 p c)) (pexp_apply6 v14 v15 v23 v31 v34 v38 mp p b)

end Acc

/-! ## The three statistics over the block's scores, the six pieces written out

The score block is the score term over the six pieces the first part of the body hands on; the theorems above hold for
any six, and these are their instances at the pieces of the projected inputs `x0` and the prototypes `x1`. -/

/-- The new running maximum of input `b`. -/
theorem m_apply (x0 : Vec Ideal S128x128 .f32) (x1 : Vec Ideal S4096x1x128 .f32) (mp : Vec Ideal S1x128 .f32) (b : Fin 128) :
    k0_pay21 (k0_pay13 x0) (k0_pay14 x0 x1) (k0_pay16 x1) (k0_pay17 x0 x1) (k0_pay18 x0 x1) (k0_pay19 x0 x1) mp (ix2 (0 : Fin 1) b)
      = Hdsdm.mB (mp (ix2 (0 : Fin 1) b)) (fun p : Fin 4096 =>
          k0_pay20 (k0_pay13 x0) (k0_pay14 x0 x1) (k0_pay16 x1) (k0_pay17 x0 x1) (k0_pay18 x0 x1) (k0_pay19 x0 x1) (ix2 p b)) :=
  m_apply6 _ _ _ _ _ _ mp b

/-- The new normaliser of input `b`. -/
theorem l_apply (x0 : Vec Ideal S128x128 .f32) (x1 : Vec Ideal S4096x1x128 .f32) (mp lp : Vec Ideal S1x128 .f32) (b : Fin 128) :
    k0_pay1 (k0_pay24 (k0_pay13 x0) (k0_pay14 x0 x1) (k0_pay16 x1) (k0_pay17 x0 x1) (k0_pay18 x0 x1) (k0_pay19 x0 x1) mp lp)
        (k0_pay25 (k0_pay13 x0) (k0_pay14 x0 x1) (k0_pay16 x1) (k0_pay17 x0 x1) (k0_pay18 x0 x1) (k0_pay19 x0 x1) mp) (ix2 (0 : Fin 1) b)
      = Hdsdm.lB (mp (ix2 (0 : Fin 1) b)) (lp (ix2 (0 : Fin 1) b)) (fun p : Fin 4096 =>
          k0_pay20 (k0_pay13 x0) (k0_pay14 x0 x1) (k0_pay16 x1) (k0_pay17 x0 x1) (k0_pay18 x0 x1) (k0_pay19 x0 x1) (ix2 p b)) :=
  l_apply6 _ _ _ _ _ _ mp lp b

/-- The new accumulator of input `b` and class `c`. -/
theorem acc_apply (x0 : Vec Ideal S128x128 .f32) (x1 : Vec Ideal S4096x1x128 .f32) (x2 : Vec Ideal S4096x100 .f32)
    (mp : Vec Ideal S1x128 .f32) (accp : Vec Ideal S128x100 .f32) (b : Fin 128) (c : Fin 100) :
    k0_pay2 x2 (k0_pay22 (k0_pay13 x0) (k0_pay14 x0 x1) (k0_pay16 x1) (k0_pay17 x0 x1) (k0_pay18 x0 x1) (k0_pay19 x0 x1) mp)
        (k0_pay23 (k0_pay13 x0) (k0_pay14 x0 x1) (k0_pay16 x1) (k0_pay17 x0 x1) (k0_pay18 x0 x1) (k0_pay19 x0 x1) mp) accp (ix2 b c)
      = Hdsdm.accB (mp (ix2 (0 : Fin 1) b)) (accp (ix2 b c)) (fun p : Fin 4096 =>
          k0_pay20 (k0_pay13 x0) (k0_pay14 x0 x1) (k0_pay16 x1) (k0_pay17 x0 x1) (k0_pay18 x0 x1) (k0_pay19 x0 x1) (ix2 p b))
          (fun p : Fin 4096 => x2 (ix2 p c)) :=
  acc_apply6 _ _ _ _ _ _ x2 mp accp b c

/-! ## The stores that only change the shape -/

/-- The new maximum is stored as it is. -/
theorem pay3_apply (v : FVec Ideal S1x128 .f32) : k0_pay3 v = v := by
  unfold k0_pay3
  exact shapeCast_self v _

/-- The accumulator is written out under a leading unit axis. -/
theorem pay4_apply (v : Vec Ideal S128x100 .f32) (b : Fin 128) (c : Fin 100) :
    k0_pay4 v (ix3 (0 : Fin 1) b c) = v (ix2 b c) := by
  unfold k0_pay4
  exact shapeCast_ab_1ab_apply v _ 0 b c

/-- So is the running maximum … -/
theorem pay5_apply (v : Vec Ideal S1x128 .f32) (b : Fin 128) :
    k0_pay5 v (ix3 (0 : Fin 1) (0 : Fin 1) b) = v (ix2 (0 : Fin 1) b) := by
  unfold k0_pay5
  exact shapeCast_ab_1ab_apply v _ 0 0 b

/-- … and the normaliser. -/
theorem pay6_apply (v : Vec Ideal S1x128 .f32) (b : Fin 128) :
    k0_pay6 v (ix3 (0 : Fin 1) (0 : Fin 1) b) = v (ix2 (0 : Fin 1) b) := by
  unfold k0_pay6
  exact shapeCast_ab_1ab_apply v _ 0 0 b

end Cert.KernelIdeal.PayAt

end
-- ==== Proof.KernelAt.lean ====
/-
  The three output arrays after the run, read at an index.

  The grid's four points are (half, block) = (0,0), (0,1), (1,0), (1,1).  The first point of a half starts the running
  maximum, normaliser and accumulator from minus infinity, zero and zero over its block of prototypes; the second
  point updates that triple over its block and hands it to the three outputs.  So slab `k` of each output array holds
  the two-block recurrence of `Spec.lean` (`coreM`, `coreL`, `coreAcc`) over the scores of prototypes
  `4096 (2k + r) + p` against input `b`, and their class weights.
-/
import proofs.«138910_j57904749084788_2_alg».proof.Proof.Arrays
import proofs.«138910_j57904749084788_2_alg».proof.Proof.Carried
import proofs.«138910_j57904749084788_2_alg».proof.Proof.Blocks
import proofs.«138910_j57904749084788_2_alg».proof.Proof.PayloadAtScore
import proofs.«138910_j57904749084788_2_alg».proof.Proof.PayloadAtSoftmin
import proofs.«138910_j57904749084788_2_alg».proof.Proof.Spec
import Idealize.ShloMosaic.Lib.ValueIdx

set_option maxRecDepth 16384

noncomputable section

open Idealize.ShloMosaic Idealize.ShloMosaic.TcCoe Idealize.SL.Sem

namespace Cert.KernelIdeal.KernelAt

open Cert.KernelIdeal Cert.KernelIdeal.Gen Cert.KernelIdeal.Pieces Idealize.ShloMosaic.ValueIdx

/-! ## One block's update of the triple, read at an index -/

section Payload
variable (x0 : Vec Ideal S128x128 .f32) (x1 : Vec Ideal S4096x1x128 .f32) (x2 : Vec Ideal S4096x100 .f32)

/-- The maximum after a block, over the carried one. -/
theorem mNew_step (mp : Vec Ideal S1x128 .f32) (b : Fin 128) :
    mNew x0 x1 mp (ix2 (0 : Fin 1) b)
      = Hdsdm.mB (mp (ix2 (0 : Fin 1) b)) (fun p : Fin 4096 => PayAt.sc x0 x1 (ix2 p b)) := by
  unfold mNew
  rw [PayAt.pay3_apply]
  exact PayAt.m_apply x0 x1 mp b

/-- The normaliser after a block, over the carried pair. -/
theorem lNew_step (mp lp : Vec Ideal S1x128 .f32) (b : Fin 128) :
    lNew x0 x1 mp lp (ix2 (0 : Fin 1) b)
      = Hdsdm.lB (mp (ix2 (0 : Fin 1) b)) (lp (ix2 (0 : Fin 1) b)) (fun p : Fin 4096 => PayAt.sc x0 x1 (ix2 p b)) := by
  unfold lNew
  exact PayAt.l_apply x0 x1 mp lp b

/-- The accumulator after a block, over the carried pair. -/
theorem accNew_step (mp : Vec Ideal S1x128 .f32) (accp : Vec Ideal S128x100 .f32) (b : Fin 128) (q : Fin 100) :
    accNew x0 x1 x2 mp accp (ix2 b q)
      = Hdsdm.accB (mp (ix2 (0 : Fin 1) b)) (accp (ix2 b q)) (fun p : Fin 4096 => PayAt.sc x0 x1 (ix2 p b))
          (fun p : Fin 4096 => x2 (ix2 p q)) := by
  unfold accNew
  exact PayAt.acc_apply x0 x1 x2 mp accp b q

/-- A half's first block: the update of minus infinity is the start of the recurrence. -/
theorem mNew_start (b : Fin 128) :
    mNew x0 x1 (k0_pay7 (F := Ideal)) (ix2 (0 : Fin 1) b) = Hdsdm.mA (fun p : Fin 4096 => PayAt.sc x0 x1 (ix2 p b)) := by
  rw [mNew_step, PayAt.pay7_apply]
  rfl

theorem lNew_start (b : Fin 128) :
    lNew x0 x1 (k0_pay7 (F := Ideal)) (k0_pay8 (F := Ideal)) (ix2 (0 : Fin 1) b) = Hdsdm.lA (fun p : Fin 4096 => PayAt.sc x0 x1 (ix2 p b)) := by
  rw [lNew_step, PayAt.pay7_apply, PayAt.pay8_apply]
  rfl

theorem accNew_start (b : Fin 128) (q : Fin 100) :
    accNew x0 x1 x2 (k0_pay7 (F := Ideal)) (k0_pay9 (F := Ideal)) (ix2 b q)
      = Hdsdm.accA (fun p : Fin 4096 => PayAt.sc x0 x1 (ix2 p b)) (fun p : Fin 4096 => x2 (ix2 p q)) := by
  rw [accNew_step, PayAt.pay7_apply, PayAt.pay9_apply]
  rfl

end Payload

/-! ## A point's blocks, read off the arrays -/

variable (m : (ℓ : Loc nD τ sig) → Buf (Elt Ideal) ℓ)

/-- The scores of point `t`'s block of prototypes against input `b`, over the arrays. -/
def colAt (c : Dev nD) (t : Fin cfg0.N) (b : Fin 128) : Fin 4096 → EReal := fun p =>
  Hdsdm.scoreK (Hdsdm.normK
    (fun d : Fin 128 => m ((c : Thread nD τ).loc main_arg1) (ix3 (⟨4096 * t.val + p.val, Blocks.row_lt t p⟩ : Fin 16384) (0 : Fin 1) d))
    (fun d : Fin 128 => V m c main_v9 (ix2 b d)))

/-- The weights of class `q` over point `t`'s block of prototypes. -/
def gamAt (c : Dev nD) (t : Fin cfg0.N) (q : Fin 100) : Fin 4096 → EReal := fun p =>
  m ((c : Thread nD τ).loc main_arg2) (ix2 (⟨4096 * t.val + p.val, Blocks.row_lt t p⟩ : Fin 16384) q)

/-- The score column of point `t`'s blocks is `colAt`. -/
theorem col_eq (c : Dev nD) (t : Fin cfg0.N) (b : Fin 128) :
    (fun p : Fin 4096 => PayAt.sc (iblk m c 0 t : Vec Ideal S128x128 .f32) (iblk m c 1 t : Vec Ideal S4096x1x128 .f32) (ix2 p b))
      = colAt m c t b := by
  funext p
  refine (PayAt.sc_apply (iblk m c 0 t : Vec Ideal S128x128 .f32) (iblk m c 1 t : Vec Ideal S4096x1x128 .f32) p b).trans ?_
  unfold colAt
  exact congrArg Hdsdm.scoreK (congrArg₂ Hdsdm.normK (funext fun d => Blocks.blk1 m c t p d) (funext fun d => Blocks.blk0 m c t b d))

/-- The class-weight column of point `t`'s block is `gamAt`. -/
theorem gam_eq (c : Dev nD) (t : Fin cfg0.N) (q : Fin 100) :
    (fun p : Fin 4096 => (iblk m c 2 t : Vec Ideal S4096x100 .f32) (ix2 p q)) = gamAt m c t q :=
  funext fun p => Blocks.blk2 m c t p q

/-! ## The carried triple after a point, read at an index -/

/-- After a point that starts a half. -/
theorem m_even (c : Dev nD) (t : Fin cfg0.N) (h0 : t.val % 2 = 0) (h1 : ¬t.val % 2 = 1) (b : Fin 128) :
    Carried.mAt m c t.val t.isLt (ix2 (0 : Fin 1) b) = Hdsdm.mA (colAt m c t b) := by
  refine (congrFun (Carried.start m c t h0 h1).1 _).trans ?_
  refine (mNew_start (iblk m c 0 t : Vec Ideal S128x128 .f32) (iblk m c 1 t : Vec Ideal S4096x1x128 .f32) b).trans ?_
  rw [col_eq]

theorem l_even (c : Dev nD) (t : Fin cfg0.N) (h0 : t.val % 2 = 0) (h1 : ¬t.val % 2 = 1) (b : Fin 128) :
    Carried.lAt m c t.val t.isLt (ix2 (0 : Fin 1) b) = Hdsdm.lA (colAt m c t b) := by
  refine (congrFun (Carried.start m c t h0 h1).2.1 _).trans ?_
  refine (lNew_start (iblk m c 0 t : Vec Ideal S128x128 .f32) (iblk m c 1 t : Vec Ideal S4096x1x128 .f32) b).trans ?_
  rw [col_eq]

theorem acc_even (c : Dev nD) (t : Fin cfg0.N) (h0 : t.val % 2 = 0) (h1 : ¬t.val % 2 = 1) (b : Fin 128) (q : Fin 100) :
    Carried.accAt m c t.val t.isLt (ix2 b q) = Hdsdm.accA (colAt m c t b) (gamAt m c t q) := by
  refine (congrFun (Carried.start m c t h0 h1).2.2 _).trans ?_
  refine (accNew_start (iblk m c 0 t : Vec Ideal S128x128 .f32) (iblk m c 1 t : Vec Ideal S4096x1x128 .f32)
    (iblk m c 2 t : Vec Ideal S4096x100 .f32) b q).trans ?_
  rw [col_eq, gam_eq]

/-- After a point that ends a half, over what the point before left. -/
theorem m_odd (c : Dev nD) (t : Fin cfg0.N) (h0 : ¬t.val % 2 = 0) (h1 : t.val % 2 = 1) (b : Fin 128) :
    Carried.mAt m c t.val t.isLt (ix2 (0 : Fin 1) b)
      = Hdsdm.mB (Carried.mAt m c (t.val - 1) (Nat.lt_of_le_of_lt (Nat.sub_le _ _) t.isLt) (ix2 (0 : Fin 1) b)) (colAt m c t b) := by
  refine (congrFun (Carried.finish m c t h0 h1).1 _).trans ?_
  refine (mNew_step (iblk m c 0 t : Vec Ideal S128x128 .f32) (iblk m c 1 t : Vec Ideal S4096x1x128 .f32) _ b).trans ?_
  rw [col_eq]

theorem l_odd (c : Dev nD) (t : Fin cfg0.N) (h0 : ¬t.val % 2 = 0) (h1 : t.val % 2 = 1) (b : Fin 128) :
    Carried.lAt m c t.val t.isLt (ix2 (0 : Fin 1) b)
      = Hdsdm.lB (Carried.mAt m c (t.val - 1) (Nat.lt_of_le_of_lt (Nat.sub_le _ _) t.isLt) (ix2 (0 : Fin 1) b))
          (Carried.lAt m c (t.val - 1) (Nat.lt_of_le_of_lt (Nat.sub_le _ _) t.isLt) (ix2 (0 : Fin 1) b)) (colAt m c t b) := by
  refine (congrFun (Carried.finish m c t h0 h1).2.1 _).trans ?_
  refine (lNew_step (iblk m c 0 t : Vec Ideal S128x128 .f32) (iblk m c 1 t : Vec Ideal S4096x1x128 .f32) _ _ b).trans ?_
  rw [col_eq]

theorem acc_odd (c : Dev nD) (t : Fin cfg0.N) (h0 : ¬t.val % 2 = 0) (h1 : t.val % 2 = 1) (b : Fin 128) (q : Fin 100) :
    Carried.accAt m c t.val t.isLt (ix2 b q)
      = Hdsdm.accB (Carried.mAt m c (t.val - 1) (Nat.lt_of_le_of_lt (Nat.sub_le _ _) t.isLt) (ix2 (0 : Fin 1) b))
          (Carried.accAt m c (t.val - 1) (Nat.lt_of_le_of_lt (Nat.sub_le _ _) t.isLt) (ix2 b q)) (colAt m c t b) (gamAt m c t q) := by
  refine (congrFun (Carried.finish m c t h0 h1).2.2 _).trans ?_
  refine (accNew_step (iblk m c 0 t : Vec Ideal S128x128 .f32) (iblk m c 1 t : Vec Ideal S4096x1x128 .f32)
    (iblk m c 2 t : Vec Ideal S4096x100 .f32) _ _ b q).trans ?_
  rw [col_eq, gam_eq]

/-! ## A half: its two points together -/

section Half
variable (c : Dev nD) (t1 t0 : Fin cfg0.N) (hp : t1.val - 1 = t0.val)
  (n1 : ¬t1.val % 2 = 0) (e1 : t1.val % 2 = 1) (e0 : t0.val % 2 = 0) (n0 : ¬t0.val % 2 = 1)

include hp n1 e1 e0 n0

theorem m_half (b : Fin 128) :
    Carried.mAt m c t1.val t1.isLt (ix2 (0 : Fin 1) b) = Hdsdm.mB (Hdsdm.mA (colAt m c t0 b)) (colAt m c t1 b) := by
  refine (m_odd m c t1 n1 e1 b).trans ?_
  have hm : Carried.mAt m c (t1.val - 1) (Nat.lt_of_le_of_lt (Nat.sub_le _ _) t1.isLt) = Carried.mAt m c t0.val t0.isLt :=
    congrArg (fun o => o.2.2.2.1) (Arrays.outsAt_congr m c _ _ hp _ _)
  rw [hm, m_even m c t0 e0 n0 b]

theorem l_half (b : Fin 128) :
    Carried.lAt m c t1.val t1.isLt (ix2 (0 : Fin 1) b)
      = Hdsdm.lB (Hdsdm.mA (colAt m c t0 b)) (Hdsdm.lA (colAt m c t0 b)) (colAt m c t1 b) := by
  refine (l_odd m c t1 n1 e1 b).trans ?_
  have hm : Carried.mAt m c (t1.val - 1) (Nat.lt_of_le_of_lt (Nat.sub_le _ _) t1.isLt) = Carried.mAt m c t0.val t0.isLt :=
    congrArg (fun o => o.2.2.2.1) (Arrays.outsAt_congr m c _ _ hp _ _)
  have hl : Carried.lAt m c (t1.val - 1) (Nat.lt_of_le_of_lt (Nat.sub_le _ _) t1.isLt) = Carried.lAt m c t0.val t0.isLt :=
    congrArg (fun o => o.2.2.2.2.1) (Arrays.outsAt_congr m c _ _ hp _ _)
  rw [hm, hl, m_even m c t0 e0 n0 b, l_even m c t0 e0 n0 b]

theorem acc_half (b : Fin 128) (q : Fin 100) :
    Carried.accAt m c t1.val t1.isLt (ix2 b q)
      = Hdsdm.accB (Hdsdm.mA (colAt m c t0 b)) (Hdsdm.accA (colAt m c t0 b) (gamAt m c t0 q)) (colAt m c t1 b) (gamAt m c t1 q) := by
  refine (acc_odd m c t1 n1 e1 b q).trans ?_
  have hm : Carried.mAt m c (t1.val - 1) (Nat.lt_of_le_of_lt (Nat.sub_le _ _) t1.isLt) = Carried.mAt m c t0.val t0.isLt :=
    congrArg (fun o => o.2.2.2.1) (Arrays.outsAt_congr m c _ _ hp _ _)
  have ha : Carried.accAt m c (t1.val - 1) (Nat.lt_of_le_of_lt (Nat.sub_le _ _) t1.isLt) = Carried.accAt m c t0.val t0.isLt :=
    congrArg (fun o => o.2.2.2.2.2) (Arrays.outsAt_congr m c _ _ hp _ _)
  rw [hm, ha, m_even m c t0 e0 n0 b, acc_even m c t0 e0 n0 b q]

end Half

/-! ## The output arrays -/

/-- The scores of half `k`, block `r`, against input `b`. -/
def sK (c : Dev nD) (b : Fin 128) (k r : Fin 2) (p : Fin 4096) : EReal :=
  Hdsdm.scoreK (Hdsdm.normK
    (fun d : Fin 128 => m ((c : Thread nD τ).loc main_arg1)
      (ix3 (⟨4096 * (2 * k.val + r.val) + p.val, by have := k.isLt; have := r.isLt; have := p.isLt; omega⟩ : Fin 16384) (0 : Fin 1) d))
    (fun d : Fin 128 => V m c main_v9 (ix2 b d)))

/-- The weights of class `q` over half `k`, block `r`. -/
def gK (c : Dev nD) (q : Fin 100) (k r : Fin 2) (p : Fin 4096) : EReal :=
  m ((c : Thread nD τ).loc main_arg2)
    (ix2 (⟨4096 * (2 * k.val + r.val) + p.val, by have := k.isLt; have := r.isLt; have := p.isLt; omega⟩ : Fin 16384) q)

theorem pt0_lt (k : Fin 2) : 2 * k.val < cfg0.N := by rw [Arrays.hN]; have := k.isLt; omega

/-- The two blocks of half `k` are the blocks of points `2k` and `2k + 1`. -/
theorem sK_zero (c : Dev nD) (b : Fin 128) (k : Fin 2) : sK m c b k 0 = colAt m c ⟨2 * k.val, pt0_lt k⟩ b := rfl
theorem sK_one (c : Dev nD) (b : Fin 128) (k : Fin 2) :
    sK m c b k 1 = colAt m c ⟨2 * k.val + 1, Arrays.last_lt _ k.isLt⟩ b := rfl
theorem gK_zero (c : Dev nD) (q : Fin 100) (k : Fin 2) : gK m c q k 0 = gamAt m c ⟨2 * k.val, pt0_lt k⟩ q := rfl
theorem gK_one (c : Dev nD) (q : Fin 100) (k : Fin 2) :
    gK m c q k 1 = gamAt m c ⟨2 * k.val + 1, Arrays.last_lt _ k.isLt⟩ q := rfl

/-- The maxima' array. -/
theorem G4_apply (c : Dev nD) (k : Fin 2) (b : Fin 128) :
    Arrays.G4 m c (ix3 k (0 : Fin 1) b) = Hdsdm.coreM (sK m c b k) := by
  have hk : k.val < 2 := k.isLt
  show (outsAt0 m c (2 * k.val + 1) (Arrays.last_lt _ k.isLt)).2.1 (ix3 (0 : Fin 1) (0 : Fin 1) b) = _
  refine (congrFun (Carried.outputs m c ⟨2 * k.val + 1, Arrays.last_lt _ k.isLt⟩
    (by show ¬(2 * k.val + 1) % 2 = 0; omega) (by show (2 * k.val + 1) % 2 = 1; omega)).2.1 _).trans ?_
  refine (PayAt.pay5_apply _ b).trans ?_
  refine (m_half m c ⟨2 * k.val + 1, Arrays.last_lt _ k.isLt⟩ ⟨2 * k.val, pt0_lt k⟩ (by show 2 * k.val + 1 - 1 = 2 * k.val; omega)
    (by show ¬(2 * k.val + 1) % 2 = 0; omega) (by show (2 * k.val + 1) % 2 = 1; omega)
    (by show (2 * k.val) % 2 = 0; omega) (by show ¬(2 * k.val) % 2 = 1; omega) b).trans ?_
  unfold Hdsdm.coreM
  rw [sK_zero, sK_one]

/-- The normalisers' array. -/
theorem G5_apply (c : Dev nD) (k : Fin 2) (b : Fin 128) :
    Arrays.G5 m c (ix3 k (0 : Fin 1) b) = Hdsdm.coreL (sK m c b k) := by
  have hk : k.val < 2 := k.isLt
  show (outsAt0 m c (2 * k.val + 1) (Arrays.last_lt _ k.isLt)).2.2.1 (ix3 (0 : Fin 1) (0 : Fin 1) b) = _
  refine (congrFun (Carried.outputs m c ⟨2 * k.val + 1, Arrays.last_lt _ k.isLt⟩
    (by show ¬(2 * k.val + 1) % 2 = 0; omega) (by show (2 * k.val + 1) % 2 = 1; omega)).2.2 _).trans ?_
  refine (PayAt.pay6_apply _ b).trans ?_
  refine (l_half m c ⟨2 * k.val + 1, Arrays.last_lt _ k.isLt⟩ ⟨2 * k.val, pt0_lt k⟩ (by show 2 * k.val + 1 - 1 = 2 * k.val; omega)
    (by show ¬(2 * k.val + 1) % 2 = 0; omega) (by show (2 * k.val + 1) % 2 = 1; omega)
    (by show (2 * k.val) % 2 = 0; omega) (by show ¬(2 * k.val) % 2 = 1; omega) b).trans ?_
  unfold Hdsdm.coreL
  rw [sK_zero, sK_one]

/-- The accumulators' array. -/
theorem G3_apply (c : Dev nD) (k : Fin 2) (b : Fin 128) (q : Fin 100) :
    Arrays.G3 m c (ix3 k b q) = Hdsdm.coreAcc (sK m c b k) (gK m c q k) := by
  have hk : k.val < 2 := k.isLt
  show (outsAt0 m c (2 * k.val + 1) (Arrays.last_lt _ k.isLt)).1 (ix3 (0 : Fin 1) b q) = _
  refine (congrFun (Carried.outputs m c ⟨2 * k.val + 1, Arrays.last_lt _ k.isLt⟩
    (by show ¬(2 * k.val + 1) % 2 = 0; omega) (by show (2 * k.val + 1) % 2 = 1; omega)).1 _).trans ?_
  refine (PayAt.pay4_apply _ b q).trans ?_
  refine (acc_half m c ⟨2 * k.val + 1, Arrays.last_lt _ k.isLt⟩ ⟨2 * k.val, pt0_lt k⟩ (by show 2 * k.val + 1 - 1 = 2 * k.val; omega)
    (by show ¬(2 * k.val + 1) % 2 = 0; omega) (by show (2 * k.val + 1) % 2 = 1; omega)
    (by show (2 * k.val) % 2 = 0; omega) (by show ¬(2 * k.val) % 2 = 1; omega) b q).trans ?_
  unfold Hdsdm.coreAcc
  rw [sK_zero, sK_one, gK_zero, gK_one]

end Cert.KernelIdeal.KernelAt

end
-- ==== Proof.LibStacked.lean ====
/-
  Slices of stacked arrays, read at an index.

  The weights of the network's layers arrive stacked along a leading axis: layer `l`'s matrix is the block
  `[l, off .. off + B, :]` of an `[L, A, C]` array, and its bias the row `[l, :]` of an `[L, C]` array. A program
  takes the block out as a unit-stride slice that keeps the leading axis at extent one and then drops that
  axis by a change of shape (a bias row may be reshaped once more to a one-row matrix). Read at an index the
  result is the stacked array at the layer's index.
-/
import Idealize.ShloMosaic.Lib.ValueIdx
import Idealize.ShloMosaic.Lib.ValueLayout
import Idealize.ShloMosaic.Lib.Pipeline.Value

namespace LibStacked

open Idealize.ShloMosaic Idealize.ShloMosaic.ValueIdx

variable {α : Type}

/-- A block of `B` rows starting at row `off` of layer `l` of a stacked `[L, A, C]` array, sliced out as
    `[1, B, C]`, read at `(0, k, n)`, is the stacked array at `(l, off + k, n)`. -/
theorem slab_slice_apply {L A C B : ℕ} (l off : ℕ) (x : (⟨3, ![L, A, C]⟩ : Shape).Idx → α)
    (hs : (⟨3, ![L, A, C]⟩ : Shape).Slices ![l, off, 0] ⟨3, ![1, B, C]⟩)
    (k : Fin B) (n : Fin C) (hl : l < L) (hk : off + k.val < A) :
    extractStridedSlice ⟨3, ![1, B, C]⟩ ![l, off, 0] x hs (ix3 (0 : Fin 1) k n) = x (ix3 ⟨l, hl⟩ ⟨off + k.val, hk⟩ n) :=
  extractStridedSlice_apply _ x hs _ _ (fun a => by
    match a with
    | ⟨0, _⟩ => rfl
    | ⟨1, _⟩ => rfl
    | ⟨2, _⟩ => show n.val = 0 + n.val; omega)

/-- The same block with the unit axis dropped: cast to `[B, C]` and read at `(k, n)`. -/
theorem slab_apply {L A C B : ℕ} (l off : ℕ) (x : (⟨3, ![L, A, C]⟩ : Shape).Idx → α)
    (hs : (⟨3, ![L, A, C]⟩ : Shape).Slices ![l, off, 0] ⟨3, ![1, B, C]⟩)
    (hc : (⟨3, ![1, B, C]⟩ : Shape).ShapeCasts ⟨2, ![B, C]⟩) (k : Fin B) (n : Fin C) (hl : l < L) (hk : off + k.val < A) :
    shapeCast ⟨2, ![B, C]⟩ (extractStridedSlice ⟨3, ![1, B, C]⟩ ![l, off, 0] x hs) hc (ix2 k n)
      = x (ix3 ⟨l, hl⟩ ⟨off + k.val, hk⟩ n) :=
  (shapeCast_1ab_ab_apply _ hc k n).trans (slab_slice_apply l off x hs k n hl hk)

/-- The block that starts at row zero: the row index is the block's own. -/
theorem slab_apply_zero {L A C B : ℕ} (l : ℕ) (x : (⟨3, ![L, A, C]⟩ : Shape).Idx → α)
    (hs : (⟨3, ![L, A, C]⟩ : Shape).Slices ![l, 0, 0] ⟨3, ![1, B, C]⟩)
    (hc : (⟨3, ![1, B, C]⟩ : Shape).ShapeCasts ⟨2, ![B, C]⟩) (k : Fin B) (n : Fin C) (hl : l < L) (hk : k.val < A) :
    shapeCast ⟨2, ![B, C]⟩ (extractStridedSlice ⟨3, ![1, B, C]⟩ ![l, 0, 0] x hs) hc (ix2 k n)
      = x (ix3 ⟨l, hl⟩ ⟨k.val, hk⟩ n) :=
  (slab_apply l 0 x hs hc k n hl (by omega)).trans
    (congrArg x (congrArg (fun q => ix3 (⟨l, hl⟩ : Fin L) q n) (Fin.ext (Nat.zero_add k.val))))

/-- Row `l` of a stacked `[L, C]` array, sliced out as `[1, C]`, read at `(0, n)`, is the stacked array at `(l, n)`. -/
theorem row_slice_apply {L C : ℕ} (l : ℕ) (x : (⟨2, ![L, C]⟩ : Shape).Idx → α)
    (hs : (⟨2, ![L, C]⟩ : Shape).Slices ![l, 0] ⟨2, ![1, C]⟩) (n : Fin C) (hl : l < L) :
    extractStridedSlice ⟨2, ![1, C]⟩ ![l, 0] x hs (ix2 (0 : Fin 1) n) = x (ix2 ⟨l, hl⟩ n) :=
  extractStridedSlice_apply _ x hs _ _ (fun a => by
    match a with
    | ⟨0, _⟩ => rfl
    | ⟨1, _⟩ => show n.val = 0 + n.val; omega)

/-- The same row as a vector: cast to `[C]` and read at `n`. -/
theorem row_apply {L C : ℕ} (l : ℕ) (x : (⟨2, ![L, C]⟩ : Shape).Idx → α)
    (hs : (⟨2, ![L, C]⟩ : Shape).Slices ![l, 0] ⟨2, ![1, C]⟩) (hc : (⟨2, ![1, C]⟩ : Shape).ShapeCasts ⟨1, ![C]⟩)
    (n : Fin C) (hl : l < L) :
    shapeCast ⟨1, ![C]⟩ (extractStridedSlice ⟨2, ![1, C]⟩ ![l, 0] x hs) hc (ix1 n) = x (ix2 ⟨l, hl⟩ n) :=
  (shapeCast_1a_a_apply _ hc n).trans (row_slice_apply l x hs n hl)

/-- The same row cast to a vector and back to a one-row matrix, read at `(0, n)`. -/
theorem row_matrix_apply {L C : ℕ} (l : ℕ) (x : (⟨2, ![L, C]⟩ : Shape).Idx → α)
    (hs : (⟨2, ![L, C]⟩ : Shape).Slices ![l, 0] ⟨2, ![1, C]⟩) (hc : (⟨2, ![1, C]⟩ : Shape).ShapeCasts ⟨1, ![C]⟩)
    (hc' : (⟨1, ![C]⟩ : Shape).ShapeCasts ⟨2, ![1, C]⟩) (n : Fin C) (hl : l < L) :
    shapeCast ⟨2, ![1, C]⟩ (shapeCast ⟨1, ![C]⟩ (extractStridedSlice ⟨2, ![1, C]⟩ ![l, 0] x hs) hc) hc' (ix2 (0 : Fin 1) n)
      = x (ix2 ⟨l, hl⟩ n) :=
  (shapeCast_a_1a_apply _ hc' 0 n).trans (row_apply l x hs hc n hl)

end LibStacked
-- ==== Proof.TailAt.lean ====
/-
  The merge of the two halves, read at one (input, class).

  Every host operation after the region is either pointwise or a change of layout.  Half k's maxima and normalisers
  are row (k, 0, ·) of a [2, 1, 128] array; half k's accumulators are the block (k, ·, ·) of a [2, 128, 100] array; a
  vector over the inputs repeated along the classes reads, at (b, q), the vector at b; and the word of one is the same
  at every index.  Reading the term at (b, q) therefore gives the merge formula in the six entries
  m_k = a4 (k, 0, b), l_k = a5 (k, 0, b), acc_k = a3 (k, b, q).
-/
import proofs.«138910_j57904749084788_2_alg».proof.Proof.Tail
import proofs.«138910_j57904749084788_2_alg».proof.Proof.Spec
import proofs.«138910_j57904749084788_2_alg».proof.Proof.LibStacked
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open Idealize.ShloMosaic Idealize.ShloMosaic.TcCoe

namespace Cert.KernelIdeal.Tail

open Cert.KernelIdeal Cert.KernelIdeal.Gen Idealize.ShloMosaic.ValueIdx

section Layout
variable {α : Type}

/-- Row l of a stacked [L, 1, C] array, sliced out as [1, 1, C] and cast to a vector [C], read at n, is the stacked
    array at (l, 0, n). -/
theorem unitRow_apply {L C : ℕ} (l : ℕ) (x : (⟨3, ![L, 1, C]⟩ : Shape).Idx → α)
    (hs : (⟨3, ![L, 1, C]⟩ : Shape).Slices ![l, 0, 0] ⟨3, ![1, 1, C]⟩)
    (hc : (⟨3, ![1, 1, C]⟩ : Shape).ShapeCasts ⟨1, ![C]⟩) (n : Fin C) (hl : l < L) :
    shapeCast ⟨1, ![C]⟩ (extractStridedSlice ⟨3, ![1, 1, C]⟩ ![l, 0, 0] x hs) hc (ix1 n)
      = x (ix3 (⟨l, hl⟩ : Fin L) (0 : Fin 1) n) := by
  refine (shapeCast_apply _ hc (ix1 n) (ix3 (0 : Fin 1) (0 : Fin 1) n) ?_).trans ?_
  · rw [Shape.rowMajor_val_three, Shape.rowMajor_val_one]
    show (0 * 1 + 0) * C + n.val = n.val
    rw [Nat.zero_mul, Nat.zero_add]
  · exact extractStridedSlice_apply _ x hs _ _ (fun a => by
      match a with
      | ⟨0, _⟩ => rfl
      | ⟨1, _⟩ => rfl
      | ⟨2, _⟩ => show n.val = 0 + n.val; omega)

/-- A vector over the inputs broadcast to a one-column matrix reads the vector at the row. -/
theorem bvec_apply (v : S128.Idx → α) (b : Fin 128) (u : Fin 1) :
    broadcastInDim S128x1 ![0] bcast_S128_S128x1_0 v (ix2 b u) = v (ix1 b) :=
  broadcastInDim_apply _ bcast_S128_S128x1_0 v _ _ (fun a => by
    match a with
    | ⟨0, _⟩ => show b.val = if (128 : Nat) = 1 then 0 else b.val; rw [if_neg (by decide)])

/-- A one-column matrix broadcast along the classes reads its only column. -/
theorem bcol_apply (y : S128x1.Idx → α) (b : Fin 128) (q : Fin 100) :
    broadcastInDim S128x100 ![0, 1] bcast_S128x1_S128x100_0_1 y (ix2 b q) = y (ix2 b (0 : Fin 1)) :=
  broadcastInDim_apply _ bcast_S128x1_S128x100_0_1 y _ _ (fun a => by
    match a with
    | ⟨0, _⟩ => show b.val = if (128 : Nat) = 1 then 0 else b.val; rw [if_neg (by decide)]
    | ⟨1, _⟩ => show 0 = if (1 : Nat) = 1 then 0 else q.val; rw [if_pos rfl])

end Layout

theorem mx0_apply (a : Vec Ideal S2x1x128 .f32) (j : Fin 128) :
    mx0 (F := Ideal) a (ix1 j) = a (ix3 (0 : Fin 2) (0 : Fin 1) j) :=
  unitRow_apply 0 a slices_S2x1x128_S1x1x128_0_0_0 shapeCasts_S1x1x128_S128 j (by decide)

theorem mx1_apply (a : Vec Ideal S2x1x128 .f32) (j : Fin 128) :
    mx1 (F := Ideal) a (ix1 j) = a (ix3 (1 : Fin 2) (0 : Fin 1) j) :=
  unitRow_apply 1 a slices_S2x1x128_S1x1x128_1_0_0 shapeCasts_S1x1x128_S128 j (by decide)

theorem ac0_apply (a : Vec Ideal S2x128x100 .f32) (b : Fin 128) (q : Fin 100) :
    ac0 (F := Ideal) a (ix2 b q) = a (ix3 (0 : Fin 2) b q) :=
  LibStacked.slab_apply_zero 0 a slices_S2x128x100_S1x128x100_0_0_0 shapeCasts_S1x128x100_S128x100 b q
    (by decide) b.isLt

theorem ac1_apply (a : Vec Ideal S2x128x100 .f32) (b : Fin 128) (q : Fin 100) :
    ac1 (F := Ideal) a (ix2 b q) = a (ix3 (1 : Fin 2) b q) :=
  LibStacked.slab_apply_zero 1 a slices_S2x128x100_S1x128x100_1_0_0 shapeCasts_S1x128x100_S128x100 b q
    (by decide) b.isLt

theorem rep_apply (v : Vec Ideal S128 .f32) (b : Fin 128) (q : Fin 100) :
    rep (F := Ideal) v (ix2 b q) = v (ix1 b) :=
  (bcol_apply _ b q).trans (bvec_apply v b 0)

/-- The host's exponential and division are pointwise. -/
theorem hexp_apply {s : Shape} (x : FVec Ideal s .f32) (i : s.Idx) : Host.exp x i = Ideal.exp (x i) := rfl
theorem hdivf_apply {s : Shape} (x y : FVec Ideal s .f32) (i : s.Idx) :
    Host.divf x y i = Ideal.div (x i) (y i) := rfl

/-- The host operations after the region, read at (b, q): the merge formula in the six entries. -/
theorem tail_apply (a3 : Vec Ideal S2x128x100 .f32) (a4 a5 : Vec Ideal S2x1x128 .f32) (b : Fin 128) (q : Fin 100) :
    tailTerm (F := Ideal) a3 a4 a5 (ix2 b q)
      = Hdsdm.mergeOut (a4 (ix3 (0 : Fin 2) (0 : Fin 1) b)) (a4 (ix3 (1 : Fin 2) (0 : Fin 1) b))
                       (a5 (ix3 (0 : Fin 2) (0 : Fin 1) b)) (a5 (ix3 (1 : Fin 2) (0 : Fin 1) b))
                       (a3 (ix3 (0 : Fin 2) b q)) (a3 (ix3 (1 : Fin 2) b q)) := by
  unfold tailTerm Hdsdm.mergeOut
  simp only [mulf_apply, addf_apply, subf_apply, maximumf_apply, hexp_apply, rep_apply, mx0_apply, mx1_apply,
    ac0_apply, ac1_apply]
  congr 1
  refine (bcol_apply _ b q).trans ?_
  rw [hdivf_apply]
  refine congrArg₂ Ideal.div ?_ ?_
  · exact (broadcastInDim_scalar_apply _ _ _).trans (constant_apply _ _)
  · refine (bvec_apply _ b 0).trans ?_
    simp only [mulf_apply, addf_apply, subf_apply, maximumf_apply, hexp_apply, mx0_apply, mx1_apply]

end Cert.KernelIdeal.Tail

end
-- ==== Proof.LibRealValued.lean ====
/-
  Extended reals that are real numbers. At the exact instance a float is an extended real, and the
  algebraic laws that move a factor across a sum hold only away from the infinities; this file states
  the predicate "is a real number", shows it closed under the exact operations a degree-normalised
  neighbourhood sum uses (sum, product, finite sum, minimum, real power), and proves the one law the
  sum needs: a real factor multiplied into a finite sum of reals is the sum of the scaled terms.
-/
import Idealize.ShloMosaic.PureOps.Ideal

noncomputable section

open scoped BigOperators

namespace Cert.RealValued

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers is a real number. -/
theorem IsReal.sum {J : Type*} (S : Finset J) (f : J → EReal) (h : ∀ j ∈ S, IsReal (f j)) :
    IsReal (∑ j ∈ S, f j) :=
  Finset.sum_induction f IsReal (fun _ _ => IsReal.add) IsReal.zero h

theorem IsReal.min {x y : EReal} (hx : IsReal x) (hy : IsReal y) : IsReal (min x y) := by
  rcases min_choice x y with h | h <;> rw [h] <;> assumption

/-- The exact power of two real numbers is the real power: a real number. -/
theorem IsReal.pow {x y : EReal} (hx : IsReal x) (hy : IsReal y) : IsReal (Ideal.pow x y) := by
  obtain ⟨a, rfl⟩ := hx; obtain ⟨b, rfl⟩ := hy
  exact ⟨Real.rpow a b, rfl⟩

/-- An f32 bit pattern whose exponent field is not all ones (neither an infinity nor a NaN) denotes a
    real number: the pattern's value is then a signed significand times a power of two. -/
theorem ofBits_f32_isReal (b : BitVec 32) (h : (b.extractLsb' 23 8).toNat ≠ 2 ^ 8 - 1) :
    IsReal (Ideal.ofBits .f32 b) := by
  show IsReal (Ideal.ieee 8 23 b)
  unfold Ideal.ieee
  dsimp only
  split_ifs
  all_goals first | exact IsReal.coe _ | exact absurd (by assumption) h

/-- The host's accumulating float scatter, at the exact instance, is the exact sum: each operand element
    plus the sum of the updates that land on it. -/
theorem scatterAdd_ideal {s si su : Shape} {φ : FTy} (d : ScatterDims s si su) {w : Nat} (x : FVec Ideal s φ)
    (idx : IVec si w) (upd : FVec Ideal su φ) :
    Host.scatterAdd (F := Ideal) d x idx upd = Ideal.hostScatterAdd d x idx upd := rfl

/-- A scatter-add of real updates onto a real array is real at every index: a real number plus a finite
    sum of real numbers, whatever the indices are. -/
theorem hostScatterAdd_isReal {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A real number is the coercion of its real part. -/
theorem IsReal.coe_toReal {x : EReal} (h : IsReal x) : ((x.toReal : ℝ) : EReal) = x := by
  obtain ⟨a, rfl⟩ := h
  rw [EReal.toReal_coe]

/-- The coercion of the reals into the extended reals, as an additive map. -/
def coeHom : ℝ →+ EReal where
  toFun r := (r : EReal)
  map_zero' := EReal.coe_zero
  map_add' := EReal.coe_add

/-- The coercion of a finite real sum is the sum of the coercions. -/
theorem coe_sum {J : Type*} (S : Finset J) (f : J → ℝ) :
    ((∑ j ∈ S, f j : ℝ) : EReal) = ∑ j ∈ S, (f j : EReal) :=
  map_sum coeHom f S

/-- THE SCALING LAW. A real factor `c` times a finite sum of real terms `a j` (onto a zero start) is
    the sum (onto a zero start) of the terms `b j = a j * c`. Over the extended reals this needs every
    term real: distributivity fails at the infinities. -/
theorem scale_sum {J : Type*} (S : Finset J) (a b : J → EReal) (c : EReal) (hc : IsReal c)
    (ha : ∀ j ∈ S, IsReal (a j)) (hb : ∀ j ∈ S, b j = a j * c) :
    c * (0 + ∑ j ∈ S, a j) = 0 + ∑ j ∈ S, b j := by
  obtain ⟨r, rfl⟩ := hc
  have e1 : ∑ j ∈ S, a j = ∑ j ∈ S, (((a j).toReal : ℝ) : EReal) :=
    Finset.sum_congr rfl fun j hj => ((ha j hj).coe_toReal).symm
  have e2 : ∑ j ∈ S, b j = ∑ j ∈ S, ((((a j).toReal * r : ℝ)) : EReal) :=
    Finset.sum_congr rfl fun j hj => by
      rw [hb j hj, EReal.coe_mul, (ha j hj).coe_toReal]
  rw [e1, e2, zero_add, zero_add, ← coe_sum, ← coe_sum, ← EReal.coe_mul, Finset.mul_sum]
  exact congrArg Real.toEReal (Finset.sum_congr rfl fun j _ => mul_comm _ _)

end Cert.RealValued

end
-- ==== Proof.RefAt.lean ====
/-
  The reference, read at an index.

  The reference program projects the input rows onto the ball, forms for every prototype `n` and input `b` the
  Möbius sum of the negated prototype row and the projected input row coordinate by coordinate, takes its Euclidean
  norm, turns the norm into a score (clip, inverse hyperbolic tangent through `log1p`, doubling, negation, division
  by four), takes a softmax of the scores over the prototypes and contracts it with the class weights.  Each stage
  is read at one index from its operands at an index; the layout stages (broadcasts, the transpose) only move the
  index, and the index they read at is a literal re-arrangement of the coordinates.  Read in this way the result at
  (input `b`, class `c`) is the specification's one-softmax expression `Hdsdm.outR` of the scores
  `Hdsdm.scoreR (Hdsdm.normR (prototype row n) (projected input row b))` and the class weights of `c`.

  The layers: the projected input re-laid with a leading unit axis; the three sums `x2`, `y2`, `xy`; the
  coordinate of the Möbius sum; its norm; the score; the largest score, the exponentials and their sum; the result.
-/
import proofs.«138910_j57904749084788_2_alg».proof.Proof.RefReadP
import proofs.«138910_j57904749084788_2_alg».proof.Proof.Spec
import proofs.«138910_j57904749084788_2_alg».proof.Proof.Words
import proofs.«138910_j57904749084788_2_alg».proof.Proof.LibMax
import proofs.«138910_j57904749084788_2_alg».proof.Proof.LibRealValued
import Idealize.ShloMosaic.Lib.ValueIdx
import Idealize.ShloMosaic.Lib.Pipeline.Value
import Idealize.ShloMosaic.PureOps.Ideal.Laws

noncomputable section

namespace Cert.ReferenceIdeal.RefAt

open Cert.ReferenceIdeal Cert.ReferenceIdeal.Gen Cert.ReferenceIdeal.Read Idealize.ShloMosaic Idealize.ShloMosaic.ValueIdx

variable (X : (⟨S128x128, .f32⟩ : BufTy).Contents (Elt Ideal)) (A : (⟨S16384x1x128, .f32⟩ : BufTy).Contents (Elt Ideal))
  (C : (⟨S16384x100, .f32⟩ : BufTy).Contents (Elt Ideal))

/-! ## Where the layout stages read: re-arrangements of the coordinates -/

theorem e_v10 (b d : Fin 128) : idx_main_v10 (ix3 (0 : Fin 1) b d) = ix2 b d :=
  funext fun a => Fin.ext (by match a with | ⟨0, _⟩ => rfl | ⟨1, _⟩ => rfl)
theorem e_v13 (n : Fin 16384) (k : Fin 128) :
    idx_main_v13 (idx_main_v14 (ix3 n (0 : Fin 1) (0 : Fin 1))) k = ix3 n (0 : Fin 1) k :=
  funext fun a => Fin.ext (by match a with | ⟨0, _⟩ => rfl | ⟨1, _⟩ => rfl | ⟨2, _⟩ => rfl)
theorem e_v16 (b k : Fin 128) :
    idx_main_v16 (idx_main_v17 (ix3 (0 : Fin 1) b (0 : Fin 1))) k = ix3 (0 : Fin 1) b k :=
  funext fun a => Fin.ext (by match a with | ⟨0, _⟩ => rfl | ⟨1, _⟩ => rfl | ⟨2, _⟩ => rfl)
theorem e_v21 (n : Fin 16384) (b k : Fin 128) :
    idx_main_v21 (idx_main_v22 (ix3 n b (0 : Fin 1))) k = ix3 n b k :=
  funext fun a => Fin.ext (by match a with | ⟨0, _⟩ => rfl | ⟨1, _⟩ => rfl | ⟨2, _⟩ => rfl)
theorem e_v18 (n : Fin 16384) (b k : Fin 128) : idx_main_v18 (ix3 n b k) = ix3 n (0 : Fin 1) k :=
  funext fun a => Fin.ext (by match a with | ⟨0, _⟩ => rfl | ⟨1, _⟩ => rfl | ⟨2, _⟩ => rfl)
theorem e_v19 (n : Fin 16384) (b k : Fin 128) : idx_main_v19 (ix3 n b k) = ix3 (0 : Fin 1) b k :=
  funext fun a => Fin.ext (by match a with | ⟨0, _⟩ => rfl | ⟨1, _⟩ => rfl | ⟨2, _⟩ => rfl)
theorem e_v29 (n : Fin 16384) (b d : Fin 128) : idx_main_v29 (ix3 n b d) = ix3 n b (0 : Fin 1) :=
  funext fun a => Fin.ext (by match a with | ⟨0, _⟩ => rfl | ⟨1, _⟩ => rfl | ⟨2, _⟩ => rfl)
theorem e_v27 (n : Fin 16384) (b : Fin 128) :
    idx_main_v27 (ix3 n b (0 : Fin 1)) = ix3 (0 : Fin 1) b (0 : Fin 1) :=
  funext fun a => Fin.ext (by match a with | ⟨0, _⟩ => rfl | ⟨1, _⟩ => rfl | ⟨2, _⟩ => rfl)
theorem e_v30 (n : Fin 16384) (b d : Fin 128) : idx_main_v30 (ix3 n b d) = ix3 n (0 : Fin 1) d :=
  funext fun a => Fin.ext (by match a with | ⟨0, _⟩ => rfl | ⟨1, _⟩ => rfl | ⟨2, _⟩ => rfl)
theorem e_v34 (n : Fin 16384) (b d : Fin 128) :
    idx_main_v34 (ix3 n b d) = ix3 n (0 : Fin 1) (0 : Fin 1) :=
  funext fun a => Fin.ext (by match a with | ⟨0, _⟩ => rfl | ⟨1, _⟩ => rfl | ⟨2, _⟩ => rfl)
theorem e_v35 (n : Fin 16384) (b d : Fin 128) : idx_main_v35 (ix3 n b d) = ix3 (0 : Fin 1) b d :=
  funext fun a => Fin.ext (by match a with | ⟨0, _⟩ => rfl | ⟨1, _⟩ => rfl | ⟨2, _⟩ => rfl)
theorem e_v48 (n : Fin 16384) (b d : Fin 128) : idx_main_v48 (ix3 n b d) = ix3 n b (0 : Fin 1) :=
  funext fun a => Fin.ext (by match a with | ⟨0, _⟩ => rfl | ⟨1, _⟩ => rfl | ⟨2, _⟩ => rfl)
theorem e_v42 (n : Fin 16384) (b : Fin 128) :
    idx_main_v42 (ix3 n b (0 : Fin 1)) = ix3 n (0 : Fin 1) (0 : Fin 1) :=
  funext fun a => Fin.ext (by match a with | ⟨0, _⟩ => rfl | ⟨1, _⟩ => rfl | ⟨2, _⟩ => rfl)
theorem e_v43 (n : Fin 16384) (b : Fin 128) :
    idx_main_v43 (ix3 n b (0 : Fin 1)) = ix3 (0 : Fin 1) b (0 : Fin 1) :=
  funext fun a => Fin.ext (by match a with | ⟨0, _⟩ => rfl | ⟨1, _⟩ => rfl | ⟨2, _⟩ => rfl)
theorem e_call2 (n : Fin 16384) (b k : Fin 128) : idx_main_call2_v1 (ix2 n b) k = ix3 n b k :=
  funext fun a => Fin.ext (by match a with | ⟨0, _⟩ => rfl | ⟨1, _⟩ => rfl | ⟨2, _⟩ => rfl)
theorem e_l77 (b : Fin 128) (c : Fin 100) (k : Fin 16384) : lidx_main_v77 (ix2 b c) k = ix2 b k :=
  funext fun a => Fin.ext (by match a with | ⟨0, _⟩ => rfl | ⟨1, _⟩ => rfl)
theorem e_r77 (b : Fin 128) (c : Fin 100) (k : Fin 16384) : ridx_main_v77 (ix2 b c) k = ix2 k c :=
  funext fun a => Fin.ext (by match a with | ⟨0, _⟩ => rfl | ⟨1, _⟩ => rfl)
theorem e_v76 (b : Fin 128) (k : Fin 16384) : idx_main_v76 (ix2 b k) = ix2 k b :=
  funext fun a => Fin.ext (by match a with | ⟨0, _⟩ => rfl | ⟨1, _⟩ => rfl)
theorem e_v68 (k : Fin 16384) (b : Fin 128) : idx_main_v68 (idx_main_v69 (ix2 k b)) = ix1 b :=
  funext fun a => Fin.ext (by match a with | ⟨0, _⟩ => rfl)
theorem e_v73 (k : Fin 16384) (b : Fin 128) : idx_main_v73 (idx_main_v74 (ix2 k b)) = ix1 b :=
  funext fun a => Fin.ext (by match a with | ⟨0, _⟩ => rfl)
theorem e_v72 (b : Fin 128) (k : Fin 16384) : idx_main_v72 (ix1 b) k = ix2 k b :=
  funext fun a => Fin.ext (by match a with | ⟨0, _⟩ => rfl | ⟨1, _⟩ => rfl)

/-! ## (a) The projected input with its leading unit axis -/

/-- The projected input, re-laid as one slab of rows, at (0, b, d) is the projected input at (b, d). -/
theorem xp_at (b d : Fin 128) :
    val_main_v10 (F := Ideal) X (ix3 (0 : Fin 1) b d) = val_main_v9 (F := Ideal) X (ix2 b d) := by
  rw [val_main_v10_apply, e_v10]

/-! ## (b) The three sums of the Möbius sum -/

/-- The squared norm of the negated prototype row `n`. -/
theorem x2_at (n : Fin 16384) :
    val_main_v14 (F := Ideal) A (ix3 n (0 : Fin 1) (0 : Fin 1))
      = Hdsdm.w0 + ∑ d : Fin 128, (-A (ix3 n (0 : Fin 1) d)) * (-A (ix3 n (0 : Fin 1) d)) := by
  rw [val_main_v14_apply, val_main_v13_apply]
  refine congrArg (_ + ·) (Finset.sum_congr rfl fun k _ => ?_)
  rw [e_v13]
  rfl

/-- The squared norm of the projected input row `b`. -/
theorem y2_at (b : Fin 128) :
    val_main_v17 (F := Ideal) X (ix3 (0 : Fin 1) b (0 : Fin 1))
      = Hdsdm.w0 + ∑ d : Fin 128, val_main_v9 (F := Ideal) X (ix2 b d) * val_main_v9 (F := Ideal) X (ix2 b d) := by
  rw [val_main_v17_apply, val_main_v16_apply]
  refine congrArg (_ + ·) (Finset.sum_congr rfl fun k _ => ?_)
  rw [e_v16, val_main_v15_apply, xp_at]
  rfl

/-- The inner product of the negated prototype row `n` and the projected input row `b`. -/
theorem xy_at (n : Fin 16384) (b : Fin 128) :
    val_main_v22 (F := Ideal) X A (ix3 n b (0 : Fin 1))
      = Hdsdm.w0 + ∑ d : Fin 128, (-A (ix3 n (0 : Fin 1) d)) * val_main_v9 (F := Ideal) X (ix2 b d) := by
  rw [val_main_v22_apply, val_main_v21_apply]
  refine congrArg (_ + ·) (Finset.sum_congr rfl fun k _ => ?_)
  rw [e_v21, val_main_v20_apply, val_main_v18_apply, e_v18, val_main_v19_apply, e_v19, xp_at]
  rfl

/-! ## (c) One coordinate of the Möbius sum -/

/-- The coordinate `d` of the Möbius sum of the negated prototype row `n` and the projected input row `b`, in terms
    of the three sums. -/
theorem quot_at (n : Fin 16384) (b d : Fin 128) (x2 y2 xy : EReal)
    (hx2 : val_main_v14 (F := Ideal) A (ix3 n (0 : Fin 1) (0 : Fin 1)) = x2)
    (hy2 : val_main_v17 (F := Ideal) X (ix3 (0 : Fin 1) b (0 : Fin 1)) = y2)
    (hxy : val_main_v22 (F := Ideal) X A (ix3 n b (0 : Fin 1)) = xy) :
    val_main_v49 (F := Ideal) X A (ix3 n b d)
      = Ideal.div (((Hdsdm.w1 + Hdsdm.w2 * xy) + y2) * (-A (ix3 n (0 : Fin 1) d))
                    + (Hdsdm.w1 - x2) * val_main_v9 (F := Ideal) X (ix2 b d))
                  (max ((Hdsdm.w1 + Hdsdm.w2 * xy) + x2 * y2) Hdsdm.wEps) := by
  have hnum : val_main_v37 (F := Ideal) X A (ix3 n b d)
      = ((Hdsdm.w1 + Hdsdm.w2 * xy) + y2) * (-A (ix3 n (0 : Fin 1) d))
          + (Hdsdm.w1 - x2) * val_main_v9 (F := Ideal) X (ix2 b d) := by
    rw [val_main_v37_apply, val_main_v31_apply, val_main_v29_apply, e_v29, val_main_v28_apply,
      val_main_v26_apply, val_main_v25_apply, val_main_cst_6_apply, val_main_v24_apply, val_main_v23_apply,
      val_main_cst_5_apply, hxy, val_main_v27_apply, e_v27, hy2, val_main_v30_apply, e_v30, val_main_v11_apply,
      val_main_v36_apply, val_main_v34_apply, e_v34, val_main_v33_apply, val_main_v32_apply, val_main_cst_7_apply,
      hx2, val_main_v35_apply, e_v35, xp_at]
    rfl
  have hden : val_main_v48 (F := Ideal) X A (ix3 n b d)
      = max ((Hdsdm.w1 + Hdsdm.w2 * xy) + x2 * y2) Hdsdm.wEps := by
    rw [val_main_v48_apply, e_v48, val_main_v47_apply, val_main_v45_apply, val_main_v41_apply, val_main_v40_apply,
      val_main_cst_9_apply, val_main_v39_apply, val_main_v38_apply, val_main_cst_8_apply, hxy, val_main_v44_apply,
      val_main_v42_apply, e_v42, hx2, val_main_v43_apply, e_v43, hy2, val_main_v46_apply, val_main_cst_10_apply]
    rfl
  rw [val_main_v49_apply, hnum, hden]
  rfl

/-! ## (d) The norm of the Möbius sum -/

theorem norm_at (n : Fin 16384) (b : Fin 128) :
    val_main_v50 (F := Ideal) X A (ix2 n b)
      = Hdsdm.normR (fun d : Fin 128 => A (ix3 n (0 : Fin 1) d))
          (fun d : Fin 128 => val_main_v9 (F := Ideal) X (ix2 b d)) := by
  rw [val_main_v50_apply, val_main_call2_v1_apply, Ideal.hostUnary_sqrt_def]
  unfold Hdsdm.normR
  dsimp only
  refine congrArg Ideal.sqrt ?_
  refine congrArg (_ + ·) ?_
  refine Finset.sum_congr rfl fun k _ => ?_
  rw [e_call2, val_main_call2_v0_apply, quot_at X A n b k _ _ _ (x2_at A n) (y2_at X b) (xy_at X A n b)]
  rfl

/-! ## (e) The score -/

/-- From the norm to the score: the clip, the inverse hyperbolic tangent, the doubling, the negation and the
    division by four. -/
theorem score_at (n : Fin 16384) (b : Fin 128) (δ : EReal)
    (hδ : val_main_v50 (F := Ideal) X A (ix2 n b) = δ) :
    val_main_v64 (F := Ideal) X A (ix2 n b) = Hdsdm.scoreR δ := by
  rw [val_main_v64_apply, val_main_v62_apply, val_main_v61_apply, val_main_v60_apply, val_main_cst_16_apply,
    val_main_v59_apply, val_main_v58_apply, val_main_cst_15_apply, val_main_v57_apply, val_main_v56_apply,
    val_main_v53_apply, val_main_v52_apply, val_main_cst_13_apply, val_main_v55_apply, val_main_v54_apply,
    val_main_cst_14_apply, val_main_v51_apply, val_main_call3_v4_apply, val_main_call3_v3_apply,
    val_main_cst_12_apply, val_main_call3_v2_apply, val_main_call3_v1_apply, val_main_call3_v0_apply,
    val_main_cst_11_apply, hδ, val_main_v63_apply, val_main_cst_17_apply]
  rfl

/-! ## (f) The softmax over the prototypes and the contraction with the class weights -/

/-- The largest score of input `b`: the fold of the maximum over the prototypes from minus infinity. -/
theorem max_at (b : Fin 128) :
    val_main_v65 (F := Ideal) X A (ix1 b)
      = Finset.univ.fold max Hdsdm.wNegInf (fun n : Fin 16384 => val_main_v64 (F := Ideal) X A (ix2 n b)) := by
  unfold val_main_v65
  generalize val_main_v64 (F := Ideal) X A = y
  refine (Host.reduce_eq_fold_single (FloatOps.maximumf (F := Ideal) (φ := .f32)) y (val_main_cst_18 (F := Ideal))
    reducesTo_S16384x128_S128_d0 (by decide) h_S_ (ix1 b)).trans ?_
  show Finset.fold max (Ideal.ofBits .f32 0xFF800000#32) (y ∘ _) Finset.univ
      = Finset.fold max Hdsdm.wNegInf (fun n : Fin 16384 => y (ix2 n b)) Finset.univ
  refine congrArg (fun f => Finset.fold max (Ideal.ofBits .f32 0xFF800000#32) f Finset.univ)
    (funext fun k => congrArg y ?_)
  exact funext fun a => Fin.ext (by match a with | ⟨0, _⟩ => rfl | ⟨1, _⟩ => rfl)

/-- The softmax's shift: the largest score joined with minus infinity. -/
theorem shift_at (b : Fin 128) :
    val_main_v67 (F := Ideal) X A (ix1 b)
      = max Hdsdm.wNegInf
          (Finset.univ.fold max Hdsdm.wNegInf (fun n : Fin 16384 => val_main_v64 (F := Ideal) X A (ix2 n b))) := by
  rw [val_main_v67_apply, val_main_v66_apply, val_main_cst_19_apply, max_at]
  rfl

/-- The exponential of the shifted score of prototype `k` and input `b`. -/
theorem expo_at (k : Fin 16384) (b : Fin 128) (M : EReal) (hM : val_main_v67 (F := Ideal) X A (ix1 b) = M) :
    val_main_v71 (F := Ideal) X A (ix2 k b) = Ideal.exp (val_main_v64 (F := Ideal) X A (ix2 k b) - M) := by
  rw [val_main_v71_apply, val_main_v70_apply, val_main_v69_apply, val_main_v68_apply, e_v68, hM]
  rfl

/-- The softmax's normaliser for input `b`. -/
theorem den_at (b : Fin 128) (M : EReal) (hM : val_main_v67 (F := Ideal) X A (ix1 b) = M) :
    val_main_v72 (F := Ideal) X A (ix1 b)
      = Hdsdm.w0 + ∑ k : Fin 16384, Ideal.exp (val_main_v64 (F := Ideal) X A (ix2 k b) - M) := by
  rw [val_main_v72_apply]
  refine congrArg (_ + ·) (Finset.sum_congr rfl fun k _ => ?_)
  rw [e_v72, expo_at X A k b M hM]

/-- The result at (input `b`, class `c`) is the one-softmax expression of the scores of `b` and the weights of `c`. -/
theorem softmax_at (b : Fin 128) (c : Fin 100) :
    val_main_v77 (F := Ideal) X A C (ix2 b c)
      = Hdsdm.outR (fun n : Fin 16384 => val_main_v64 (F := Ideal) X A (ix2 n b))
          (fun n : Fin 16384 => C (ix2 n c)) := by
  rw [val_main_v77_apply]
  unfold Hdsdm.outR
  refine Finset.sum_congr rfl fun k _ => ?_
  rw [e_l77, e_r77, val_main_v76_apply, e_v76, val_main_v75_apply, expo_at X A k b _ (shift_at X A b),
    val_main_v74_apply, val_main_v73_apply, e_v73, den_at X A b _ (shift_at X A b)]
  rfl

/-- The reference's result at (input `b`, class `c`): the softmax over the prototypes of the scores of the norms
    of the Möbius sums, contracted with the class weights. -/
theorem result_apply (b : Fin 128) (c : Fin 100) :
    val_main_v77 (F := Ideal) X A C (ix2 b c)
      = Hdsdm.outR
          (fun n : Fin 16384 => Hdsdm.scoreR (Hdsdm.normR (fun d : Fin 128 => A (ix3 n (0 : Fin 1) d))
            (fun d : Fin 128 => val_main_v9 (F := Ideal) X (ix2 b d))))
          (fun n : Fin 16384 => C (ix2 n c)) := by
  rw [softmax_at]
  exact congrArg (fun s : Fin 16384 → EReal => Hdsdm.outR s (fun n : Fin 16384 => C (ix2 n c)))
    (funext fun n => score_at X A n b _ (norm_at X A n b))

end Cert.ReferenceIdeal.RefAt

end
-- ==== Proof.RefProj.lean ====
/-
  The projection onto the ball of radius 1 - 4e-3 keeps real entries real.

  A row x of the input is divided by max (‖x‖, ε) and multiplied by the radius when that clamped norm exceeds the
  radius, and is left alone otherwise.  When every entry is a real number: the sum of the squares of a row (onto a
  zero start) is a nonnegative real, so its square root is a real; the larger of that root and the positive real ε
  is a positive real; a real divided by a nonzero real is a real; a real times the radius, a real, is a real; and
  the selection returns one of two reals.
-/
import proofs.«138910_j57904749084788_2_alg».proof.Proof.RefReadP
import proofs.«138910_j57904749084788_2_alg».proof.Proof.Words
import proofs.«138910_j57904749084788_2_alg».proof.Proof.LibRealValued
import Idealize.ShloMosaic.Lib.ValueIdx
import Idealize.ShloMosaic.PureOps.Ideal.Laws

noncomputable section

open scoped BigOperators

namespace Cert.ReferenceIdeal.RefProj

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.RealValued

/-- The maximum of two real numbers, taken in the extended reals, is their real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The sum of the squares of a row of reals, onto the zero start, is a nonnegative real. -/
theorem sumsq_real (X : (⟨S128x128, .f32⟩ : BufTy).Contents (Elt Ideal)) (hX : ∀ i, IsReal (X i)) (i : S128.Idx) :
    ∃ r : ℝ, 0 ≤ r ∧ val_main_call0_v1 (F := Ideal) X i = (r : EReal) := by
  choose x hx using hX
  refine ⟨∑ k : Fin 128, x (idx_main_call0_v1 i k) * x (idx_main_call0_v1 i k),
    Finset.sum_nonneg fun k _ => mul_self_nonneg _, ?_⟩
  rw [val_main_call0_v1_apply, val_main_call0_cst_apply, Ideal.ofBits_def, Hdsdm.Words.zero, zero_add, coe_sum]
  refine Finset.sum_congr rfl fun k _ => ?_
  rw [val_main_call0_v0_apply, Ideal.mulf_def, hx, ← EReal.coe_mul]

/-- The row's norm: the square root of a nonnegative real is a nonnegative real. -/
theorem root_real (X : (⟨S128x128, .f32⟩ : BufTy).Contents (Elt Ideal)) (hX : ∀ i, IsReal (X i)) (i : S128x1.Idx) :
    ∃ r : ℝ, 0 ≤ r ∧ val_main_v0 (F := Ideal) X i = (r : EReal) := by
  obtain ⟨q, hq0, hq⟩ := sumsq_real X hX (idx_main_call0_v2 i)
  refine ⟨Real.sqrt q, Real.sqrt_nonneg q, ?_⟩
  rw [val_main_v0_apply, val_main_call0_v2_apply, hq]
  show Ideal.sqrt (q : EReal) = _
  rw [Ideal.sqrt_coe, if_neg (not_lt.mpr hq0)]

/-- The clamped norm, the larger of the norm and the positive real ε, is a positive real. -/
theorem clamp_real (X : (⟨S128x128, .f32⟩ : BufTy).Contents (Elt Ideal)) (hX : ∀ i, IsReal (X i)) (i : S128x1.Idx) :
    ∃ r : ℝ, 0 < r ∧ val_main_v2 (F := Ideal) X i = (r : EReal) := by
  obtain ⟨a, -, ha⟩ := root_real X hX i
  obtain ⟨ε, hε, hw⟩ := Hdsdm.Words.eps
  refine ⟨max a ε, lt_max_of_lt_right hε, ?_⟩
  rw [val_main_v2_apply, Ideal.maximumf_def, ha, val_main_v1_apply, val_main_cst_apply, Ideal.ofBits_def, hw,
    max_coe_coe]

/-- An entry divided by its row's clamped norm: a real divided by a nonzero real. -/
theorem quot_real (X : (⟨S128x128, .f32⟩ : BufTy).Contents (Elt Ideal)) (hX : ∀ i, IsReal (X i)) (i : S128x128.Idx) :
    IsReal (val_main_v6 (F := Ideal) X i) := by
  obtain ⟨r, hr, h⟩ := clamp_real X hX (idx_main_v5 i)
  rw [val_main_v6_apply, Ideal.hostDivf_def, val_main_v5_apply, h, Ideal.div_coe hr.ne']
  exact (hX i).mul (IsReal.coe _)

/-- The quotient times the radius, a real. -/
theorem scaled_real (X : (⟨S128x128, .f32⟩ : BufTy).Contents (Elt Ideal)) (hX : ∀ i, IsReal (X i)) (i : S128x128.Idx) :
    IsReal (val_main_v8 (F := Ideal) X i) := by
  rw [val_main_v8_apply, Ideal.mulf_def, val_main_v7_apply, val_main_cst_1_apply, Ideal.ofBits_def,
    Hdsdm.Words.maxnorm]
  exact (quot_real X hX i).mul (IsReal.coe _)

/-- The projected entry is one of two reals: the rescaled entry or the entry itself. -/
theorem proj_isReal (X : (⟨S128x128, .f32⟩ : BufTy).Contents (Elt Ideal)) (hX : ∀ i, Cert.RealValued.IsReal (X i)) (i : Cert.ReferenceIdeal.S128x128.Idx) :
    Cert.RealValued.IsReal (Cert.ReferenceIdeal.Read.val_main_v9 (F := Ideal) X i) := by
  rw [val_main_v9_apply]
  by_cases hc : val_main_call1_v0 (F := Ideal) X i = 1#1
  · rw [hc, select_one]
    exact scaled_real X hX i
  · rw [eq_zero_of_ne_one hc, select_zero]
    exact hX i

end Cert.ReferenceIdeal.RefProj

end
-- ==== Proof.Prefix.lean ====
import proofs.«138910_j57904749084788_2_alg».proof.Proof.Gen.KernelIdeal.Frame
import proofs.«138910_j57904749084788_2_alg».proof.Proof.RefReadP
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem

/-!
  The projected inputs, as the region finds them.

  Before the region the kernel's program projects the inputs onto the ball of radius `1 - 4e-3` by the same host
  operations, in the same order, as the reference: the row norms, their clamp at `1e-15`, the comparison with the
  radius, the quotient scaled by the radius, the selection. So the array the first window stages is the reference's
  projected-input stage of the same argument.
-/
namespace Cert.KernelIdeal.Prefix

open Cert.KernelIdeal Cert.KernelIdeal.Gen Idealize.ShloMosaic.StableHlo

variable (m : (ℓ : Loc nD τ sig) → Buf (Elt Ideal) ℓ)

set_option maxHeartbeats 4000000 in
theorem projected (c : Dev nD) :
    (V m c main_v9 : S128x128.Idx → EReal)
      = Cert.ReferenceIdeal.Read.val_main_v9 (F := Ideal) (m ((c : Thread nD τ).loc main_arg0)) := by
  dsimp only [V, V0]
  simp only [hostOps0, hostOps0_1, hostOps0_2, List.flatten_cons, List.flatten_nil, List.append_nil, List.cons_append,
    List.nil_append]
  after_results
  rfl

end Cert.KernelIdeal.Prefix

end
-- ==== Proof.LibSoftmax.lean ====
/- The running softmax over the reals.

   A program that walks a row of scores block by block keeps three numbers per row: a shift mu (any real at all: the
   running maximum in practice, but nothing below uses that), a normaliser l and a weighted accumulator acc. What it
   maintains is that l * exp mu is the sum of exp (score) over the scores seen so far, and acc * exp mu the sum of
   exp (score) * value: the UNNORMALISED sums, which do not depend on the shift. Moving the shift from mu to mu'
   multiplies l and acc by exp (mu - mu'), and a new block adds its own terms shifted by mu'. At the end acc / l is the
   quotient of the two unnormalised sums. -/
import Mathlib.Analysis.SpecialFunctions.Exp
import Mathlib.Algebra.BigOperators.Intervals
import Mathlib.Algebra.BigOperators.Fin
import Mathlib.Tactic

open scoped BigOperators

namespace Cert.Attn

/-- One step, for the normaliser: rescale by exp (mu - mu') and add the new block's terms shifted by mu'. -/
theorem step_norm {ι : Type} (s : Finset ι) (f : ι → ℝ) (μ μ' l S : ℝ) (h : l * Real.exp μ = S) :
    (Real.exp (μ - μ') * l + ∑ j ∈ s, Real.exp (f j - μ')) * Real.exp μ' = S + ∑ j ∈ s, Real.exp (f j) := by
  rw [add_mul, Finset.sum_mul, ← h]
  congr 1
  · rw [mul_right_comm, ← Real.exp_add, sub_add_cancel, mul_comm]
  · exact Finset.sum_congr rfl fun j _ => by rw [← Real.exp_add, sub_add_cancel]

/-- One step, for the weighted accumulator. -/
theorem step_acc {ι : Type} (s : Finset ι) (f v : ι → ℝ) (μ μ' a A : ℝ) (h : a * Real.exp μ = A) :
    (Real.exp (μ - μ') * a + ∑ j ∈ s, Real.exp (f j - μ') * v j) * Real.exp μ' = A + ∑ j ∈ s, Real.exp (f j) * v j := by
  rw [add_mul, Finset.sum_mul, ← h]
  congr 1
  · rw [mul_right_comm, ← Real.exp_add, sub_add_cancel, mul_comm]
  · exact Finset.sum_congr rfl fun j _ => by rw [mul_right_comm, ← Real.exp_add, sub_add_cancel]

/-- The first block, for the normaliser: nothing seen before. -/
theorem first_norm {ι : Type} (s : Finset ι) (f : ι → ℝ) (μ' : ℝ) :
    (∑ j ∈ s, Real.exp (f j - μ')) * Real.exp μ' = ∑ j ∈ s, Real.exp (f j) := by
  rw [Finset.sum_mul]
  exact Finset.sum_congr rfl fun j _ => by rw [← Real.exp_add, sub_add_cancel]

/-- The first block, for the weighted accumulator. -/
theorem first_acc {ι : Type} (s : Finset ι) (f v : ι → ℝ) (μ' : ℝ) :
    (∑ j ∈ s, Real.exp (f j - μ') * v j) * Real.exp μ' = ∑ j ∈ s, Real.exp (f j) * v j := by
  rw [Finset.sum_mul]
  exact Finset.sum_congr rfl fun j _ => by rw [mul_right_comm, ← Real.exp_add, sub_add_cancel]

/-- At the end the shift cancels: acc times the reciprocal of l is the quotient of the unnormalised sums. -/
theorem quotient_of_scaled (a l e A S : ℝ) (he : e ≠ 0) (hA : a * e = A) (hS : l * e = S) : a * (1 / l) = A / S := by
  rw [← hA, ← hS, mul_div_mul_right _ _ he, mul_one_div]

/-- A sum over the first 128 * (n + 1) naturals is the sum over the first 128 * n and then over one block of 128. -/
theorem sum_range_block (g : ℕ → ℝ) (n : ℕ) :
    ∑ k ∈ Finset.range (128 * (n + 1)), g k = ∑ k ∈ Finset.range (128 * n), g k + ∑ j : Fin 128, g (128 * n + j.val) := by
  rw [show 128 * (n + 1) = 128 * n + 128 by ring, Finset.sum_range_add, Fin.sum_univ_eq_sum_range (fun x => g (128 * n + x)) 128]

/-- The first block alone. -/
theorem sum_range_first (g : ℕ → ℝ) :
    ∑ k ∈ Finset.range (128 * (0 + 1)), g k = ∑ j : Fin 128, g (128 * 0 + j.val) := by
  rw [sum_range_block, Nat.mul_zero, Finset.range_zero, Finset.sum_empty, zero_add]

/-- The weights of the softmax with a shift M are the unshifted exponentials over their sum: the weighted mean of v
    computed with them is the quotient of the two unnormalised sums. -/
theorem shifted_mean {ι : Type} (s : Finset ι) (f v : ι → ℝ) (M : ℝ) :
    ∑ k ∈ s, Real.exp (f k - M) / (∑ j ∈ s, Real.exp (f j - M)) * v k
      = (∑ k ∈ s, Real.exp (f k) * v k) / (∑ k ∈ s, Real.exp (f k)) := by
  have hM : Real.exp M ≠ 0 := (Real.exp_pos M).ne'
  have h1 : ∑ j ∈ s, Real.exp (f j - M) = (∑ j ∈ s, Real.exp (f j)) / Real.exp M := by
    rw [Finset.sum_div]; exact Finset.sum_congr rfl fun j _ => Real.exp_sub _ _
  rw [h1]
  conv_rhs => rw [Finset.sum_div]
  apply Finset.sum_congr rfl
  intro k _
  rw [Real.exp_sub, div_div_div_cancel_right₀ hM, div_mul_eq_mul_div]

end Cert.Attn
-- ==== Proof.SoftminLaw.lean ====
/-
  The soft-min law: the two-halves, two-blocks running softmax with its merge computes the same weighted mean as
  one softmax over all prototypes.

  Every score and class weight is a real number.  A fold of the maximum from minus infinity over a nonempty finite
  family of reals is one of the family, so every running maximum is real; which real it is never matters.  For a
  real shift m, the normaliser l and the accumulator acc of a half satisfy l * exp m = S and acc * exp m = A, where
  S is the sum of exp (score) over the half and A the sum of exp (score) * weight: the first block starts from
  exp (-∞) * 0 = 0, and each later block rescales by exp (m - m') and adds its own shifted terms.  The merge rescales
  both halves to the larger maximum, so its normaliser and accumulator times exp (max) are S₀ + S₁ and A₀ + A₁, and
  acc * (1 / l) is (A₀ + A₁) / (S₀ + S₁).  The reference's weights exp (s - M) / Σ exp (s - M) give the same
  quotient for any real shift M, and the sum over (half, block, row) splits into the halves.
-/
import proofs.«138910_j57904749084788_2_alg».proof.Proof.Spec
import proofs.«138910_j57904749084788_2_alg».proof.Proof.Words
import proofs.«138910_j57904749084788_2_alg».proof.Proof.LibRealValued
import proofs.«138910_j57904749084788_2_alg».proof.Proof.LibSoftmax
import proofs.«138910_j57904749084788_2_alg».proof.Proof.LibMax

noncomputable section

open scoped BigOperators

namespace Hdsdm

open Idealize.ShloMosaic Cert.RealValued

/-- The maximum of two real numbers, taken in the extended reals, is their real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

section Blocks
variable {ι : Type} [Fintype ι]

/-- The shifted exponentials of real scores sum to a real number. -/
theorem sum_exp_coe (σ : ι → ℝ) (μ : ℝ) :
    ∑ p, Ideal.exp ((σ p : EReal) - (μ : EReal)) = ((∑ p, Real.exp (σ p - μ) : ℝ) : EReal) := by
  rw [coe_sum]
  exact Finset.sum_congr rfl fun p _ => by rw [← EReal.coe_sub, Ideal.exp_coe]

/-- The same with real weights. -/
theorem sum_exp_mul_coe (σ g : ι → ℝ) (μ : ℝ) :
    ∑ p, Ideal.exp ((σ p : EReal) - (μ : EReal)) * (g p : EReal)
      = ((∑ p, Real.exp (σ p - μ) * g p : ℝ) : EReal) := by
  rw [coe_sum]
  exact Finset.sum_congr rfl fun p _ => by rw [← EReal.coe_sub, Ideal.exp_coe, ← EReal.coe_mul]

variable [Nonempty ι]

/-- The largest of a nonempty finite family of real scores is real: it is one of them. -/
theorem blkMax_coe (σ : ι → ℝ) : ∃ μ : ℝ, blkMax (fun p => (σ p : EReal)) = (μ : EReal) := by
  obtain ⟨i, -, hi⟩ := Finset.exists_mem_eq_sup Finset.univ Finset.univ_nonempty (fun p => (σ p : EReal))
  refine ⟨σ i, ?_⟩
  unfold blkMax
  rw [show wNegInf = (⊥ : EReal) from Words.neg_inf, Cert.LibMax.fold_max_bot]
  exact hi

/-- Joining minus infinity changes nothing. -/
theorem mA_coe (σ : ι → ℝ) : ∃ μ : ℝ, mA (fun p => (σ p : EReal)) = (μ : EReal) := by
  obtain ⟨μ, hμ⟩ := blkMax_coe σ
  refine ⟨μ, ?_⟩
  unfold mA
  rw [hμ, show wNegInf = (⊥ : EReal) from Words.neg_inf, max_bot_left]

/-- The first block: from (-∞, 0, 0) the normaliser and accumulator are the block's shifted sums. -/
theorem firstBlock (σ g : ι → ℝ) :
    ∃ μ l a : ℝ, mA (fun p => (σ p : EReal)) = (μ : EReal) ∧ lA (fun p => (σ p : EReal)) = (l : EReal)
      ∧ accA (fun p => (σ p : EReal)) (fun p => (g p : EReal)) = (a : EReal)
      ∧ l * Real.exp μ = ∑ p, Real.exp (σ p) ∧ a * Real.exp μ = ∑ p, Real.exp (σ p) * g p := by
  obtain ⟨μ, hμ⟩ := mA_coe σ
  have hz : Ideal.exp (wNegInf - (μ : EReal)) * w0 = 0 := by
    rw [show wNegInf = (⊥ : EReal) from Words.neg_inf, EReal.bot_sub, Ideal.exp_bot, zero_mul]
  refine ⟨μ, ∑ p, Real.exp (σ p - μ), ∑ p, Real.exp (σ p - μ) * g p, hμ, ?_, ?_,
    Cert.Attn.first_norm _ _ _, Cert.Attn.first_acc _ _ _ _⟩
  · unfold lA
    rw [hμ, hz, zero_add]
    exact sum_exp_coe σ μ
  · unfold accA
    rw [hμ, hz, zero_add]
    exact sum_exp_mul_coe σ g μ

/-- A later block: rescale by exp (m - m') and add the block's shifted sums. -/
theorem stepBlock (σ g : ι → ℝ) (μ l a S A : ℝ) (hl : l * Real.exp μ = S) (ha : a * Real.exp μ = A) :
    ∃ μ' l' a' : ℝ, mB (μ : EReal) (fun p => (σ p : EReal)) = (μ' : EReal)
      ∧ lB (μ : EReal) (l : EReal) (fun p => (σ p : EReal)) = (l' : EReal)
      ∧ accB (μ : EReal) (a : EReal) (fun p => (σ p : EReal)) (fun p => (g p : EReal)) = (a' : EReal)
      ∧ l' * Real.exp μ' = S + ∑ p, Real.exp (σ p) ∧ a' * Real.exp μ' = A + ∑ p, Real.exp (σ p) * g p := by
  obtain ⟨ν, hν⟩ := blkMax_coe σ
  have hm : mB (μ : EReal) (fun p => (σ p : EReal)) = ((max μ ν : ℝ) : EReal) := by
    unfold mB
    rw [hν, max_coe_coe]
  refine ⟨max μ ν, Real.exp (μ - max μ ν) * l + ∑ p, Real.exp (σ p - max μ ν),
    Real.exp (μ - max μ ν) * a + ∑ p, Real.exp (σ p - max μ ν) * g p, hm, ?_, ?_,
    Cert.Attn.step_norm _ _ _ _ _ _ hl, Cert.Attn.step_acc _ _ _ _ _ _ _ ha⟩
  · unfold lB
    rw [hm, EReal.coe_add, EReal.coe_mul, ← sum_exp_coe, ← Ideal.exp_coe, EReal.coe_sub]
  · unfold accB
    rw [hm, EReal.coe_add, EReal.coe_mul, ← sum_exp_mul_coe, ← Ideal.exp_coe, EReal.coe_sub]

/-- One half: two blocks.  Its normaliser and accumulator, times exp of its maximum, are the unnormalised sums. -/
theorem core_coe (σ g : Fin 2 → ι → ℝ) :
    ∃ m l a : ℝ, coreM (fun r p => (σ r p : EReal)) = (m : EReal)
      ∧ coreL (fun r p => (σ r p : EReal)) = (l : EReal)
      ∧ coreAcc (fun r p => (σ r p : EReal)) (fun r p => (g r p : EReal)) = (a : EReal)
      ∧ l * Real.exp m = ∑ r, ∑ p, Real.exp (σ r p)
      ∧ a * Real.exp m = ∑ r, ∑ p, Real.exp (σ r p) * g r p := by
  obtain ⟨μ, l, a, h1, h2, h3, h4, h5⟩ := firstBlock (σ 0) (g 0)
  obtain ⟨μ', l', a', k1, k2, k3, k4, k5⟩ := stepBlock (σ 1) (g 1) μ l a _ _ h4 h5
  refine ⟨μ', l', a', ?_, ?_, ?_, ?_, ?_⟩
  · show mB (mA fun p => (σ 0 p : EReal)) (fun p => (σ 1 p : EReal)) = _
    rw [h1]; exact k1
  · show lB (mA fun p => (σ 0 p : EReal)) (lA fun p => (σ 0 p : EReal)) (fun p => (σ 1 p : EReal)) = _
    rw [h1, h2]; exact k2
  · show accB (mA fun p => (σ 0 p : EReal)) (accA (fun p => (σ 0 p : EReal)) (fun p => (g 0 p : EReal)))
      (fun p => (σ 1 p : EReal)) (fun p => (g 1 p : EReal)) = _
    rw [h1, h3]; exact k3
  · rw [Fin.sum_univ_two]; exact k4
  · rw [Fin.sum_univ_two]; exact k5

end Blocks

/-- The merge: both halves rescaled to the larger maximum; the shift cancels in acc * (1 / l). -/
theorem mergeOut_coe (m0 m1 l0 l1 a0 a1 S0 S1 A0 A1 : ℝ) (hl0 : l0 * Real.exp m0 = S0)
    (hl1 : l1 * Real.exp m1 = S1) (ha0 : a0 * Real.exp m0 = A0) (ha1 : a1 * Real.exp m1 = A1)
    (hS : 0 < S0 + S1) :
    mergeOut (m0 : EReal) (m1 : EReal) (l0 : EReal) (l1 : EReal) (a0 : EReal) (a1 : EReal)
      = (((A0 + A1) / (S0 + S1) : ℝ) : EReal) := by
  have hL : (l0 * Real.exp (m0 - max m0 m1) + l1 * Real.exp (m1 - max m0 m1)) * Real.exp (max m0 m1)
      = S0 + S1 := by
    rw [add_mul, mul_assoc, mul_assoc, ← Real.exp_add, ← Real.exp_add, sub_add_cancel, sub_add_cancel, hl0, hl1]
  have hA : (a0 * Real.exp (m0 - max m0 m1) + a1 * Real.exp (m1 - max m0 m1)) * Real.exp (max m0 m1)
      = A0 + A1 := by
    rw [add_mul, mul_assoc, mul_assoc, ← Real.exp_add, ← Real.exp_add, sub_add_cancel, sub_add_cancel, ha0, ha1]
  have hL0 : l0 * Real.exp (m0 - max m0 m1) + l1 * Real.exp (m1 - max m0 m1) ≠ 0 := by
    intro h
    rw [h, zero_mul] at hL
    exact hS.ne hL
  unfold mergeOut
  rw [max_coe_coe]
  simp only [← EReal.coe_sub, Ideal.exp_coe, ← EReal.coe_mul, ← EReal.coe_add]
  rw [Ideal.div_coe hL0, show w1 = (1 : EReal) from Words.one, one_mul, ← EReal.coe_mul]
  exact congrArg Real.toEReal
    (Cert.Attn.quotient_of_scaled _ _ _ _ _ (Real.exp_pos (max m0 m1)).ne' hA hL)

/-- The reference: one softmax over all prototypes, with any real shift. -/
theorem outR_coe {J : Type} [Fintype J] [Nonempty J] (σ g : J → ℝ) :
    outR (fun j => (σ j : EReal)) (fun j => (g j : EReal))
      = (((∑ j, Real.exp (σ j) * g j) / (∑ j, Real.exp (σ j)) : ℝ) : EReal) := by
  obtain ⟨M, hM⟩ := mA_coe σ
  have hM' : max wNegInf (Finset.univ.fold max wNegInf fun j => (σ j : EReal)) = (M : EReal) := hM
  have hLpos : 0 < ∑ k, Real.exp (σ k - M) :=
    Finset.sum_pos (fun k _ => Real.exp_pos _) Finset.univ_nonempty
  unfold outR
  rw [hM', sum_exp_coe, show w0 = (0 : EReal) from Words.zero, zero_add, ← Cert.Attn.shifted_mean _ _ _ M]
  refine Eq.trans ?_ (coe_sum _ _).symm
  refine Finset.sum_congr rfl fun n _ => ?_
  rw [Ideal.div_coe hLpos.ne', ← EReal.coe_sub, Ideal.exp_coe, ← EReal.coe_mul, ← EReal.coe_mul, mul_one_div]

/-- THE SOFT-MIN LAW. -/
theorem outK_eq_outR {ι : Type} [Fintype ι] [Nonempty ι] (s γ : Fin 2 → Fin 2 → ι → EReal)
    (hs : ∀ k r p, Cert.RealValued.IsReal (s k r p)) (hγ : ∀ k r p, Cert.RealValued.IsReal (γ k r p)) :
    Hdsdm.outK s γ = Hdsdm.outR (fun j : Fin 2 × Fin 2 × ι => s j.1 j.2.1 j.2.2)
      (fun j : Fin 2 × Fin 2 × ι => γ j.1 j.2.1 j.2.2) := by
  choose σ hσ using hs
  choose g hg using hγ
  obtain rfl : s = fun k r p => (σ k r p : EReal) := by funext k r p; exact hσ k r p
  obtain rfl : γ = fun k r p => (g k r p : EReal) := by funext k r p; exact hg k r p
  obtain ⟨m0, l0, a0, e1, e2, e3, e4, e5⟩ := core_coe (σ 0) (g 0)
  obtain ⟨m1, l1, a1, f1, f2, f3, f4, f5⟩ := core_coe (σ 1) (g 1)
  have hpos : ∀ k : Fin 2, 0 < ∑ r, ∑ p, Real.exp (σ k r p) := fun k =>
    Finset.sum_pos (fun r _ => Finset.sum_pos (fun p _ => Real.exp_pos _) Finset.univ_nonempty)
      Finset.univ_nonempty
  have hK : outK (fun k r p => (σ k r p : EReal)) (fun k r p => (g k r p : EReal))
      = mergeOut (m0 : EReal) (m1 : EReal) (l0 : EReal) (l1 : EReal) (a0 : EReal) (a1 : EReal) := by
    show mergeOut (coreM fun r p => (σ 0 r p : EReal)) (coreM fun r p => (σ 1 r p : EReal))
      (coreL fun r p => (σ 0 r p : EReal)) (coreL fun r p => (σ 1 r p : EReal))
      (coreAcc (fun r p => (σ 0 r p : EReal)) (fun r p => (g 0 r p : EReal)))
      (coreAcc (fun r p => (σ 1 r p : EReal)) (fun r p => (g 1 r p : EReal))) = _
    rw [e1, e2, e3, f1, f2, f3]
  rw [hK, mergeOut_coe _ _ _ _ _ _ _ _ _ _ e4 f4 e5 f5 (add_pos (hpos 0) (hpos 1))]
  rw [outR_coe (fun j : Fin 2 × Fin 2 × ι => σ j.1 j.2.1 j.2.2) (fun j : Fin 2 × Fin 2 × ι => g j.1 j.2.1 j.2.2)]
  refine congrArg Real.toEReal ?_
  simp only [Fintype.sum_prod_type, Fin.sum_univ_two]

end Hdsdm

end
-- ==== Proof.Reindex.lean ====
/-
  Renaming the prototypes.

  The reference's result is one softmax over an index type; every part of it (the maximum of the scores, the
  normaliser, the weighted sum) is a symmetric function of the family, so a bijection of the index type changes
  nothing: each sum is invariant under a bijection, and the fold of the maximum is the start joined with the
  supremum of the family, which is invariant too.

  The reference numbers the 16384 prototypes along one axis; the kernel walks them as 2 halves of 2 blocks of 4096
  rows.  Prototype 4096 * (2 k + r) + p is row p of block r of half k, and this is a bijection.
-/
import proofs.«138910_j57904749084788_2_alg».proof.Proof.Spec
import proofs.«138910_j57904749084788_2_alg».proof.Proof.LibMax
import Mathlib.Logic.Equiv.Fin.Basic
import Mathlib.Data.Fintype.Lattice
import Mathlib.Data.Fintype.BigOperators

noncomputable section

open scoped BigOperators

namespace Hdsdm

open Idealize.ShloMosaic

/-- The fold of the maximum over all indices is invariant under a bijection of the index type. -/
theorem fold_max_equiv {J J' : Type} [Fintype J] [Fintype J'] (e : J' ≃ J) (b : EReal) (s : J → EReal) :
    Finset.univ.fold max b (fun j => s (e j)) = Finset.univ.fold max b s := by
  rw [Cert.LibMax.fold_max_eq, Cert.LibMax.fold_max_eq, Finset.sup_univ_eq_iSup, Finset.sup_univ_eq_iSup]
  exact congrArg (max b) (e.iSup_comp (g := s))

/-- The reference's softmax over all prototypes does not depend on how the prototypes are named. -/
theorem outR_equiv {J J' : Type} [Fintype J] [Fintype J'] (e : J' ≃ J) (s γ : J → EReal) :
    Hdsdm.outR s γ = Hdsdm.outR (fun j => s (e j)) (fun j => γ (e j)) := by
  unfold outR
  rw [fold_max_equiv e wNegInf s]
  generalize max wNegInf (Finset.univ.fold max wNegInf s) = M
  have h1 : ∑ k : J', Ideal.exp (s (e k) - M) = ∑ k : J, Ideal.exp (s k - M) :=
    Equiv.sum_comp e (fun k => Ideal.exp (s k - M))
  rw [h1]
  exact (Equiv.sum_comp e
    (fun n => Ideal.div (Ideal.exp (s n - M)) (w0 + ∑ k : J, Ideal.exp (s k - M)) * γ n)).symm

/-- (half, block, row) to the prototype's number: first (half, block) to the block's number 2 k + r among four,
    then (block number, row) to 4096 * (block number) + row. -/
def protoEquiv : Fin 2 × Fin 2 × Fin 4096 ≃ Fin 16384 :=
  ((Equiv.prodAssoc (Fin 2) (Fin 2) (Fin 4096)).symm.trans
    ((Equiv.prodCongr finProdFinEquiv (Equiv.refl (Fin 4096))).trans finProdFinEquiv)).trans
    (finCongr (by norm_num))

theorem protoEquiv_val (k r : Fin 2) (p : Fin 4096) :
    (protoEquiv (k, r, p)).val = 4096 * (2 * k.val + r.val) + p.val := by
  simp only [protoEquiv, Equiv.trans_apply, Equiv.prodAssoc_symm_apply, Equiv.prodCongr_apply, Prod.map_apply,
    Equiv.refl_apply, finCongr_apply, Fin.coe_cast, finProdFinEquiv_apply_val]
  ring

/-- The reference's one axis of 16384 prototypes, read as (half, block, row). -/
theorem outR_blocks (s γ : Fin 16384 → EReal) :
    Hdsdm.outR s γ = Hdsdm.outR (fun j : Fin 2 × Fin 2 × Fin 4096 => s (protoEquiv (j.1, j.2.1, j.2.2)))
      (fun j => γ (protoEquiv (j.1, j.2.1, j.2.2))) :=
  outR_equiv protoEquiv s γ

end Hdsdm

end
-- ==== Proof.MobiusNorm.lean ====
/-
  The norm of a Möbius sum, over the reals.

  For a point `a` and a point `x` of a real inner-product space of finite dimension, written in coordinates, the
  Möbius sum of `-a` and `x` is `(c₁ • (-a) + c₂ • x) / δ`.  Its Euclidean norm is the square root of the sum over
  the coordinates of the squares of the quotient's coordinates; expanding the square under the sum it is
  `sqrt (c₁² ‖a‖² - 2 c₁ c₂ ⟨a, x⟩ + c₂² ‖x‖²) / δ` whenever `δ > 0`, and the radicand is a sum of squares, so
  clamping it below at zero changes nothing.
-/
import Mathlib

namespace MobiusNorm

open Finset

variable {ι : Type*} [Fintype ι]

/-- Expanding the square under the sum: the squared norm of `c₁ • (-a) + c₂ • x` in terms of the squared norms
    of `a` and `x` and their inner product. -/
theorem sum_sq_comb (a x : ι → ℝ) (c₁ c₂ : ℝ) :
    ∑ d, (c₁ * (-a d) + c₂ * x d) * (c₁ * (-a d) + c₂ * x d)
      = c₁ * c₁ * (∑ d, a d * a d) - 2 * c₁ * c₂ * (∑ d, a d * x d) + c₂ * c₂ * (∑ d, x d * x d) := by
  simp only [Finset.mul_sum, ← Finset.sum_sub_distrib, ← Finset.sum_add_distrib]
  exact Finset.sum_congr rfl fun d _ => by ring

end MobiusNorm
-- ==== Proof.NormLaw.lean ====
/-
  The norm law.

  Take a prototype row `a` and a projected input row `x` whose coordinates are real numbers `α`, `ξ`, and write
  `X2 = Σ α²`, `Y2 = Σ ξ²`, `P = Σ α ξ`.  The reference forms its three sums from `-a`, so its inner product is
  `Σ (-α) ξ = -P` and its squared norm is `Σ (-α)(-α) = X2`; its sums also start from the word of zero, which is the
  number zero.  Hence the reference's `c₁ = (1 + 2 (-P)) + Y2` is the kernel's `(1 - 2 P) + Y2`, both have
  `c₂ = 1 - X2`, and the two denominators agree.  The clamp of the denominator at the positive word `ε` makes
  `δ = max den ε` a positive real, so dividing by it is multiplying by `1 / δ`.

  The reference takes the root of `Σ_d ((c₁ (-α_d) + c₂ ξ_d) / δ)²`, which is `N / δ²` with
  `N = Σ_d (c₁ (-α_d) + c₂ ξ_d)² = c₁² X2 - 2 c₁ c₂ P + c₂² Y2`.  The kernel takes the root of `max N 0` and divides
  by `δ`.  `N` is a sum of squares, so `max N 0 = N`, both roots are roots of nonnegative reals, and
  `sqrt (N / δ²) = sqrt N / δ` because `δ > 0`.
-/
import Mathlib
import Idealize.ShloMosaic.PureOps.Ideal
import proofs.«138910_j57904749084788_2_alg».proof.Proof.Spec
import proofs.«138910_j57904749084788_2_alg».proof.Proof.Words
import proofs.«138910_j57904749084788_2_alg».proof.Proof.LibRealValued
import proofs.«138910_j57904749084788_2_alg».proof.Proof.MobiusNorm

noncomputable section

namespace Hdsdm

open Idealize.ShloMosaic

/-- The inclusion of the reals in the extended reals is monotone, so it carries a maximum to the maximum. -/
theorem coe_max_real (x y : ℝ) : ((max x y : ℝ) : EReal) = max (x : EReal) (y : EReal) :=
  EReal.coe_strictMono.monotone.map_max

section Norm
variable {ι : Type} [Fintype ι]

/-- The quotient of a real by a nonzero real is the real product with the reciprocal. -/
theorem div_coe_coe (u δ : ℝ) (h : δ ≠ 0) :
    Ideal.div (u : EReal) (δ : EReal) = ((u * (1 / δ) : ℝ) : EReal) := by
  rw [Ideal.div_coe h, ← EReal.coe_mul]

/-- The sum of the squared quotients of real coordinates by a nonzero real is a real sum. -/
theorem sum_div_sq (f : ι → ℝ) (δ : ℝ) (h : δ ≠ 0) :
    ∑ d, Ideal.div (f d : EReal) (δ : EReal) * Ideal.div (f d : EReal) (δ : EReal)
      = ((∑ d, (f d * (1 / δ)) * (f d * (1 / δ)) : ℝ) : EReal) := by
  rw [Cert.RealValued.coe_sum]
  exact Finset.sum_congr rfl fun d _ => by rw [div_coe_coe _ _ h, ← EReal.coe_mul]

/-- The reference's shape: the root of a sum (started at zero) of squared real quotients is a real root. -/
theorem ref_shape (f : ι → ℝ) (δ : ℝ) (h : δ ≠ 0) :
    Ideal.sqrt (((0 : ℝ) : EReal)
        + ∑ d, Ideal.div (f d : EReal) (δ : EReal) * Ideal.div (f d : EReal) (δ : EReal))
      = ((Real.sqrt (0 + ∑ d, (f d * (1 / δ)) * (f d * (1 / δ))) : ℝ) : EReal) := by
  have hnn : ¬ (0 + ∑ d, (f d * (1 / δ)) * (f d * (1 / δ)) < 0) := by
    rw [zero_add]
    exact not_lt.mpr (Finset.sum_nonneg fun d _ => mul_self_nonneg _)
  rw [sum_div_sq f δ h, ← EReal.coe_add, Ideal.sqrt_coe, if_neg hnn]

/-- The kernel's shape: the root of a radicand clamped at zero, divided by a nonzero real, is a real. -/
theorem ker_shape (N δ : ℝ) (h : δ ≠ 0) :
    Ideal.div (Ideal.sqrt ((max N 0 : ℝ) : EReal)) (δ : EReal)
      = ((Real.sqrt (max N 0) * (1 / δ) : ℝ) : EReal) := by
  rw [Ideal.sqrt_coe, if_neg (not_lt.mpr (le_max_right N 0)), Ideal.div_coe h, ← EReal.coe_mul]

/-- Over the reals: the norm of the quotient is the root of the expanded square over the divisor. -/
theorem real_norm (α ξ : ι → ℝ) (c1 c2 δ : ℝ) (hδ : 0 < δ) :
    Real.sqrt (0 + ∑ d, ((c1 * (-α d) + c2 * ξ d) * (1 / δ)) * ((c1 * (-α d) + c2 * ξ d) * (1 / δ)))
      = Real.sqrt (max (c1 * c1 * (∑ j, α j * α j) - 2 * c1 * c2 * (∑ j, α j * ξ j)
            + c2 * c2 * (∑ j, ξ j * ξ j)) 0) * (1 / δ) := by
  have hs : ∑ d, ((c1 * (-α d) + c2 * ξ d) * (1 / δ)) * ((c1 * (-α d) + c2 * ξ d) * (1 / δ))
      = (∑ d, (c1 * (-α d) + c2 * ξ d) * (c1 * (-α d) + c2 * ξ d)) * ((1 / δ) * (1 / δ)) := by
    rw [Finset.sum_mul]
    exact Finset.sum_congr rfl fun d _ => by ring
  have hN : 0 ≤ ∑ d, (c1 * (-α d) + c2 * ξ d) * (c1 * (-α d) + c2 * ξ d) :=
    Finset.sum_nonneg fun d _ => mul_self_nonneg _
  rw [zero_add, hs, ← MobiusNorm.sum_sq_comb, max_eq_left hN, Real.sqrt_mul hN,
    Real.sqrt_mul_self (one_div_nonneg.mpr hδ.le)]

/-- The reference's norm of the Möbius sum is the kernel's, for rows of real numbers. -/
theorem normR_eq_normK (a x : ι → EReal)
    (ha : ∀ d, Cert.RealValued.IsReal (a d)) (hx : ∀ d, Cert.RealValued.IsReal (x d)) :
    normR a x = normK a x := by
  have ha' : ∀ d, ∃ r : ℝ, a d = (r : EReal) := ha
  have hx' : ∀ d, ∃ r : ℝ, x d = (r : EReal) := hx
  choose α hα using ha'
  choose ξ hξ using hx'
  obtain rfl : a = fun d => (α d : EReal) := funext hα
  obtain rfl : x = fun d => (ξ d : EReal) := funext hξ
  obtain ⟨ε, hε, he'⟩ := Words.eps
  have he : wEps = (ε : EReal) := he'
  have h0 : w0 = ((0 : ℝ) : EReal) := by rw [EReal.coe_zero]; exact Words.zero
  have h1 : w1 = ((1 : ℝ) : EReal) := by rw [EReal.coe_one]; exact Words.one
  have h2 : w2 = ((2 : ℝ) : EReal) := Words.two
  unfold normR normK
  -- both sides as expressions in the real coordinates
  simp only [h0, h1, h2, he, ← EReal.coe_neg, ← EReal.coe_mul, ← Cert.RealValued.coe_sum, ← EReal.coe_add,
    ← EReal.coe_sub, ← coe_max_real]
  rw [ref_shape _ _ (lt_max_of_lt_right hε).ne', ker_shape _ _ (lt_max_of_lt_right hε).ne']
  refine congrArg Real.toEReal ?_
  -- the reference's three sums in terms of the kernel's
  have eP : (0 + ∑ j, -α j * ξ j) = -(∑ j, α j * ξ j) := by
    rw [zero_add, ← Finset.sum_neg_distrib]
    exact Finset.sum_congr rfl fun j _ => neg_mul _ _
  have eX : (0 + ∑ j, -α j * -α j) = ∑ j, α j * α j := by
    rw [zero_add]
    exact Finset.sum_congr rfl fun j _ => neg_mul_neg _ _
  have eY : (0 + ∑ j, ξ j * ξ j) = ∑ j, ξ j * ξ j := zero_add _
  rw [eP, eX, eY]
  have hc1 : 1 + 2 * -(∑ j, α j * ξ j) + ∑ j, ξ j * ξ j
      = 1 - 2 * (∑ j, α j * ξ j) + ∑ j, ξ j * ξ j := by ring
  have hd : 1 + 2 * -(∑ j, α j * ξ j) + (∑ j, α j * α j) * ∑ j, ξ j * ξ j
      = 1 - 2 * (∑ j, α j * ξ j) + (∑ j, α j * α j) * ∑ j, ξ j * ξ j := by ring
  rw [hc1, hd]
  exact real_norm α ξ _ _ _ (lt_max_of_lt_right hε)

end Norm

end Hdsdm

end
-- ==== Proof.ScoreLaw.lean ====
/-
  The score law.

  The reference negates the doubled half-logarithm, the kernel subtracts it from the word of zero; the word of
  zero is the number zero, and `0 - y = -y` on the extended reals, so the two scores are the same expression for
  every norm `δ`, finite or not.

  The score is a real number for every `δ`.  The clip `z = min hi (max lo δ)` lies between the two clip bounds
  `±(1 - 2⁻²³)`, which are real numbers, so `z` is a real number with `-1 < z < 1` even when `δ` is an infinity.
  Then `1 - z` is a positive real, the quotient `2 z / (1 - z)` is a real, and
  `1 + 2 z / (1 - z) = (1 + z) / (1 - z)` is a positive real, so the logarithm is the real logarithm.  What is left
  is a product of reals, a subtraction from zero and a division by four.
-/
import Mathlib
import Idealize.ShloMosaic.PureOps.Ideal
import proofs.«138910_j57904749084788_2_alg».proof.Proof.Spec
import proofs.«138910_j57904749084788_2_alg».proof.Proof.Words
import proofs.«138910_j57904749084788_2_alg».proof.Proof.LibRealValued

noncomputable section

namespace Hdsdm

open Idealize.ShloMosaic

/-- The two scores differ only in `-y` against `0 - y`. -/
theorem scoreR_eq_scoreK (δ : EReal) : scoreR δ = scoreK δ := by
  have h0 : w0 = 0 := Words.zero
  unfold scoreR scoreK
  rw [h0, zero_sub]

/-- The clipped norm is a real number between the two clip bounds, whatever the norm is. -/
theorem clip_real (δ : EReal) :
    ∃ z : ℝ, min wHi (max wLo δ) = (z : EReal) ∧ -(8388607 / 8388608 : ℝ) ≤ z ∧ z ≤ (8388607 / 8388608 : ℝ) := by
  have hhi : wHi = ((8388607 / 8388608 : ℝ) : EReal) := Words.hi
  have hlo : wLo = ((-(8388607 / 8388608) : ℝ) : EReal) := Words.lo
  rw [hhi, hlo]
  have hb : ((-(8388607 / 8388608) : ℝ) : EReal) ≤ ((8388607 / 8388608 : ℝ) : EReal) :=
    EReal.coe_le_coe_iff.mpr (by norm_num)
  have h1 : ((-(8388607 / 8388608) : ℝ) : EReal)
      ≤ min ((8388607 / 8388608 : ℝ) : EReal) (max ((-(8388607 / 8388608) : ℝ) : EReal) δ) :=
    le_min hb (le_max_left _ _)
  have h2 : min ((8388607 / 8388608 : ℝ) : EReal) (max ((-(8388607 / 8388608) : ℝ) : EReal) δ)
      ≤ ((8388607 / 8388608 : ℝ) : EReal) := min_le_left _ _
  generalize min ((8388607 / 8388608 : ℝ) : EReal) (max ((-(8388607 / 8388608) : ℝ) : EReal) δ) = y at h1 h2
  induction y using EReal.rec with
  | bot => exact absurd (le_bot_iff.mp h1) (EReal.coe_ne_bot _)
  | coe r => exact ⟨r, rfl, EReal.coe_le_coe_iff.mp h1, EReal.coe_le_coe_iff.mp h2⟩
  | top => exact absurd (top_le_iff.mp h2) (EReal.coe_ne_top _)

/-- The score is a real number for every norm, the two infinities included. -/
theorem scoreK_isReal (δ : EReal) : Cert.RealValued.IsReal (scoreK δ) := by
  obtain ⟨z, hz, hzl, hzu⟩ := clip_real δ
  have h0 : w0 = 0 := Words.zero
  have h1 : w1 = 1 := Words.one
  have h2 : w2 = ((2 : ℝ) : EReal) := Words.two
  have hh : wHalf = ((1 / 2 : ℝ) : EReal) := Words.half
  have h4 : w4 = ((4 : ℝ) : EReal) := Words.four
  unfold scoreK
  rw [hz, h0, h1, h2, hh, h4]
  have hpos : 0 < 1 - z := by linarith
  -- the logarithm is taken of the positive real (1 + z) / (1 - z)
  have hL : ∃ ℓ : ℝ,
      Ideal.log1p (Ideal.div (((2 : ℝ) : EReal) * (z : EReal)) (1 - (z : EReal))) = (ℓ : EReal) := by
    have e1 : (1 : EReal) - (z : EReal) = ((1 - z : ℝ) : EReal) := by
      rw [EReal.coe_sub, EReal.coe_one]
    rw [e1, Ideal.div_coe hpos.ne', ← EReal.coe_mul, ← EReal.coe_mul]
    unfold Ideal.log1p
    rw [← EReal.coe_one, ← EReal.coe_add, Ideal.log_coe]
    have hinv : (1 - z) * (1 / (1 - z)) = 1 := mul_one_div_cancel hpos.ne'
    have hq : ¬ (1 + 2 * z * (1 / (1 - z)) ≤ 0) := by
      have e : 1 + 2 * z * (1 / (1 - z)) = (1 + z) * (1 / (1 - z)) := by
        linear_combination (-1 : ℝ) * hinv
      rw [e]
      exact not_le.mpr (mul_pos (by linarith) (one_div_pos.mpr hpos))
    rw [if_neg hq]
    exact ⟨_, rfl⟩
  obtain ⟨ℓ, hℓ⟩ := hL
  rw [hℓ, Ideal.div_coe (by norm_num : (4 : ℝ) ≠ 0), zero_sub, ← EReal.coe_mul, ← EReal.coe_mul,
    ← EReal.coe_neg, ← EReal.coe_mul]
  exact ⟨_, rfl⟩

end Hdsdm

end
-- ==== Proof.Bridge.lean ====
import proofs.«138910_j57904749084788_2_alg».proof.Proof.KernelAt
import proofs.«138910_j57904749084788_2_alg».proof.Proof.TailAt
import proofs.«138910_j57904749084788_2_alg».proof.Proof.RefAt
import proofs.«138910_j57904749084788_2_alg».proof.Proof.RefProj
import proofs.«138910_j57904749084788_2_alg».proof.Proof.Prefix
import proofs.«138910_j57904749084788_2_alg».proof.Proof.SoftminLaw
import proofs.«138910_j57904749084788_2_alg».proof.Proof.Reindex
import proofs.«138910_j57904749084788_2_alg».proof.Proof.NormLaw
import proofs.«138910_j57904749084788_2_alg».proof.Proof.ScoreLaw

noncomputable section

open Idealize.ShloMosaic Idealize.ShloMosaic.TcCoe Idealize.SL.Sem

/-!
  The two results are one function of the arguments.

  At an (input `b`, class `q`) the kernel's result is the merge of its two halves' running triples, which is the two-level
  arrangement `outK` of the scores `scoreK (normK a_n x_b)` of the 16384 prototypes against input `b` and of the class
  weights `C (n, q)`, prototype `4096 (2k + r) + p` being row `p` of block `r` of half `k`. For real scores and weights that
  arrangement is the one softmax over all prototypes (the soft-min law), re-indexed along the prototype axis; the kernel's
  arrangement of the Möbius norm is the reference's for real rows (the norm law), and the two spellings of the score agree.
  Every input entry is real by the precondition, and so is every projected input.
-/
namespace Cert.Bridge

open Cert.KernelIdeal Cert.KernelIdeal.Gen Idealize.ShloMosaic.ValueIdx Cert.RealValued

variable (m : (ℓ : Loc nD τ sig) → Buf (Elt Ideal) ℓ)

/-- The score of prototype `n` against input `b`, in the kernel's arrangement, over the arrays as the region finds them. -/
def score (c : Dev nD) (b : Fin 128) (n : Fin 16384) : EReal :=
  Hdsdm.scoreK (Hdsdm.normK (fun d : Fin 128 => m ((c : Thread nD τ).loc main_arg1) (ix3 n (0 : Fin 1) d))
    (fun d : Fin 128 => V m c main_v9 (ix2 b d)))

theorem sK_eq (c : Dev nD) (b : Fin 128) (k r : Fin 2) (p : Fin 4096) :
    KernelAt.sK m c b k r p = score m c b (Hdsdm.protoEquiv (k, r, p)) := by
  unfold KernelAt.sK score
  have e : (⟨4096 * (2 * k.val + r.val) + p.val, by have := k.isLt; have := r.isLt; have := p.isLt; omega⟩ : Fin 16384) = Hdsdm.protoEquiv (k, r, p) :=
    Fin.ext (Hdsdm.protoEquiv_val k r p).symm
  rw [e]

theorem gK_eq (c : Dev nD) (q : Fin 100) (k r : Fin 2) (p : Fin 4096) :
    KernelAt.gK m c q k r p = m ((c : Thread nD τ).loc main_arg2) (ix2 (Hdsdm.protoEquiv (k, r, p)) q) := by
  unfold KernelAt.gK
  have e : (⟨4096 * (2 * k.val + r.val) + p.val, by have := k.isLt; have := r.isLt; have := p.isLt; omega⟩ : Fin 16384) = Hdsdm.protoEquiv (k, r, p) :=
    Fin.ext (Hdsdm.protoEquiv_val k r p).symm
  rw [e]

/-- The kernel's result at (b, q) is the one softmax over all prototypes, when the class weights are real. -/
theorem kernel_at (c : Dev nD) (hC : ∀ i, IsReal (m ((c : Thread nD τ).loc main_arg2) i)) (b : Fin 128) (q : Fin 100) :
    Tail.tailTerm (F := Ideal) (Arrays.G3 m c) (Arrays.G4 m c) (Arrays.G5 m c) (ix2 b q)
      = Hdsdm.outR (fun n : Fin 16384 => score m c b n) (fun n : Fin 16384 => m ((c : Thread nD τ).loc main_arg2) (ix2 n q)) := by
  rw [Tail.tail_apply, KernelAt.G4_apply, KernelAt.G4_apply, KernelAt.G5_apply, KernelAt.G5_apply, KernelAt.G3_apply, KernelAt.G3_apply]
  show Hdsdm.outK (fun k => KernelAt.sK m c b k) (fun k => KernelAt.gK m c q k) = _
  rw [Hdsdm.outK_eq_outR _ _ (fun k r p => by rw [sK_eq]; exact Hdsdm.scoreK_isReal _) (fun k r p => by rw [gK_eq]; exact hC _),
    Hdsdm.outR_blocks]
  congr 1
  · funext j; exact sK_eq m c b j.1 j.2.1 j.2.2
  · funext j; exact gK_eq m c q j.1 j.2.1 j.2.2

/-- The two results agree at every index, when every input entry is real. -/
theorem results_agree (c : Dev nD)
    (hX : ∀ i, IsReal (m ((c : Thread nD τ).loc main_arg0) i)) (hA : ∀ i, IsReal (m ((c : Thread nD τ).loc main_arg1) i))
    (hC : ∀ i, IsReal (m ((c : Thread nD τ).loc main_arg2) i)) :
    Cert.ReferenceIdeal.Read.val_main_v77 (F := Ideal) (m ((c : Thread nD τ).loc main_arg0)) (m ((c : Thread nD τ).loc main_arg1)) (m ((c : Thread nD τ).loc main_arg2))
      = Tail.tailTerm (F := Ideal) (Arrays.G3 m c) (Arrays.G4 m c) (Arrays.G5 m c) := by
  funext i
  obtain ⟨b, q, rfl⟩ : ∃ (b : Fin 128) (q : Fin 100), i = ix2 b q := ⟨i 0, i 1, eq_ix2 i⟩
  rw [kernel_at m c hC b q, Cert.ReferenceIdeal.RefAt.result_apply]
  refine congrArg (fun s => Hdsdm.outR s _) (funext fun n => ?_)
  unfold score
  rw [Hdsdm.scoreR_eq_scoreK, Hdsdm.normR_eq_normK _ _ (fun d => hA _)
    (fun d => Cert.ReferenceIdeal.RefProj.proj_isReal _ hX _), Prefix.projected m c]

end Cert.Bridge

end
-- ==== Proof.FiniteInputs.lean ====
/-
  From the precondition to "every entry is a real number".

  The precondition says, of each of the three input arrays, that the absolute value of every entry is less than
  plus infinity, and joins the three statements (each a conjunction over all entries of one array) by "and".  A
  conjunction that holds gives each of its members, so the comparison holds at every entry of every array.  At the
  exact instance an entry x is an extended real and its absolute value is max x (-x): for x either infinity this
  is plus infinity, which is not less than itself; so x is the coercion of a real number.

  Nothing here looks at the arrays' extents: the element fact is stated for an arbitrary shape, and the passage
  from the conjunction to its members is the library's, for an arbitrary index.
-/
import proofs.«138910_j57904749084788_2_alg».proof.Pre_finite_inputs
import proofs.«138910_j57904749084788_2_alg».proof.Proof.Gen.Pre_finite_inputs
import proofs.«138910_j57904749084788_2_alg».proof.Proof.LibRealValued
import Idealize.ShloMosaic.Lib.ReduceAll
import Idealize.ShloMosaic.Lib.ValueIdx
import Idealize.ShloMosaic.Lib.IdealHost
import Idealize.ShloMosaic.PureOps.Ideal

noncomputable section

namespace Cert.FiniteInputs

open Idealize.ShloMosaic Idealize.ShloMosaic.ValueIdx Cert.RealValued

/-- The scalar shape has one index. -/
instance : Subsingleton Cert.Pre_finite_inputs.S_.Idx := ⟨fun a b => funext fun d => d.elim0⟩

/-- The word the comparison is made against is plus infinity. -/
theorem pos_inf : Ideal.ofBits .f32 0x7F800000#32 = (⊤ : EReal) := by
  simp [Ideal.ofBits, Ideal.ieee]

/-- An extended real whose absolute value is less than plus infinity is a real number. -/
theorem isReal_of_abs_lt_top (x : EReal) (h : Ideal.cmp .olt (max x (-x)) ⊤ = 1#1) : IsReal x := by
  induction x using EReal.rec with
  | bot => exfalso; simp [Ideal.cmp] at h
  | coe r => exact ⟨r, rfl⟩
  | top => exfalso; simp [Ideal.cmp] at h

/-- The comparison "absolute value less than the broadcast word of plus infinity", read at one index of an array of
    any shape: that entry is real. -/
theorem elem_real {T : Shape} (hb : Cert.Pre_finite_inputs.S_.BroadcastsInDim T ![]) (x : FVec Ideal T .f32)
    (i : T.Idx)
    (h : cmpf .olt (Host.absf x)
      (broadcastInDim T ![] hb (constant (F := Ideal) Cert.Pre_finite_inputs.S_ .f32 0x7F800000#32)) i = 1#1) :
    IsReal (x i) := by
  rw [cmpf_apply, broadcastInDim_scalar_apply, constant_apply, pos_inf] at h
  exact isReal_of_abs_lt_top (x i) h

/-- The precondition gives: every entry of each of the three inputs is a real number. -/
theorem all_real [Cert.Pre_finite_inputs.Facts] (X : FVec Ideal Cert.Pre_finite_inputs.S128x128 .f32)
    (A : FVec Ideal Cert.Pre_finite_inputs.S16384x1x128 .f32) (C : FVec Ideal Cert.Pre_finite_inputs.S16384x100 .f32)
    (h : Cert.Pre_finite_inputs.fn (F := Ideal) X A C = fun _ => 1#1) :
    (∀ i, Cert.RealValued.IsReal (X i)) ∧ (∀ i, Cert.RealValued.IsReal (A i))
      ∧ (∀ i, Cert.RealValued.IsReal (C i)) := by
  have h0 := congrFun h ValueIdx.ix0
  dsimp only [Cert.Pre_finite_inputs.fn] at h0
  change IntOp.andi _ _ = 1#1 at h0
  obtain ⟨h12, h3⟩ := IntOp.andi_eq_one.1 h0
  change IntOp.andi _ _ = 1#1 at h12
  obtain ⟨h1, h2⟩ := IntOp.andi_eq_one.1 h12
  exact ⟨fun i => elem_real _ X i (Host.reduce_andi_all _ _ _ _ _ h1 i),
    fun i => elem_real _ A i (Host.reduce_andi_all _ _ _ _ _ h2 i),
    fun i => elem_real _ C i (Host.reduce_andi_all _ _ _ _ _ h3 i)⟩

end Cert.FiniteInputs

end
-- ==== Proof.lean ====
/-
  A prototype classifier on the Poincaré ball: for each of 128 inputs, projected onto the ball, the hyperbolic distance to
  each of 16384 prototypes is turned into a soft-min weight over the prototypes, and the weights combine the prototypes'
  class weights into 100 class scores.

  The reference forms, for every (prototype, input), the Möbius sum of the negated prototype and the input coordinate by
  coordinate, its norm, the distance `2 artanh` of the clipped norm, one softmax of `-distance / 4` over all prototypes and
  a matrix product with the class weights. The kernel never forms the sum: it expands its squared norm into the two
  squared norms and the inner product, walks the prototypes in four blocks of 4096, two blocks per half, keeping per input
  a running maximum, a normaliser and a weighted accumulator, and the program merges the two halves afterwards by rescaling
  both to the larger maximum and multiplying by the reciprocal of the merged normaliser.

  On the extended reals the two agree because (i) every input entry is real by the precondition, and the projection keeps
  it real; (ii) for real rows the expanded square is the square (the norm law), the radicand is a sum of squares, and the
  clamped denominator is positive; (iii) the clip keeps the norm strictly inside `(-1, 1)`, so every score is real;
  (iv) for real scores and weights a running softmax rescaled block by block, and two such merged, is the one softmax
  (the soft-min law), whatever real shift each stage subtracts. The kernel's frames are the generated ones, the
  reference's frame is its run with the result dropped, and the idealization rewrote nothing.
-/
import proofs.«138910_j57904749084788_2_alg».proof.Defs
import proofs.«138910_j57904749084788_2_alg».proof.Proof.Gen.Kernel
import proofs.«138910_j57904749084788_2_alg».proof.Proof.Gen.Kernel.Skeleton
import proofs.«138910_j57904749084788_2_alg».proof.Proof.Gen.Kernel.Launch
import proofs.«138910_j57904749084788_2_alg».proof.Proof.Gen.Kernel.Points
import proofs.«138910_j57904749084788_2_alg».proof.Proof.Gen.Kernel.Frame
import proofs.«138910_j57904749084788_2_alg».proof.Proof.Gen.KernelIdeal
import proofs.«138910_j57904749084788_2_alg».proof.Proof.Gen.KernelIdeal.Skeleton
import proofs.«138910_j57904749084788_2_alg».proof.Proof.Gen.KernelIdeal.Launch
import proofs.«138910_j57904749084788_2_alg».proof.Proof.Gen.KernelIdeal.Points
import proofs.«138910_j57904749084788_2_alg».proof.Proof.Gen.KernelIdeal.Frame
import proofs.«138910_j57904749084788_2_alg».proof.Proof.Gen.ReferenceIdeal
import proofs.«138910_j57904749084788_2_alg».proof.Proof.RefRunP
import proofs.«138910_j57904749084788_2_alg».proof.Proof.RefReadP
import proofs.«138910_j57904749084788_2_alg».proof.Proof.Gen.Pre_finite_inputs
import proofs.«138910_j57904749084788_2_alg».proof.Proof.Run
import proofs.«138910_j57904749084788_2_alg».proof.Proof.Bridge
import proofs.«138910_j57904749084788_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the merge of its two halves, the reference's its composed term of arguments
    that agree; every entry of the arguments is real by the precondition, and then the two are one function. -/
theorem algebraic : Cert.algebraic_KernelIdeal_ReferenceIdeal := by
  intro m ρ m' ρ' hpre hagree
  refine ⟨fun c => Cert.KernelIdeal.Tail.tailTerm (Cert.KernelIdeal.Arrays.G3 m c) (Cert.KernelIdeal.Arrays.G4 m c) (Cert.KernelIdeal.Arrays.G5 m c),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2]
  obtain ⟨hX, hA, hC⟩ := Cert.FiniteInputs.all_real _ _ _ (hpre c)
  exact Cert.Bridge.results_agree m c hX hA hC

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
